-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S_ : Shape := ⟨0, ![]⟩
abbrev S512x1024 : Shape := ⟨2, ![512, 1024]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1024x512 : Shape := ⟨2, ![1024, 512]⟩
abbrev S1024x1 : Shape := ⟨2, ![1024, 1]⟩
abbrev S1024 : Shape := ⟨1, ![1024]⟩

abbrev nBuf : Space → Nat
  | .hbm => 23
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S16384x1024, .bf16⟩
  | .hbm, ⟨17, _⟩ => ⟨S8x2048x1024, .bf16⟩
  | .hbm, ⟨18, _⟩ => ⟨S16384x1024, .bf16⟩
  | .hbm, ⟨19, _⟩ => ⟨S16384x1024, .bf16⟩
  | .hbm, ⟨20, _⟩ => ⟨S8x2048x1024, .bf16⟩
  | .hbm, ⟨21, _⟩ => ⟨S8x2048x1024, .bf16⟩
  | .hbm, ⟨22, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1x1024x1, .f32⟩
  | .local _ .vmem, ⟨22, _⟩ => ⟨S1x1024x1, .f32⟩
  | .local _ .vmem, ⟨23, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc2_scratch1 : Ref sig .tc := ⟨.vmem, 22, rfl⟩
abbrev cc2_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 2, 4], ![false, false, false]⟩

def k2_cond2 (i : grid2.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_30 : BitVec 32 := 0#32
  let v45 : BitVec 1 := Scalar.cmpi .ne v44 c0_i32_30
  v45

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S8x2048x1024_S16384x1024 : S8x2048x1024.ShapeCasts S16384x1024
  bcast_S_S1024x1024 : S_.BroadcastsInDim S1024x1024 (![] : Fin 0 → Fin S1024x1024.rank)
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  shapeCasts_S1x1024x1_S1024x1 : S1x1024x1.ShapeCasts S1024x1
  reduces_S1024x512_S1024 : S1024x512.Reduces [1] S1024
  shapeCasts_S1024_S1024x1 : S1024.ShapeCasts S1024x1
  broadcasts_S1024x1_S1024x512 : S1024x1.Broadcasts S1024x512
  shapeCasts_S1024x1_S1x1024x1 : S1024x1.ShapeCasts S1x1024x1
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x1024.size a
  hwx1_3 : ∀ i : grid1.Coords, EltTy.bits .bf16 = 32 ∨ (Rect.block (s := S16384x1024) S512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S16384x1024.size a
  hwx1_4 : ∀ i : grid1.Coords, EltTy.bits .bf16 = 32 ∨ (Rect.block (s := S16384x1024) S512x1024.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x2048x1024.size a
  hwx2_0 : ∀ i : grid2.Coords, EltTy.bits .bf16 = 32 ∨ (Rect.block (s := S8x2048x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S8x2048x1024.size a
  hwx2_1 : ∀ i : grid2.Coords, EltTy.bits .bf16 = 32 ∨ (Rect.block (s := S8x2048x1024) S1x512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S8x2048x1024.size a
  hwx2_2 : ∀ i : grid2.Coords, EltTy.bits .bf16 = 32 ∨ (Rect.block (s := S8x2048x1024) S1x512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S8x2048x1024.size a
  hwx2_3 : ∀ i : grid2.Coords, EltTy.bits .f32 = 32 ∨ (Rect.block (s := S8x2048x1024) S1x1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12_0) S512x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12_1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.R0.lean ====
/- Region 0 of @main (the first pallas_call: the projection kernel `cc0__proj_kernel`, a grid of 16 points),
   at ANY float instance `F` and at a PARAMETER `V`, the contents of the TensorCore's buffers when the region is entered.
   Per point the body reads a 1024×1024 block of f32 rows (window 0) and the whole 1024×1024 bf16 weight (window 1, one
   staging buffer, moved in at the first point only), and writes the 1024×1024 bf16 block of the product (window 2).
   Stated here: each window's block at a point as a function of `V`; the contents the body leaves in the output
   window's staging buffer as a closed function of the two input blocks; the body's separation-logic triple; the
   pipeline's proof data; and the body obligation of the pipeline's launch theorems. -/
import proofs.«148640_j1743756722493_2_alg».proof.Proof.Gen.Kernel.Launch
import proofs.«148640_j1743756722493_2_alg».proof.Proof.Gen.Kernel.Skeleton
import proofs.«148640_j1743756722493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-extent rectangle tiles a shape of extents 1024 recurses once per coordinate of an axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered: everything below is stated at an arbitrary such
-- family, so that a run may instantiate it at whatever the preceding host operations and regions leave
variable (V : (c : Dev nD) → (b : Ref sig .tc) → Buf (Elt F) ((c : Thread nD τ).loc b))

/-! # Region 0: `cc0__proj_kernel` (pipeline 0), at the entry contents `V` -/

/-! ## The windows' blocks -/

/-- The block of window `w` at grid point `t`: the elements of the window's array, as `V` has it on core `c`, that
    the window's index map selects at `t`, indexed by the block's own coordinates. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the f32 row block) is an input whose block index moves at every point. For any proof data whose array
    for it is `V`'s and whose body leaves the block in the buffer, the current staging buffer reads as the block at
    every point: a fetched buffer holds the block fetched, an unfetched one the previous point's block, whose index is
    then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the bf16 weight) is an input whose block index is constant: it is moved in at the first point and stays.
    The same statement holds of it, by the same argument: at a point where nothing is fetched the index has not moved,
    so the block kept from the point before is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes through: the whole 1024×1024 extent, from the origin, at unit stride. -/
abbrev r0_0 : Rect S1024x1024 := Rect.unit (s := S1024x1024) ![0, 0] S1024x1024.size inb_S1024x1024_S1024x1024_0_0

/-! ## What the body leaves in the output window's buffer -/

/-- The contents of window 2's staging buffer after the body, as a function of the two input blocks `x0` (f32 rows) and
    `x1` (bf16 weight): the body's single store — the product of the rows rounded to bf16 with the weight, accumulated in
    f32 from zero and rounded to bf16 (the skeleton's payload) — laid over the whole buffer. Nothing of what the buffer
    held before enters: the store covers it. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store's rectangle is the whole buffer: every index of the shape lies in it (one block of the full extent
    tiles the shape, checked by evaluation whatever the payload). -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on three whole staging memrefs — the two inputs' reading `x0`, `x1`, the output's holding anything — runs
    without fault to a state where the inputs' read as before and the output's reads `out0_2 x0 x1`. The body also loads
    the output memref before storing to it; the loaded value is used nowhere, so whatever the buffer held does not
    matter, and the store that follows covers the buffer. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`. The windows' arrays are what the region finds (`V`). After the body at
    point `t` each input's staging buffer reads as its block there, and the output's as `out0_2` of the two input
    blocks. The invariant carried from point to point is the class's: the staging cells the pipeline does not hold at
    the point and the generator register, untouched. Every share is the full one, and the core owes no signal. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents: the structure's field projected, `V` itself never unfolded. -/
theorem A_eq0 (c : Dev nD) (w : Fin cfg0.W) : (dat0 V c).A w = V c (Pipeline.arrRef spec0 w) := by
  dsimp only [dat0]

/-- What the body leaves in each window's buffer: the proof data's case split at the literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's current staging buffer: the window's block at the point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the pipeline hands the body at point `t`: the invariant and the core's debt before the point, and each
    window's current staging memref at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it takes back: the invariant and the debt after the point, each memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs read as the windows' blocks, so the body's triple applies at those
    blocks; the invariant and the debt do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the pipeline's launch theorems take, at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of @main (the second pallas_call: the key/value projection kernel `cc1__kv_proj_kernel`, a grid of 32
   points), at ANY float instance `F` and at a PARAMETER `V`, the contents of the TensorCore's buffers when the region is
   entered. Per point the body reads a 512×1024 block of f32 rows (window 0) and two whole 1024×1024 bf16 weights
   (windows 1 and 2, one staging buffer each, moved in at the first point only), and writes the two 512×1024 bf16 blocks
   of the rows' products with the one weight and with the other (windows 3 and 4). Stated here: each window's block at
   a point as a function of `V`; the contents the body leaves in each output window's staging buffer as a closed
   function of the input blocks; the body's separation-logic triple; the pipeline's proof data; and the body obligation
   of the pipeline's launch theorems. -/
import proofs.«148640_j1743756722493_2_alg».proof.Proof.Gen.Kernel.Launch
import proofs.«148640_j1743756722493_2_alg».proof.Proof.Gen.Kernel.Skeleton
import proofs.«148640_j1743756722493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-extent rectangle tiles a shape of extents 1024 recurses once per coordinate of an axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered: everything below is stated at an arbitrary such
-- family, so that a run may instantiate it at whatever the preceding host operations and regions leave
variable (V : (c : Dev nD) → (b : Ref sig .tc) → Buf (Elt F) ((c : Thread nD τ).loc b))

/-! # Region 1: `cc1__kv_proj_kernel` (pipeline 1), at the entry contents `V` -/

/-! ## The windows' blocks -/

/-- The block of window `w` at grid point `t`: the elements of the window's array, as `V` has it on core `c`, that
    the window's index map selects at `t`, indexed by the block's own coordinates. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the f32 row block) is an input whose block index moves at every point. For any proof data whose array
    for it is `V`'s and whose body leaves the block in the buffer, the current staging buffer reads as the block at
    every point: a fetched buffer holds the block fetched, an unfetched one the previous point's block, whose index is
    then this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the first bf16 weight) is an input whose block index is constant: it is moved in at the first point and
    stays. The same statement holds of it, by the same argument: at a point where nothing is fetched the index has not
    moved, so the block kept from the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the second bf16 weight): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rectangle the body reads the rows and writes both products through: the whole 512×1024 extent, from the
    origin, at unit stride; -/
abbrev r1_0 : Rect S512x1024 := Rect.unit (s := S512x1024) ![0, 0] S512x1024.size inb_S512x1024_S512x1024_0_0
/-- and the one it reads each weight through: the whole 1024×1024 extent. -/
abbrev r1_1 : Rect S1024x1024 := Rect.unit (s := S1024x1024) ![0, 0] S1024x1024.size inb_S1024x1024_S1024x1024_0_0

/-! ## What the body leaves in each output window's buffer -/

/-- The contents of window 3's staging buffer after the body, as a function of the row block `x0` and the first weight
    `x1`: the body's single store to it — the product of the rows rounded to bf16 with the weight, accumulated in f32
    from zero and rounded to bf16 (the skeleton's payload) — laid over the whole buffer. -/
def out1_3 (x0 : Vec F S512x1024 .f32) (x1 : Vec F S1024x1024 .bf16) : Vec F S512x1024 .bf16 :=
  View.canon [⟨r1_0, k1_pay2 (View.ld x0 r1_0) (View.ld x1 r1_1)⟩]

/-- The contents of window 4's staging buffer after the body, as a function of the row block `x0` and the second weight
    `x2`: the same product with the other weight, laid over the whole buffer. -/
def out1_4 (x0 : Vec F S512x1024 .f32) (x2 : Vec F S1024x1024 .bf16) : Vec F S512x1024 .bf16 :=
  View.canon [⟨r1_0, k1_pay3 (View.ld x0 r1_0) (View.ld x2 r1_1)⟩]

/-- A store through the whole-extent rectangle covers a 512×1024 buffer: every index of the shape lies in it (one block
    of the full extent tiles the shape, checked by evaluation whatever the payload). Both outputs' stores are of this
    form. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y
theorem cover1_4 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 1000000 in
/-- The body on five whole staging memrefs — the three inputs' reading `x0`, `x1`, `x2`, the two outputs' holding
    anything — runs without fault to a state where the inputs' read as before and the outputs' read `out1_3 x0 x1` and
    `out1_4 x0 x2`. The body also loads each output memref just before storing to it; the loaded values are used
    nowhere, so whatever the buffers held does not matter, and each store covers its buffer. -/
theorem sound_kernel1 (c : Dev nD) (E : Set ℕ) (i : grid1.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__kv_proj_kernel i arg1 harg1 arg2 harg2 arg3 harg3 arg4 harg4 arg5 harg5) K := by
  simp only [cc1__kv_proj_kernel_eq_skeleton]; unfold cc1__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`. The windows' arrays are what the region finds (`V`). After the body at
    point `t` each input's staging buffer reads as its block there, window 3's as `out1_3` of the row block and the first
    weight, window 4's as `out1_4` of the row block and the second weight. The invariant carried from point to point is
    the class's: the staging cells the pipeline does not hold at the point and the generator register, untouched. Every
    share is the full one, and the core owes no signal. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

/-- The proof data's arrays are the entry contents: the structure's field projected, `V` itself never unfolded. -/
theorem A_eq1 (c : Dev nD) (w : Fin cfg1.W) : (dat1 V c).A w = V c (Pipeline.arrRef spec1 w) := by
  dsimp only [dat1]

/-- What the body leaves in each window's buffer: the proof data's case split at the literal window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

/-- What the body finds in each input's current staging buffer: the window's block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the pipeline hands the body at point `t`: the invariant and the core's debt before the point, and each
    window's current staging memref at what it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back: the invariant and the debt after the point, each memref at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input memrefs read as the windows' blocks, so the body's triple applies at those
    blocks; the invariant and the debt do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation the pipeline's launch theorems take, at every point of the grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Base.lean ====
/-
  Region 2 (the attention region), what its three control cases share.

  The region's grid is 8 × 2 × 4: batch, query tile, key/value tile; the last coordinate moves fastest, so point t
  visits key/value tile t mod 4 of query tile (t / 4) mod 2 of batch t / 8. The body keeps, per query row, a running
  maximum m, a running normaliser l and a running accumulator acc in three scratch buffers that live across the four
  key/value tiles of one query tile: it resets them at tile 0, updates them at every tile, and divides acc by l into the
  output block at tile 3. So there are three control cases: A (tile 0: reset, then update), B (tiles 1, 2: update),
  C (tile 3: update, then write the output block). The output block is touched only in case C.

  Here: the windows' blocks as read off the arrays the region finds, the two branch conditions decided over the grid,
  where the output window is idle, names for the staging and scratch memrefs, and the region's resting invariant with
  the three scratch buffers singled out.
-/
import proofs.«148640_j1743756722493_2_alg».proof.Proof.Gen.Kernel.Launch
import proofs.«148640_j1743756722493_2_alg».proof.Proof.Gen.Kernel.Skeleton
import proofs.«148640_j1743756722493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it: the query tile (window 0), the key tile
    (window 1), the value tile (window 2), the output tile (window 3). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query window's staging buffer holds the query tile at every point, fetched there or not (it is fetched only when
    the query tile changes, every fourth point): the body never stores into it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The key window's staging buffer holds the key tile at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The value window's staging buffer holds the value tile at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two branch conditions -/

/-- "This is the first key/value tile": the reset branch's condition, from the grid coordinates. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last key/value tile": the finalising branch's condition. -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last key/value tile the body stores nothing into the output block, -/
theorem idleAt2_3 : ∀ t : Fin cfg2.N, ¬cond2_1 (grid2.coords t) → cfg2.idle 3 (grid2.coords t) = true := by decide +kernel
/-- and the block is not written back there; -/
theorem noFlush2_3 : ∀ t : Fin cfg2.N, ¬cond2_1 (grid2.coords t) → (cfg2.win 3).flush t = false := by decide +kernel
/-- at the last tile it is stored. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S1x1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .f32 := win2_3.stage (cfg2.slots t 3)
abbrev hs2_3 (t : Fin cfg2.N) : (ms2_3 t).IsWhole := hstage2_3 ((cfg2.slots t 3).cast nbuf2_3)
/-- The running maximum, the running normaliser and the running accumulator: whole scoped buffers of the kernel's own. -/
abbrev scM2_0 : Memref sig .tc .vmem S1x1024x1 .f32 := Memref.whole cc2_scratch0
abbrev scM2_1 : Memref sig .tc .vmem S1x1024x1 .f32 := Memref.whole cc2_scratch1
abbrev scM2_2 : Memref sig .tc .vmem S1x1024x1024 .f32 := Memref.whole cc2_scratch2
abbrev VS2_0 : View sig .tc .vmem S1x1024x1 .f32 := scM2_0.view
abbrev VS2_1 : View sig .tc .vmem S1x1024x1 .f32 := scM2_1.view
abbrev VS2_2 : View sig .tc .vmem S1x1024x1024 .f32 := scM2_2.view
/-- One staging buffer of the output window, through which its contents are stated. -/
abbrev VO2_3 : View sig .tc .vmem S1x1024x1024 .f32 := (Memref.whole cc2_stg3_0 : Memref sig .tc .vmem S1x1024x1024 .f32).view

/-! ## The resting invariant, the scratch buffers singled out -/

/-- The scoped buffers of the core that belong to the other two regions (their staging buffers), each at some contents:
    region 2 never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's resting invariant (every scoped buffer that is no staging buffer of this region at some contents, and the
    generator register at some state) hands over the three scratch buffers, each at some contents, beside the rest. -/
theorem PhiA2_split (c : Dev nD) :
    (Pipeline.ΦA spec2 c : sProp 𝕄)
      ⊢ iprop(others2 c ∗ (∃ d, owns (c : Thread nD τ) scM2_0 fullShare d) ∗ (∃ d, owns (c : Thread nD τ) scM2_1 fullShare d)
          ∗ (∃ d, owns (c : Thread nD τ) scM2_2 fullShare d) ∗ (∃ r, prngReg c r)) := by
  unfold Pipeline.ΦA others2; rw [scopedRest2_eq]; simp only [scM2_0, scM2_1, scM2_2, owns_whole]
  iintro ⟨⟨H1, H2, H3, H4, H5, H6, H7, H8, H9, H10, H11, H12, H13, HS0, HS1, HS2⟩, Hg⟩
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HS0]; · iexact HS0
  isplitl [HS1]; · iexact HS1
  isplitl [HS2]; · iexact HS2
  iexact Hg

/-- and takes them back, at any contents. -/
theorem PhiA2_join (c : Dev nD) :
    (iprop(others2 c ∗ (∃ d, owns (c : Thread nD τ) scM2_0 fullShare d) ∗ (∃ d, owns (c : Thread nD τ) scM2_1 fullShare d)
          ∗ (∃ d, owns (c : Thread nD τ) scM2_2 fullShare d) ∗ (∃ r, prngReg c r)) : sProp 𝕄)
      ⊢ Pipeline.ΦA spec2 c := by
  unfold Pipeline.ΦA others2; rw [scopedRest2_eq]; simp only [scM2_0, scM2_1, scM2_2, owns_whole]
  iintro ⟨⟨H1, H2, H3, H4, H5, H6, H7, H8, H9, H10, H11, H12, H13⟩, HS0, HS1, HS2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iexact HS2
  iexact Hg

end Cert.Kernel.Hand

end
-- ==== Proof.K.R2RunA.lean ====
/-
  Case A, the first key/value tile of a query tile: the three scratch buffers are reset (the maximum to −∞, the normaliser
  and the accumulator to 0) and then updated with this tile; the output block is not touched. The scratch buffers may hold
  anything on entry.
  The body's run on whole memrefs, and the pieces its stores leave in each buffer (last store first), found by running it.
-/
import proofs.«148640_j1743756722493_2_alg».proof.Proof.K.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case A, with the proof that
    the body, started on its input tiles and these buffers, runs to the end leaving the inputs as they were and each
    buffer with those pieces written. -/
noncomputable def kernelRun2_A (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : cond2_0 i) (hc1 : ¬cond2_1 i)
    (x0 : Vec F S1x1024x1024 .bf16) (x1 : Vec F S1x512x1024 .bf16) (x2 : Vec F S1x512x1024 .bf16) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨[], ?_, ?_, ?_, fun xi3 E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R2RunB.lean ====
/-
  Case B, a middle key/value tile: the three scratch buffers, holding what the tile before left, are updated with this
  tile; the output block is not touched.
  The body's run on whole memrefs, and the pieces its stores leave in each buffer (last store first), found by running it.
-/
import proofs.«148640_j1743756722493_2_alg».proof.Proof.K.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case B, with the proof that
    the body, started on its input tiles and these buffers, runs to the end leaving the inputs as they were and each
    buffer with those pieces written. -/
noncomputable def kernelRun2_B (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : ¬cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨[], ?_, ?_, ?_, fun xi3 E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R2RunC.lean ====
/-
  Case C, the last key/value tile: the three scratch buffers are updated with this tile, and the output block is stored
  as the accumulator divided, row by row, by the normaliser. The output's staging buffer may hold anything on entry.
  The body's run on whole memrefs, and the pieces its stores leave in each buffer (last store first), found by running it.
-/
import proofs.«148640_j1743756722493_2_alg».proof.Proof.K.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case C, with the proof that
    the body, started on its input tiles and these buffers, runs to the end leaving the inputs as they were and each
    buffer with those pieces written. -/
noncomputable def kernelRun2_C (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨?_, ?_, ?_, ?_, fun E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R2.lean ====
/-
  Region 2 (the attention region), point by point.

  After point t the three scratch buffers hold the running maximum, normaliser and accumulator of query tile (t / 4) mod 2
  of batch t / 8 over key/value tiles 0 … t mod 4; they are what the next point of the same query tile starts from, so the
  region's invariant between two points names them. Here: what each control case leaves in the scratch buffers and in the
  output block (its stores read back), the recursion over the points, the invariant, the proof data and the body obligation.
-/
import proofs.«148640_j1743756722493_2_alg».proof.Proof.K.R2RunA
import proofs.«148640_j1743756722493_2_alg».proof.Proof.K.R2RunB
import proofs.«148640_j1743756722493_2_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each case's run at a point of the grid -/

/-- The first key/value tile's run at point t, on the point's staging buffers and tiles. -/
def caseA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => h1 ((hcond2_1 t).mp h))
    (iblk2 V c 0 t) (iblk2 V c 1 t) (iblk2 V c 2 t)
/-- A middle tile's run at point t, from scratch contents xs. -/
def caseB (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) :=
  kernelRun2_B (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h))
    (iblk2 V c 0 t) (iblk2 V c 1 t) (iblk2 V c 2 t) xs0 xs1 xs2
/-- The last tile's run at point t, from scratch contents xs. -/
def caseC (c : Dev nD) (t : Fin cfg2.N) (h0 : ¬t.val % 4 = 0) (h1 : t.val % 4 = 3) (xs0 : Vec F S1x1024x1 .f32) (xs1 : Vec F S1x1024x1 .f32) (xs2 : Vec F S1x1024x1024 .f32) :=
  kernelRun2_C (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1)
    (iblk2 V c 0 t) (iblk2 V c 1 t) (iblk2 V c 2 t) xs0 xs1 xs2

/-! ## The stores of each case cover the buffers they write -/

theorem scover2_A_0 (c : Dev nD) (t : Fin cfg2.N) (h0 : t.val % 4 = 0) (h1 : ¬t.val % 4 = 3) (y : S1x1024x1.Idx) :
    ∃ pc ∈ (caseA V c t h0 h1).2.1, y ∈ pc.1.set :=
  View.cover_of_tiledL (caseA V c t h0 h1).2.1 S1x1024x1.size (by sl_kernel_rfl) y
theorem scover2_A_1 (c : Dev nD) (t : Fin cfg2.N) (h0 : t.val % 4 = 0) (h1 : ¬t.val % 4 = 3) (y : S1x1024x1.Idx) :
    ∃ pc ∈ (caseA V c t h0 h1).2.2.1, y ∈ pc.1.set :=
  View.cover_of_tiledL (caseA V c t h0 h1).2.2.1 S1x1024x1.size (by sl_kernel_rfl) y
theorem scover2_A_2 (c : Dev nD) (t : Fin cfg2.N) (h0 : t.val % 4 = 0) (h1 : ¬t.val % 4 = 3) (y : S1x1024x1024.Idx) :
    ∃ pc ∈ (caseA V c t h0 h1).2.2.2.1, y ∈ pc.1.set :=
  View.cover_of_tiledL (caseA V c t h0 h1).2.2.2.1 S1x1024x1024.size (by sl_kernel_rfl) y
theorem scover2_B_0 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1.Idx) :
    ∃ pc ∈ (caseB V c t h0 h1 xs0 xs1 xs2).2.1, y ∈ pc.1.set :=
  View.cover_of_tiledL (caseB V c t h0 h1 xs0 xs1 xs2).2.1 S1x1024x1.size (by sl_kernel_rfl) y
theorem scover2_B_1 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1.Idx) :
    ∃ pc ∈ (caseB V c t h0 h1 xs0 xs1 xs2).2.2.1, y ∈ pc.1.set :=
  View.cover_of_tiledL (caseB V c t h0 h1 xs0 xs1 xs2).2.2.1 S1x1024x1.size (by sl_kernel_rfl) y
theorem scover2_B_2 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1024.Idx) :
    ∃ pc ∈ (caseB V c t h0 h1 xs0 xs1 xs2).2.2.2.1, y ∈ pc.1.set :=
  View.cover_of_tiledL (caseB V c t h0 h1 xs0 xs1 xs2).2.2.2.1 S1x1024x1024.size (by sl_kernel_rfl) y
theorem scover2_C_0 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1.Idx) :
    ∃ pc ∈ (caseC V c t h0 h1 xs0 xs1 xs2).2.1, y ∈ pc.1.set :=
  View.cover_of_tiledL (caseC V c t h0 h1 xs0 xs1 xs2).2.1 S1x1024x1.size (by sl_kernel_rfl) y
theorem scover2_C_1 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1.Idx) :
    ∃ pc ∈ (caseC V c t h0 h1 xs0 xs1 xs2).2.2.1, y ∈ pc.1.set :=
  View.cover_of_tiledL (caseC V c t h0 h1 xs0 xs1 xs2).2.2.1 S1x1024x1.size (by sl_kernel_rfl) y
theorem scover2_C_2 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1024.Idx) :
    ∃ pc ∈ (caseC V c t h0 h1 xs0 xs1 xs2).2.2.2.1, y ∈ pc.1.set :=
  View.cover_of_tiledL (caseC V c t h0 h1 xs0 xs1 xs2).2.2.2.1 S1x1024x1024.size (by sl_kernel_rfl) y
/-- The last tile's one store covers the output block. -/
theorem cover2_C_3 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1024.Idx) :
    ∃ pc ∈ (caseC V c t h0 h1 xs0 xs1 xs2).1, y ∈ pc.1.set :=
  View.cover_of_tiledL (caseC V c t h0 h1 xs0 xs1 xs2).1 S1x1024x1024.size (by sl_kernel_rfl) y

/-! ## What each case leaves: (output block, maximum, normaliser, accumulator) -/

/-- After the first tile: the scratch buffers' stores read back; the output block is not stored (a placeholder nothing reads). -/
def resA (c : Dev nD) (t : Fin cfg2.N) (h0 : t.val % 4 = 0) (h1 : ¬t.val % 4 = 3) : Vec F S1x1024x1024 .f32 × Vec F S1x1024x1 .f32 × Vec F S1x1024x1 .f32 × Vec F S1x1024x1024 .f32 :=
  (VO2_3.read (Elt F) (VO2_3.writes (Elt F) VO2_3.junk (caseA V c t h0 h1).1),
   VS2_0.read (Elt F) (VS2_0.writes (Elt F) VS2_0.junk (caseA V c t h0 h1).2.1),
   VS2_1.read (Elt F) (VS2_1.writes (Elt F) VS2_1.junk (caseA V c t h0 h1).2.2.1),
   VS2_2.read (Elt F) (VS2_2.writes (Elt F) VS2_2.junk (caseA V c t h0 h1).2.2.2.1))
/-- After a middle tile, from what the tile before left. -/
def resB (c : Dev nD) (t : Fin cfg2.N) (h0 : ¬t.val % 4 = 0) (h1 : ¬t.val % 4 = 3) (p : Vec F S1x1024x1024 .f32 × Vec F S1x1024x1 .f32 × Vec F S1x1024x1 .f32 × Vec F S1x1024x1024 .f32) : Vec F S1x1024x1024 .f32 × Vec F S1x1024x1 .f32 × Vec F S1x1024x1 .f32 × Vec F S1x1024x1024 .f32 :=
  (VO2_3.read (Elt F) (VO2_3.writes (Elt F) VO2_3.junk (caseB V c t h0 h1 p.2.1 p.2.2.1 p.2.2.2).1),
   VS2_0.read (Elt F) (VS2_0.writes (Elt F) VS2_0.junk (caseB V c t h0 h1 p.2.1 p.2.2.1 p.2.2.2).2.1),
   VS2_1.read (Elt F) (VS2_1.writes (Elt F) VS2_1.junk (caseB V c t h0 h1 p.2.1 p.2.2.1 p.2.2.2).2.2.1),
   VS2_2.read (Elt F) (VS2_2.writes (Elt F) VS2_2.junk (caseB V c t h0 h1 p.2.1 p.2.2.1 p.2.2.2).2.2.2.1))
/-- After the last tile, from what the tile before left: now the output block is stored too. -/
def resC (c : Dev nD) (t : Fin cfg2.N) (h0 : ¬t.val % 4 = 0) (h1 : t.val % 4 = 3) (p : Vec F S1x1024x1024 .f32 × Vec F S1x1024x1 .f32 × Vec F S1x1024x1 .f32 × Vec F S1x1024x1024 .f32) : Vec F S1x1024x1024 .f32 × Vec F S1x1024x1 .f32 × Vec F S1x1024x1 .f32 × Vec F S1x1024x1024 .f32 :=
  (VO2_3.read (Elt F) (VO2_3.writes (Elt F) VO2_3.junk (caseC V c t h0 h1 p.2.1 p.2.2.1 p.2.2.2).1),
   VS2_0.read (Elt F) (VS2_0.writes (Elt F) VS2_0.junk (caseC V c t h0 h1 p.2.1 p.2.2.1 p.2.2.2).2.1),
   VS2_1.read (Elt F) (VS2_1.writes (Elt F) VS2_1.junk (caseC V c t h0 h1 p.2.1 p.2.2.1 p.2.2.2).2.2.1),
   VS2_2.read (Elt F) (VS2_2.writes (Elt F) VS2_2.junk (caseC V c t h0 h1 p.2.1 p.2.2.1 p.2.2.2).2.2.2.1))

/-- THE RECURSION OVER THE POINTS: what the output's staging buffer and the three scratch buffers hold after point n. -/
def outsAt2 (c : Dev nD) : (n : ℕ) → n < cfg2.N → Vec F S1x1024x1024 .f32 × Vec F S1x1024x1 .f32 × Vec F S1x1024x1 .f32 × Vec F S1x1024x1024 .f32
  | 0, hn => resA V c ⟨0, hn⟩ (Nat.zero_mod _) (show ¬((0 : ℕ) % 4 = 3) from by decide)
  | n + 1, hn =>
    if h0 : (n + 1) % 4 = 0 then resA V c ⟨n + 1, hn⟩ h0 (fun h => by have h' : (n + 1) % 4 = 3 := h; omega)
    else if h1 : (n + 1) % 4 = 3 then resC V c ⟨n + 1, hn⟩ h0 h1 (outsAt2 c n (Nat.lt_of_succ_lt hn))
    else resB V c ⟨n + 1, hn⟩ h0 h1 (outsAt2 c n (Nat.lt_of_succ_lt hn))

theorem outsAt2_A (c : Dev nD) (t : Fin cfg2.N) (h0 : t.val % 4 = 0) (h1 : ¬t.val % 4 = 3) :
    outsAt2 V c t.val t.isLt = resA V c t h0 h1 := by
  obtain ⟨n, hn⟩ := t
  cases n with
  | zero => rfl
  | succ n => exact (dif_pos h0).trans rfl
theorem outsAt2_B (c : Dev nD) (t : Fin cfg2.N) (h0 : ¬t.val % 4 = 0) (h1 : ¬t.val % 4 = 3) :
    outsAt2 V c t.val t.isLt = resB V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 4 = 0) (h1 : t.val % 4 = 3) :
    outsAt2 V c t.val t.isLt = resC V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between two points -/

/-- Before the first point: the class's resting invariant. After point n: the other regions' buffers at anything, the three
    scratch buffers at the running maximum, normaliser and accumulator point n left, the generator register at some state. -/
def PhiS2 (c : Dev nD) : (n : ℕ) → n ≤ cfg2.N → sProp 𝕄
  | 0, _ => Pipeline.ΦA spec2 c
  | n + 1, hn => iprop(others2 c ∗ owns (c : Thread nD τ) scM2_0 fullShare (outsAt2 V c n hn).2.1
      ∗ owns (c : Thread nD τ) scM2_1 fullShare (outsAt2 V c n hn).2.2.1
      ∗ owns (c : Thread nD τ) scM2_2 fullShare (outsAt2 V c n hn).2.2.2 ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c ∗ owns (c : Thread nD τ) scM2_0 fullShare (outsAt2 V c n hn).2.1
      ∗ owns (c : Thread nD τ) scM2_1 fullShare (outsAt2 V c n hn).2.2.1
      ∗ owns (c : Thread nD τ) scM2_2 fullShare (outsAt2 V c n hn).2.2.2 ∗ (∃ r, prngReg c r)) := rfl
theorem PhiS2_pos (c : Dev nD) (n : ℕ) (h : n ≤ cfg2.N) (hz : n ≠ 0) :
    PhiS2 V c n h = iprop(others2 c ∗ owns (c : Thread nD τ) scM2_0 fullShare (outsAt2 V c (n - 1) (by omega)).2.1
      ∗ owns (c : Thread nD τ) scM2_1 fullShare (outsAt2 V c (n - 1) (by omega)).2.2.1
      ∗ owns (c : Thread nD τ) scM2_2 fullShare (outsAt2 V c (n - 1) (by omega)).2.2.2 ∗ (∃ r, prngReg c r)) := by
  cases n with
  | zero => exact absurd rfl hz
  | succ n => rfl

/-! ## The proof data -/

/-- The arrays as the region finds them; after the body at point t the three input windows at their tiles, the output
    window at what the recursion says; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

set_option maxHeartbeats 8000000 in
/-- The body at any point: the closed forms say which case the point is in; the invariant hands the body the scratch buffers
    at what the point before left (at anything before the first point, and the first tile's reset does not read them), and
    takes them back at this point's contents; the output block is handed back untouched except at the last tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold resA; dsimp only
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hoth, HS0, HS1, HS2, Hg⟩
      iapply ((caseA V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 V c t h0 h1)
        isplitl [HS1]
        · unfold owns; iexists _; isplitr
          swap; · iexact HS1
          ipureintro; exact View.read_writes_of_cover _ _ _ _ _ (scover2_A_1 V c t h0 h1)
        isplitl [HS2]
        · unfold owns; iexists _; isplitr
          swap; · iexact HS2
          ipureintro; exact View.read_writes_of_cover _ _ _ _ _ (scover2_A_2 V c t h0 h1)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseA V c t h0 h1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 V c t h0 h1)
        isplitl [HS1]
        · unfold owns; iexists _; isplitr
          swap; · iexact HS1
          ipureintro; exact View.read_writes_of_cover _ _ _ _ _ (scover2_A_1 V c t h0 h1)
        isplitl [HS2]
        · unfold owns; iexists _; isplitr
          swap; · iexact HS2
          ipureintro; exact View.read_writes_of_cover _ _ _ _ _ (scover2_A_2 V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold resC; dsimp only
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseC V c t h0 h1 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_C_0 V c t h0 h1 _ _ _)
        isplitl [HS1]
        · unfold owns; iexists _; isplitr
          swap; · iexact HS1
          ipureintro; exact View.read_writes_of_cover _ _ _ _ _ (scover2_C_1 V c t h0 h1 _ _ _)
        isplitl [HS2]
        · unfold owns; iexists _; isplitr
          swap; · iexact HS2
          ipureintro; exact View.read_writes_of_cover _ _ _ _ _ (scover2_C_2 V c t h0 h1 _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 V c t h0 h1 _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold resB; dsimp only
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseB V c t h0 h1 _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_B_0 V c t h0 h1 _ _ _)
        isplitl [HS1]
        · unfold owns; iexists _; isplitr
          swap; · iexact HS1
          ipureintro; exact View.read_writes_of_cover _ _ _ _ _ (scover2_B_1 V c t h0 h1 _ _ _)
        isplitl [HS2]
        · unfold owns; iexists _; isplitr
          swap; · iexact HS2
          ipureintro; exact View.read_writes_of_cover _ _ _ _ _ (scover2_B_2 V c t h0 h1 _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's resting invariant back: the scratch buffers' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  refine .trans ?_ (PhiA2_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

end

end Cert.Kernel.Hand

end
-- ==== Proof.K.Run.lean ====
/- The run of @main of the idealized kernel program, at ANY float instance `F`: @main is three stretches of host
   operations and three pallas_call regions, alternating, ending with the third region. Stated here: the contents of
   every unscoped buffer at each boundary between segments, as a fold of the launch memory through the host stretches
   and the regions' write-backs; that each argument's buffer is carried unchanged through the fold; every pipeline's
   proof data at its region's entry contents; the thread state carried from segment to segment; each region and each
   host stretch as a segment; and from these, that every weakly fair execution terminates without a fault with every
   unscoped buffer at the last boundary's contents — of which the frame (the arguments end as launched) is a
   consequence. -/
import proofs.«148640_j1743756722493_2_alg».proof.Proof.Gen.Kernel.Launch
import proofs.«148640_j1743756722493_2_alg».proof.Proof.K.R0
import proofs.«148640_j1743756722493_2_alg».proof.Proof.K.R1
import proofs.«148640_j1743756722493_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host stretches and three regions, from the launch to the return

## The buffer contents at each boundary between segments -/

/-- Core `c`'s buffers at launch. -/
abbrev W0 : Dev nD → Valuation τ sig (Elt F) := fun c b => (s₀ m ρ).mem ((c : Dev nD), b)

/-- The contents when region 0 is entered: `hostOps0` applied to the launch contents. -/
abbrev W1 : Dev nD → Valuation τ sig (Elt F) := fun c => StableHlo.after hostOps0 (W0 m ρ c)
/-- The same, read at the TensorCore's references: the parameter region 0's proof data are taken at. -/
abbrev V1 : (c : Dev nD) → (b : Ref sig .tc) → Buf (Elt F) ((c : Thread nD τ).loc b) := fun c b => W1 m ρ c b
/-- The contents when region 0 is left: each of its windows' arrays at what the pipeline's transfers leave there after
    the last point (an input's array as entered, an output's with every write-back folded in), every other buffer as
    entered. -/
def W2 (c : Dev nD) : Valuation τ sig (Elt F) :=
  Pipeline.withArrays spec0 c (W1 m ρ c) fun w => (dat0 (V1 m ρ) c).arrAt w cfg0.N
/-- At a window's array, the exit contents are the proof data's last array contents; -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- at a buffer that is no window's array, the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- The two facts that put region 0's arrays back among the unscoped buffers at its exit: each array holds what the
    pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents when region 1 is entered: `hostOps1` applied to what region 0 left. -/
abbrev W3 : Dev nD → Valuation τ sig (Elt F) := fun c => StableHlo.after hostOps1 (W2 m ρ c)
/-- The same, read at the TensorCore's references: the parameter region 1's proof data are taken at. -/
abbrev V3 : (c : Dev nD) → (b : Ref sig .tc) → Buf (Elt F) ((c : Thread nD τ).loc b) := fun c b => W3 m ρ c b
/-- The contents when region 1 is left: each of its windows' arrays at what the pipeline's transfers leave there after
    the last point (an input's array as entered, an output's with every write-back folded in), every other buffer as
    entered. -/
def W4 (c : Dev nD) : Valuation τ sig (Elt F) :=
  Pipeline.withArrays spec1 c (W3 m ρ c) fun w => (dat1 (V3 m ρ) c).arrAt w cfg1.N
/-- At a window's array, the exit contents are the proof data's last array contents; -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- at a buffer that is no window's array, the entry contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- The two facts that put region 1's arrays back among the unscoped buffers at its exit: each array holds what the
    pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The contents when region 2 is entered: `hostOps2` applied to what region 1 left. -/
abbrev W5 : Dev nD → Valuation τ sig (Elt F) := fun c => StableHlo.after hostOps2 (W4 m ρ c)
/-- The same, read at the TensorCore's references: the parameter region 2's proof data are taken at. -/
abbrev V5 : (c : Dev nD) → (b : Ref sig .tc) → Buf (Elt F) ((c : Thread nD τ).loc b) := fun c b => W5 m ρ c b
/-- The contents when region 2 is left: each of its windows' arrays at what the pipeline's transfers leave there after
    the last point (an input's array as entered, an output's with every write-back folded in), every other buffer as
    entered. -/
def W6 (c : Dev nD) : Valuation τ sig (Elt F) :=
  Pipeline.withArrays spec2 c (W5 m ρ c) fun w => (dat2 (V5 m ρ) c).arrAt w cfg2.N
/-- At a window's array, the exit contents are the proof data's last array contents; -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- at a buffer that is no window's array, the entry contents. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- The two facts that put region 2's arrays back among the unscoped buffers at its exit: each array holds what the
    pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The result of @main, `main_v15`, is the array of region 2's output window: at the end it holds what that
    pipeline's write-backs leave. -/
theorem W6_main_v15 (c : Dev nD) : W6 m ρ c (Proc.devRef .tc main_v15) = (dat2 (V5 m ρ) c).arrAt 3 cfg2.N :=
  W6_arr m ρ c 3

/-! ### The arguments end as launched

No host operation writes an argument's buffer and no region has one as a window's array (the regions read reshaped
or transposed copies), so the contents at an argument's buffer are carried unchanged across every boundary, back to
the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No pipeline has a prefetched table: the admissible table contents are the trivial ones. -/
abbrev adm : (p : Fin 3) → (pcfgs (F := F) p).Adm := fun p => (cfgs p).toPCfg_adm
/-- Every pipeline's proof data, each taken at the contents its region is entered with. A case split on the literal
    index, so that at a numeral the configuration reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another a signal: no level is assigned. -/
abbrev L : GSem nD τ sig → Finset Unit := fun _ => ∅
abbrev lv : GSem nD τ sig → Unit → ℕ := fun _ _ => 0
/-- What every segment carries beside the buffers: the core's generator register at some state, and its debt of
    signals, which is empty. -/
abbrev R (c : Dev nD) : sProp 𝕄 := iprop((∃ r, prngReg c r) ∗ ∃ W, owes (c : Thread nD τ) (0 : CellTallies nD τ sig Unit) W)
/-- A stretch of host operations as a segment: from every unscoped buffer at the contents `W` to every unscoped
    buffer at the contents the operations leave, `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the three stretches allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt: every unscoped buffer at the final contents `W6`, the generator register
    at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration `pin pcs a p` needs unification to unfold plain
-- definitions inside a metavariable's type
set_option backward.isDefEq.respectTransparency.types false in
/-- Region 0 as a segment over the thread state: entered holding every unscoped buffer at `W1`, left holding them at
    `W2`. At entry the region's arrays are split out of the unscoped buffers and the generator register goes into the
    pipeline's invariant; at exit both come back, the arrays at their final contents. The core owes nothing throughout,
    and the kernel names no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` needs unification to unfold plain
-- definitions inside a metavariable's type
set_option backward.isDefEq.respectTransparency.types false in
/-- Region 1 as a segment over the thread state: entered holding every unscoped buffer at `W3`, left holding them at
    `W4`. At entry the region's arrays are split out of the unscoped buffers and the generator register goes into the
    pipeline's invariant; at exit both come back, the arrays at their final contents. The core owes nothing throughout,
    and the kernel names no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` needs unification to unfold plain
-- definitions inside a metavariable's type
set_option backward.isDefEq.respectTransparency.types false in
/-- Region 2 as a segment over the thread state: entered holding every unscoped buffer at `W5`, left holding them at
    `W6`. At entry the region's arrays are split out of the unscoped buffers and the generator register goes into the
    pipeline's invariant; at exit both come back, the arrays at their final contents. The core owes nothing throughout,
    and the kernel names no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch, entered at its boundary's contents, and a region per
    pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of these segments: it is the chain of its stretches and custom calls, and the segments' run
    unfolds to that chain. -/
theorem main_run (c : Dev nD) : main (F := F) c = Pipeline.Seg.run (segs m ρ) := (main_chain c).trans (by chain_rfl)

-- the launch theorem's implicit arguments are found by unifying its conclusion with the statement, which needs
-- unification to unfold plain definitions inside a metavariable's type
set_option backward.isDefEq.respectTransparency.types false in
/-- From any memory `m` with every semaphore counter at zero, every weakly fair execution of @main on the TensorCores
    terminates without a fault, and in every final state EVERY unscoped buffer of every core holds the contents `W6`:
    the fold of the launch memory through the three host stretches and the three regions' write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- The frame: every weakly fair execution of @main terminates without a fault, and the five argument arrays end as
    launched — each is an unscoped buffer, so it ends at `W6`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.Kernel.Hand

end
-- ==== Proof.KI.R0.lean ====
/- Region 0 of @main (the first pallas_call: the projection kernel `cc0__proj_kernel`, a grid of 16 points),
   at ANY float instance `F` and at a PARAMETER `V`, the contents of the TensorCore's buffers when the region is entered.
   Per point the body reads a 1024×1024 block of f32 rows (window 0) and the whole 1024×1024 bf16 weight (window 1, one
   staging buffer, moved in at the first point only), and writes the 1024×1024 bf16 block of the product (window 2).
   Stated here: each window's block at a point as a function of `V`; the contents the body leaves in the output
   window's staging buffer as a closed function of the two input blocks; the body's separation-logic triple; the
   pipeline's proof data; and the body obligation of the pipeline's launch theorems. -/
import proofs.«148640_j1743756722493_2_alg».proof.Proof.Gen.KernelIdeal.Launch
import proofs.«148640_j1743756722493_2_alg».proof.Proof.Gen.KernelIdeal.Skeleton
import proofs.«148640_j1743756722493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-extent rectangle tiles a shape of extents 1024 recurses once per coordinate of an axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered: everything below is stated at an arbitrary such
-- family, so that a run may instantiate it at whatever the preceding host operations and regions leave
variable (V : (c : Dev nD) → (b : Ref sig .tc) → Buf (Elt F) ((c : Thread nD τ).loc b))

/-! # Region 0: `cc0__proj_kernel` (pipeline 0), at the entry contents `V` -/

/-! ## The windows' blocks -/

/-- The block of window `w` at grid point `t`: the elements of the window's array, as `V` has it on core `c`, that
    the window's index map selects at `t`, indexed by the block's own coordinates. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the f32 row block) is an input whose block index moves at every point. For any proof data whose array
    for it is `V`'s and whose body leaves the block in the buffer, the current staging buffer reads as the block at
    every point: a fetched buffer holds the block fetched, an unfetched one the previous point's block, whose index is
    then this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (the bf16 weight) is an input whose block index is constant: it is moved in at the first point and stays.
    The same statement holds of it, by the same argument: at a point where nothing is fetched the index has not moved,
    so the block kept from the point before is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes through: the whole 1024×1024 extent, from the origin, at unit stride. -/
abbrev r0_0 : Rect S1024x1024 := Rect.unit (s := S1024x1024) ![0, 0] S1024x1024.size inb_S1024x1024_S1024x1024_0_0

/-! ## What the body leaves in the output window's buffer -/

/-- The contents of window 2's staging buffer after the body, as a function of the two input blocks `x0` (f32 rows) and
    `x1` (bf16 weight): the body's single store — the product of the rows rounded to bf16 with the weight, accumulated in
    f32 from zero and rounded to bf16 (the skeleton's payload) — laid over the whole buffer. Nothing of what the buffer
    held before enters: the store covers it. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store's rectangle is the whole buffer: every index of the shape lies in it (one block of the full extent
    tiles the shape, checked by evaluation whatever the payload). -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on three whole staging memrefs — the two inputs' reading `x0`, `x1`, the output's holding anything — runs
    without fault to a state where the inputs' read as before and the output's reads `out0_2 x0 x1`. The body also loads
    the output memref before storing to it; the loaded value is used nowhere, so whatever the buffer held does not
    matter, and the store that follows covers the buffer. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`. The windows' arrays are what the region finds (`V`). After the body at
    point `t` each input's staging buffer reads as its block there, and the output's as `out0_2` of the two input
    blocks. The invariant carried from point to point is the class's: the staging cells the pipeline does not hold at
    the point and the generator register, untouched. Every share is the full one, and the core owes no signal. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents: the structure's field projected, `V` itself never unfolded. -/
theorem A_eq0 (c : Dev nD) (w : Fin cfg0.W) : (dat0 V c).A w = V c (Pipeline.arrRef spec0 w) := by
  dsimp only [dat0]

/-- What the body leaves in each window's buffer: the proof data's case split at the literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's current staging buffer: the window's block at the point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the pipeline hands the body at point `t`: the invariant and the core's debt before the point, and each
    window's current staging memref at what it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it takes back: the invariant and the debt after the point, each memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input memrefs read as the windows' blocks, so the body's triple applies at those
    blocks; the invariant and the debt do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the pipeline's launch theorems take, at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of @main (the second pallas_call: the key/value projection kernel `cc1__kv_proj_kernel`, a grid of 32
   points), at ANY float instance `F` and at a PARAMETER `V`, the contents of the TensorCore's buffers when the region is
   entered. Per point the body reads a 512×1024 block of f32 rows (window 0) and two whole 1024×1024 bf16 weights
   (windows 1 and 2, one staging buffer each, moved in at the first point only), and writes the two 512×1024 bf16 blocks
   of the rows' products with the one weight and with the other (windows 3 and 4). Stated here: each window's block at
   a point as a function of `V`; the contents the body leaves in each output window's staging buffer as a closed
   function of the input blocks; the body's separation-logic triple; the pipeline's proof data; and the body obligation
   of the pipeline's launch theorems. -/
import proofs.«148640_j1743756722493_2_alg».proof.Proof.Gen.KernelIdeal.Launch
import proofs.«148640_j1743756722493_2_alg».proof.Proof.Gen.KernelIdeal.Skeleton
import proofs.«148640_j1743756722493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one whole-extent rectangle tiles a shape of extents 1024 recurses once per coordinate of an axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered: everything below is stated at an arbitrary such
-- family, so that a run may instantiate it at whatever the preceding host operations and regions leave
variable (V : (c : Dev nD) → (b : Ref sig .tc) → Buf (Elt F) ((c : Thread nD τ).loc b))

/-! # Region 1: `cc1__kv_proj_kernel` (pipeline 1), at the entry contents `V` -/

/-! ## The windows' blocks -/

/-- The block of window `w` at grid point `t`: the elements of the window's array, as `V` has it on core `c`, that
    the window's index map selects at `t`, indexed by the block's own coordinates. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0 (the f32 row block) is an input whose block index moves at every point. For any proof data whose array
    for it is `V`'s and whose body leaves the block in the buffer, the current staging buffer reads as the block at
    every point: a fetched buffer holds the block fetched, an unfetched one the previous point's block, whose index is
    then this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1 (the first bf16 weight) is an input whose block index is constant: it is moved in at the first point and
    stays. The same statement holds of it, by the same argument: at a point where nothing is fetched the index has not
    moved, so the block kept from the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2 (the second bf16 weight): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rectangle the body reads the rows and writes both products through: the whole 512×1024 extent, from the
    origin, at unit stride; -/
abbrev r1_0 : Rect S512x1024 := Rect.unit (s := S512x1024) ![0, 0] S512x1024.size inb_S512x1024_S512x1024_0_0
/-- and the one it reads each weight through: the whole 1024×1024 extent. -/
abbrev r1_1 : Rect S1024x1024 := Rect.unit (s := S1024x1024) ![0, 0] S1024x1024.size inb_S1024x1024_S1024x1024_0_0

/-! ## What the body leaves in each output window's buffer -/

/-- The contents of window 3's staging buffer after the body, as a function of the row block `x0` and the first weight
    `x1`: the body's single store to it — the product of the rows rounded to bf16 with the weight, accumulated in f32
    from zero and rounded to bf16 (the skeleton's payload) — laid over the whole buffer. -/
def out1_3 (x0 : Vec F S512x1024 .f32) (x1 : Vec F S1024x1024 .bf16) : Vec F S512x1024 .bf16 :=
  View.canon [⟨r1_0, k1_pay2 (View.ld x0 r1_0) (View.ld x1 r1_1)⟩]

/-- The contents of window 4's staging buffer after the body, as a function of the row block `x0` and the second weight
    `x2`: the same product with the other weight, laid over the whole buffer. -/
def out1_4 (x0 : Vec F S512x1024 .f32) (x2 : Vec F S1024x1024 .bf16) : Vec F S512x1024 .bf16 :=
  View.canon [⟨r1_0, k1_pay3 (View.ld x0 r1_0) (View.ld x2 r1_1)⟩]

/-- A store through the whole-extent rectangle covers a 512×1024 buffer: every index of the shape lies in it (one block
    of the full extent tiles the shape, checked by evaluation whatever the payload). Both outputs' stores are of this
    form. -/
theorem cover1_3 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y
theorem cover1_4 (p0 : Vec F S512x1024 .bf16) (y : S512x1024.Idx) :
    ∃ pc ∈ ([⟨r1_0, p0⟩] : List (View.Piece (Elt F) S512x1024 .bf16)), y ∈ pc.1.set :=
  View.cover_of_tiled [⟨r1_0, p0⟩] S512x1024.size (by rfl) y

/-! ## The body's triple -/

set_option maxHeartbeats 1000000 in
/-- The body on five whole staging memrefs — the three inputs' reading `x0`, `x1`, `x2`, the two outputs' holding
    anything — runs without fault to a state where the inputs' read as before and the outputs' read `out1_3 x0 x1` and
    `out1_4 x0 x2`. The body also loads each output memref just before storing to it; the loaded values are used
    nowhere, so whatever the buffers held does not matter, and each store covers its buffer. -/
theorem sound_kernel1 (c : Dev nD) (E : Set ℕ) (i : grid1.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole)
    (x0 : Vec F S512x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__kv_proj_kernel i arg1 harg1 arg2 harg2 arg3 harg3 arg4 harg4 arg5 harg5) K := by
  simp only [cc1__kv_proj_kernel_eq_skeleton]; unfold cc1__kv_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`. The windows' arrays are what the region finds (`V`). After the body at
    point `t` each input's staging buffer reads as its block there, window 3's as `out1_3` of the row block and the first
    weight, window 4's as `out1_4` of the row block and the second weight. The invariant carried from point to point is
    the class's: the staging cells the pipeline does not hold at the point and the generator register, untouched. Every
    share is the full one, and the core owes no signal. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

/-- The proof data's arrays are the entry contents: the structure's field projected, `V` itself never unfolded. -/
theorem A_eq1 (c : Dev nD) (w : Fin cfg1.W) : (dat1 V c).A w = V c (Pipeline.arrRef spec1 w) := by
  dsimp only [dat1]

/-- What the body leaves in each window's buffer: the proof data's case split at the literal window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

/-- What the body finds in each input's current staging buffer: the window's block at the point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the pipeline hands the body at point `t`: the invariant and the core's debt before the point, and each
    window's current staging memref at what it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it takes back: the invariant and the debt after the point, each memref at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input memrefs read as the windows' blocks, so the body's triple applies at those
    blocks; the invariant and the debt do not depend on the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation the pipeline's launch theorems take, at every point of the grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Base.lean ====
/-
  Region 2 (the attention region), what its three control cases share.

  The region's grid is 8 × 2 × 4: batch, query tile, key/value tile; the last coordinate moves fastest, so point t
  visits key/value tile t mod 4 of query tile (t / 4) mod 2 of batch t / 8. The body keeps, per query row, a running
  maximum m, a running normaliser l and a running accumulator acc in three scratch buffers that live across the four
  key/value tiles of one query tile: it resets them at tile 0, updates them at every tile, and divides acc by l into the
  output block at tile 3. So there are three control cases: A (tile 0: reset, then update), B (tiles 1, 2: update),
  C (tile 3: update, then write the output block). The output block is touched only in case C.

  Here: the windows' blocks as read off the arrays the region finds, the two branch conditions decided over the grid,
  where the output window is idle, names for the staging and scratch memrefs, and the region's resting invariant with
  the three scratch buffers singled out.
-/
import proofs.«148640_j1743756722493_2_alg».proof.Proof.Gen.KernelIdeal.Launch
import proofs.«148640_j1743756722493_2_alg».proof.Proof.Gen.KernelIdeal.Skeleton
import proofs.«148640_j1743756722493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it: the query tile (window 0), the key tile
    (window 1), the value tile (window 2), the output tile (window 3). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query window's staging buffer holds the query tile at every point, fetched there or not (it is fetched only when
    the query tile changes, every fourth point): the body never stores into it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The key window's staging buffer holds the key tile at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The value window's staging buffer holds the value tile at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two branch conditions -/

/-- "This is the first key/value tile": the reset branch's condition, from the grid coordinates. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- "This is the last key/value tile": the finalising branch's condition. -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last key/value tile the body stores nothing into the output block, -/
theorem idleAt2_3 : ∀ t : Fin cfg2.N, ¬cond2_1 (grid2.coords t) → cfg2.idle 3 (grid2.coords t) = true := by decide +kernel
/-- and the block is not written back there; -/
theorem noFlush2_3 : ∀ t : Fin cfg2.N, ¬cond2_1 (grid2.coords t) → (cfg2.win 3).flush t = false := by decide +kernel
/-- at the last tile it is stored. -/
theorem liveAt2_3 : ∀ t : Fin cfg2.N, cond2_1 (grid2.coords t) → cfg2.idle 3 (grid2.coords t) = false := by decide +kernel

/-! ## The memrefs the body is called with -/

abbrev ms2_0 (t : Fin cfg2.N) : Memref sig .tc .vmem S1x1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x1024 .f32 := win2_3.stage (cfg2.slots t 3)
abbrev hs2_3 (t : Fin cfg2.N) : (ms2_3 t).IsWhole := hstage2_3 ((cfg2.slots t 3).cast nbuf2_3)
/-- The running maximum, the running normaliser and the running accumulator: whole scoped buffers of the kernel's own. -/
abbrev scM2_0 : Memref sig .tc .vmem S1x1024x1 .f32 := Memref.whole cc2_scratch0
abbrev scM2_1 : Memref sig .tc .vmem S1x1024x1 .f32 := Memref.whole cc2_scratch1
abbrev scM2_2 : Memref sig .tc .vmem S1x1024x1024 .f32 := Memref.whole cc2_scratch2
abbrev VS2_0 : View sig .tc .vmem S1x1024x1 .f32 := scM2_0.view
abbrev VS2_1 : View sig .tc .vmem S1x1024x1 .f32 := scM2_1.view
abbrev VS2_2 : View sig .tc .vmem S1x1024x1024 .f32 := scM2_2.view
/-- One staging buffer of the output window, through which its contents are stated. -/
abbrev VO2_3 : View sig .tc .vmem S1x1024x1024 .f32 := (Memref.whole cc2_stg3_0 : Memref sig .tc .vmem S1x1024x1024 .f32).view

/-! ## The resting invariant, the scratch buffers singled out -/

/-- The scoped buffers of the core that belong to the other two regions (their staging buffers), each at some contents:
    region 2 never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's resting invariant (every scoped buffer that is no staging buffer of this region at some contents, and the
    generator register at some state) hands over the three scratch buffers, each at some contents, beside the rest. -/
theorem PhiA2_split (c : Dev nD) :
    (Pipeline.ΦA spec2 c : sProp 𝕄)
      ⊢ iprop(others2 c ∗ (∃ d, owns (c : Thread nD τ) scM2_0 fullShare d) ∗ (∃ d, owns (c : Thread nD τ) scM2_1 fullShare d)
          ∗ (∃ d, owns (c : Thread nD τ) scM2_2 fullShare d) ∗ (∃ r, prngReg c r)) := by
  unfold Pipeline.ΦA others2; rw [scopedRest2_eq]; simp only [scM2_0, scM2_1, scM2_2, owns_whole]
  iintro ⟨⟨H1, H2, H3, H4, H5, H6, H7, H8, H9, H10, H11, H12, H13, HS0, HS1, HS2⟩, Hg⟩
  isplitl [H1 H2 H3 H4 H5 H6 H7 H8 H9 H10 H11 H12 H13]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HS0]; · iexact HS0
  isplitl [HS1]; · iexact HS1
  isplitl [HS2]; · iexact HS2
  iexact Hg

/-- and takes them back, at any contents. -/
theorem PhiA2_join (c : Dev nD) :
    (iprop(others2 c ∗ (∃ d, owns (c : Thread nD τ) scM2_0 fullShare d) ∗ (∃ d, owns (c : Thread nD τ) scM2_1 fullShare d)
          ∗ (∃ d, owns (c : Thread nD τ) scM2_2 fullShare d) ∗ (∃ r, prngReg c r)) : sProp 𝕄)
      ⊢ Pipeline.ΦA spec2 c := by
  unfold Pipeline.ΦA others2; rw [scopedRest2_eq]; simp only [scM2_0, scM2_1, scM2_2, owns_whole]
  iintro ⟨⟨H1, H2, H3, H4, H5, H6, H7, H8, H9, H10, H11, H12, H13⟩, HS0, HS1, HS2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iexact HS2
  iexact Hg

end Cert.KernelIdeal.Hand

end
-- ==== Proof.KI.R2RunA.lean ====
/-
  Case A, the first key/value tile of a query tile: the three scratch buffers are reset (the maximum to −∞, the normaliser
  and the accumulator to 0) and then updated with this tile; the output block is not touched. The scratch buffers may hold
  anything on entry.
  The body's run on whole memrefs, and the pieces its stores leave in each buffer (last store first), found by running it.
-/
import proofs.«148640_j1743756722493_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case A, with the proof that
    the body, started on its input tiles and these buffers, runs to the end leaving the inputs as they were and each
    buffer with those pieces written. -/
noncomputable def kernelRun2_A (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : cond2_0 i) (hc1 : ¬cond2_1 i)
    (x0 : Vec F S1x1024x1024 .bf16) (x1 : Vec F S1x512x1024 .bf16) (x2 : Vec F S1x512x1024 .bf16) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨[], ?_, ?_, ?_, fun xi3 E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R2RunB.lean ====
/-
  Case B, a middle key/value tile: the three scratch buffers, holding what the tile before left, are updated with this
  tile; the output block is not touched.
  The body's run on whole memrefs, and the pieces its stores leave in each buffer (last store first), found by running it.
-/
import proofs.«148640_j1743756722493_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case B, with the proof that
    the body, started on its input tiles and these buffers, runs to the end leaving the inputs as they were and each
    buffer with those pieces written. -/
noncomputable def kernelRun2_B (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : ¬cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨[], ?_, ?_, ?_, fun xi3 E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R2RunC.lean ====
/-
  Case C, the last key/value tile: the three scratch buffers are updated with this tile, and the output block is stored
  as the accumulator divided, row by row, by the normaliser. The output's staging buffer may hold anything on entry.
  The body's run on whole memrefs, and the pieces its stores leave in each buffer (last store first), found by running it.
-/
import proofs.«148640_j1743756722493_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output block and in the three scratch buffers in case C, with the proof that
    the body, started on its input tiles and these buffers, runs to the end leaving the inputs as they were and each
    buffer with those pieces written. -/
noncomputable def kernelRun2_C (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    Σ' (L3 : List (View.Piece (Elt F) S1x1024x1024 .f32)), Σ' (LS0 : List (View.Piece (Elt F) S1x1024x1 .f32)), Σ' (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__flash_kernel i arg3 harg3 arg4 harg4 arg5 harg5 arg6 harg6 arg7 harg7 arg8 harg8 arg9 harg9) K } := by
  refine ⟨?_, ?_, ?_, ?_, fun E K => ?run⟩
  case run =>
    simp only [cc2__flash_kernel_eq_skeleton]; unfold cc2__flash_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R2.lean ====
/-
  Region 2 (the attention region), point by point.

  After point t the three scratch buffers hold the running maximum, normaliser and accumulator of query tile (t / 4) mod 2
  of batch t / 8 over key/value tiles 0 … t mod 4; they are what the next point of the same query tile starts from, so the
  region's invariant between two points names them. Here: what each control case leaves in the scratch buffers and in the
  output block (its stores read back), the recursion over the points, the invariant, the proof data and the body obligation.
-/
import proofs.«148640_j1743756722493_2_alg».proof.Proof.KI.R2RunA
import proofs.«148640_j1743756722493_2_alg».proof.Proof.KI.R2RunB
import proofs.«148640_j1743756722493_2_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Each case's run at a point of the grid -/

/-- The first key/value tile's run at point t, on the point's staging buffers and tiles. -/
def caseA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) ((hcond2_0 t).mpr h0) (fun h => h1 ((hcond2_1 t).mp h))
    (iblk2 V c 0 t) (iblk2 V c 1 t) (iblk2 V c 2 t)
/-- A middle tile's run at point t, from scratch contents xs. -/
def caseB (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) :=
  kernelRun2_B (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) (fun h => h1 ((hcond2_1 t).mp h))
    (iblk2 V c 0 t) (iblk2 V c 1 t) (iblk2 V c 2 t) xs0 xs1 xs2
/-- The last tile's run at point t, from scratch contents xs. -/
def caseC (c : Dev nD) (t : Fin cfg2.N) (h0 : ¬t.val % 4 = 0) (h1 : t.val % 4 = 3) (xs0 : Vec F S1x1024x1 .f32) (xs1 : Vec F S1x1024x1 .f32) (xs2 : Vec F S1x1024x1024 .f32) :=
  kernelRun2_C (F := F) c (grid2.coords t) (ms2_0 t) (hs2_0 t) (ms2_1 t) (hs2_1 t) (ms2_2 t) (hs2_2 t) (ms2_3 t) (hs2_3 t) scM2_0 (Memref.isWhole_whole _) scM2_1 (Memref.isWhole_whole _) scM2_2 (Memref.isWhole_whole _) (fun h => h0 ((hcond2_0 t).mp h)) ((hcond2_1 t).mpr h1)
    (iblk2 V c 0 t) (iblk2 V c 1 t) (iblk2 V c 2 t) xs0 xs1 xs2

/-! ## The stores of each case cover the buffers they write -/

theorem scover2_A_0 (c : Dev nD) (t : Fin cfg2.N) (h0 : t.val % 4 = 0) (h1 : ¬t.val % 4 = 3) (y : S1x1024x1.Idx) :
    ∃ pc ∈ (caseA V c t h0 h1).2.1, y ∈ pc.1.set :=
  View.cover_of_tiledL (caseA V c t h0 h1).2.1 S1x1024x1.size (by sl_kernel_rfl) y
theorem scover2_A_1 (c : Dev nD) (t : Fin cfg2.N) (h0 : t.val % 4 = 0) (h1 : ¬t.val % 4 = 3) (y : S1x1024x1.Idx) :
    ∃ pc ∈ (caseA V c t h0 h1).2.2.1, y ∈ pc.1.set :=
  View.cover_of_tiledL (caseA V c t h0 h1).2.2.1 S1x1024x1.size (by sl_kernel_rfl) y
theorem scover2_A_2 (c : Dev nD) (t : Fin cfg2.N) (h0 : t.val % 4 = 0) (h1 : ¬t.val % 4 = 3) (y : S1x1024x1024.Idx) :
    ∃ pc ∈ (caseA V c t h0 h1).2.2.2.1, y ∈ pc.1.set :=
  View.cover_of_tiledL (caseA V c t h0 h1).2.2.2.1 S1x1024x1024.size (by sl_kernel_rfl) y
theorem scover2_B_0 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1.Idx) :
    ∃ pc ∈ (caseB V c t h0 h1 xs0 xs1 xs2).2.1, y ∈ pc.1.set :=
  View.cover_of_tiledL (caseB V c t h0 h1 xs0 xs1 xs2).2.1 S1x1024x1.size (by sl_kernel_rfl) y
theorem scover2_B_1 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1.Idx) :
    ∃ pc ∈ (caseB V c t h0 h1 xs0 xs1 xs2).2.2.1, y ∈ pc.1.set :=
  View.cover_of_tiledL (caseB V c t h0 h1 xs0 xs1 xs2).2.2.1 S1x1024x1.size (by sl_kernel_rfl) y
theorem scover2_B_2 (c : Dev nD) (t : Fin cfg2.N) (h0 : ¬t.val % 4 = 0) (h1 : ¬t.val % 4 = 3) (xs0 : Vec F S1x1024x1 .f32) (xs1 : Vec F S1x1024x1 .f32) (xs2 : Vec F S1x1024x1024 .f32) (y : S1x1024x1024.Idx) :
    ∃ pc ∈ (caseB V c t h0 h1 xs0 xs1 xs2).2.2.2.1, y ∈ pc.1.set :=
  View.cover_of_tiledL (caseB V c t h0 h1 xs0 xs1 xs2).2.2.2.1 S1x1024x1024.size (by sl_kernel_rfl) y
theorem scover2_C_0 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1.Idx) :
    ∃ pc ∈ (caseC V c t h0 h1 xs0 xs1 xs2).2.1, y ∈ pc.1.set :=
  View.cover_of_tiledL (caseC V c t h0 h1 xs0 xs1 xs2).2.1 S1x1024x1.size (by sl_kernel_rfl) y
theorem scover2_C_1 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1.Idx) :
    ∃ pc ∈ (caseC V c t h0 h1 xs0 xs1 xs2).2.2.1, y ∈ pc.1.set :=
  View.cover_of_tiledL (caseC V c t h0 h1 xs0 xs1 xs2).2.2.1 S1x1024x1.size (by sl_kernel_rfl) y
theorem scover2_C_2 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1024.Idx) :
    ∃ pc ∈ (caseC V c t h0 h1 xs0 xs1 xs2).2.2.2.1, y ∈ pc.1.set :=
  View.cover_of_tiledL (caseC V c t h0 h1 xs0 xs1 xs2).2.2.2.1 S1x1024x1024.size (by sl_kernel_rfl) y
/-- The last tile's one store covers the output block. -/
theorem cover2_C_3 (c : Dev nD) (t : Fin cfg2.N) (h0 : ¬t.val % 4 = 0) (h1 : t.val % 4 = 3) (xs0 : Vec F S1x1024x1 .f32) (xs1 : Vec F S1x1024x1 .f32) (xs2 : Vec F S1x1024x1024 .f32) (y : S1x1024x1024.Idx) :
    ∃ pc ∈ (caseC V c t h0 h1 xs0 xs1 xs2).1, y ∈ pc.1.set :=
  View.cover_of_tiledL (caseC V c t h0 h1 xs0 xs1 xs2).1 S1x1024x1024.size (by sl_kernel_rfl) y

/-! ## What each case leaves: (output block, maximum, normaliser, accumulator) -/

/-- After the first tile: the scratch buffers' stores read back; the output block is not stored (a placeholder nothing reads). -/
def resA (c : Dev nD) (t : Fin cfg2.N) (h0 : t.val % 4 = 0) (h1 : ¬t.val % 4 = 3) : Vec F S1x1024x1024 .f32 × Vec F S1x1024x1 .f32 × Vec F S1x1024x1 .f32 × Vec F S1x1024x1024 .f32 :=
  (VO2_3.read (Elt F) (VO2_3.writes (Elt F) VO2_3.junk (caseA V c t h0 h1).1),
   VS2_0.read (Elt F) (VS2_0.writes (Elt F) VS2_0.junk (caseA V c t h0 h1).2.1),
   VS2_1.read (Elt F) (VS2_1.writes (Elt F) VS2_1.junk (caseA V c t h0 h1).2.2.1),
   VS2_2.read (Elt F) (VS2_2.writes (Elt F) VS2_2.junk (caseA V c t h0 h1).2.2.2.1))
/-- After a middle tile, from what the tile before left. -/
def resB (c : Dev nD) (t : Fin cfg2.N) (h0 : ¬t.val % 4 = 0) (h1 : ¬t.val % 4 = 3) (p : Vec F S1x1024x1024 .f32 × Vec F S1x1024x1 .f32 × Vec F S1x1024x1 .f32 × Vec F S1x1024x1024 .f32) : Vec F S1x1024x1024 .f32 × Vec F S1x1024x1 .f32 × Vec F S1x1024x1 .f32 × Vec F S1x1024x1024 .f32 :=
  (VO2_3.read (Elt F) (VO2_3.writes (Elt F) VO2_3.junk (caseB V c t h0 h1 p.2.1 p.2.2.1 p.2.2.2).1),
   VS2_0.read (Elt F) (VS2_0.writes (Elt F) VS2_0.junk (caseB V c t h0 h1 p.2.1 p.2.2.1 p.2.2.2).2.1),
   VS2_1.read (Elt F) (VS2_1.writes (Elt F) VS2_1.junk (caseB V c t h0 h1 p.2.1 p.2.2.1 p.2.2.2).2.2.1),
   VS2_2.read (Elt F) (VS2_2.writes (Elt F) VS2_2.junk (caseB V c t h0 h1 p.2.1 p.2.2.1 p.2.2.2).2.2.2.1))
/-- After the last tile, from what the tile before left: now the output block is stored too. -/
def resC (c : Dev nD) (t : Fin cfg2.N) (h0 : ¬t.val % 4 = 0) (h1 : t.val % 4 = 3) (p : Vec F S1x1024x1024 .f32 × Vec F S1x1024x1 .f32 × Vec F S1x1024x1 .f32 × Vec F S1x1024x1024 .f32) : Vec F S1x1024x1024 .f32 × Vec F S1x1024x1 .f32 × Vec F S1x1024x1 .f32 × Vec F S1x1024x1024 .f32 :=
  (VO2_3.read (Elt F) (VO2_3.writes (Elt F) VO2_3.junk (caseC V c t h0 h1 p.2.1 p.2.2.1 p.2.2.2).1),
   VS2_0.read (Elt F) (VS2_0.writes (Elt F) VS2_0.junk (caseC V c t h0 h1 p.2.1 p.2.2.1 p.2.2.2).2.1),
   VS2_1.read (Elt F) (VS2_1.writes (Elt F) VS2_1.junk (caseC V c t h0 h1 p.2.1 p.2.2.1 p.2.2.2).2.2.1),
   VS2_2.read (Elt F) (VS2_2.writes (Elt F) VS2_2.junk (caseC V c t h0 h1 p.2.1 p.2.2.1 p.2.2.2).2.2.2.1))

/-- THE RECURSION OVER THE POINTS: what the output's staging buffer and the three scratch buffers hold after point n. -/
def outsAt2 (c : Dev nD) : (n : ℕ) → n < cfg2.N → Vec F S1x1024x1024 .f32 × Vec F S1x1024x1 .f32 × Vec F S1x1024x1 .f32 × Vec F S1x1024x1024 .f32
  | 0, hn => resA V c ⟨0, hn⟩ (Nat.zero_mod _) (show ¬((0 : ℕ) % 4 = 3) from by decide)
  | n + 1, hn =>
    if h0 : (n + 1) % 4 = 0 then resA V c ⟨n + 1, hn⟩ h0 (fun h => by have h' : (n + 1) % 4 = 3 := h; omega)
    else if h1 : (n + 1) % 4 = 3 then resC V c ⟨n + 1, hn⟩ h0 h1 (outsAt2 c n (Nat.lt_of_succ_lt hn))
    else resB V c ⟨n + 1, hn⟩ h0 h1 (outsAt2 c n (Nat.lt_of_succ_lt hn))

theorem outsAt2_A (c : Dev nD) (t : Fin cfg2.N) (h0 : t.val % 4 = 0) (h1 : ¬t.val % 4 = 3) :
    outsAt2 V c t.val t.isLt = resA V c t h0 h1 := by
  obtain ⟨n, hn⟩ := t
  cases n with
  | zero => rfl
  | succ n => exact (dif_pos h0).trans rfl
theorem outsAt2_B (c : Dev nD) (t : Fin cfg2.N) (h0 : ¬t.val % 4 = 0) (h1 : ¬t.val % 4 = 3) :
    outsAt2 V c t.val t.isLt = resB V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem outsAt2_C (c : Dev nD) (t : Fin cfg2.N) (h0 : ¬t.val % 4 = 0) (h1 : t.val % 4 = 3) :
    outsAt2 V c t.val t.isLt = resC V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant between two points -/

/-- Before the first point: the class's resting invariant. After point n: the other regions' buffers at anything, the three
    scratch buffers at the running maximum, normaliser and accumulator point n left, the generator register at some state. -/
def PhiS2 (c : Dev nD) : (n : ℕ) → n ≤ cfg2.N → sProp 𝕄
  | 0, _ => Pipeline.ΦA spec2 c
  | n + 1, hn => iprop(others2 c ∗ owns (c : Thread nD τ) scM2_0 fullShare (outsAt2 V c n hn).2.1
      ∗ owns (c : Thread nD τ) scM2_1 fullShare (outsAt2 V c n hn).2.2.1
      ∗ owns (c : Thread nD τ) scM2_2 fullShare (outsAt2 V c n hn).2.2.2 ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(others2 c ∗ owns (c : Thread nD τ) scM2_0 fullShare (outsAt2 V c n hn).2.1
      ∗ owns (c : Thread nD τ) scM2_1 fullShare (outsAt2 V c n hn).2.2.1
      ∗ owns (c : Thread nD τ) scM2_2 fullShare (outsAt2 V c n hn).2.2.2 ∗ (∃ r, prngReg c r)) := rfl
theorem PhiS2_pos (c : Dev nD) (n : ℕ) (h : n ≤ cfg2.N) (hz : n ≠ 0) :
    PhiS2 V c n h = iprop(others2 c ∗ owns (c : Thread nD τ) scM2_0 fullShare (outsAt2 V c (n - 1) (by omega)).2.1
      ∗ owns (c : Thread nD τ) scM2_1 fullShare (outsAt2 V c (n - 1) (by omega)).2.2.1
      ∗ owns (c : Thread nD τ) scM2_2 fullShare (outsAt2 V c (n - 1) (by omega)).2.2.2 ∗ (∃ r, prngReg c r)) := by
  cases n with
  | zero => exact absurd rfl hz
  | succ n => rfl

/-! ## The proof data -/

/-- The arrays as the region finds them; after the body at point t the three input windows at their tiles, the output
    window at what the recursion says; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]

set_option maxHeartbeats 8000000 in
/-- The body at any point: the closed forms say which case the point is in; the invariant hands the body the scratch buffers
    at what the point before left (at anything before the first point, and the first tile's reset does not read them), and
    takes them back at this point's contents; the output block is handed back untouched except at the last tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold resA; dsimp only
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hoth, HS0, HS1, HS2, Hg⟩
      iapply ((caseA V c t h0 h1).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 V c t h0 h1)
        isplitl [HS1]
        · unfold owns; iexists _; isplitr
          swap; · iexact HS1
          ipureintro; exact View.read_writes_of_cover _ _ _ _ _ (scover2_A_1 V c t h0 h1)
        isplitl [HS2]
        · unfold owns; iexists _; isplitr
          swap; · iexact HS2
          ipureintro; exact View.read_writes_of_cover _ _ _ _ _ (scover2_A_2 V c t h0 h1)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseA V c t h0 h1).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_A_0 V c t h0 h1)
        isplitl [HS1]
        · unfold owns; iexists _; isplitr
          swap; · iexact HS1
          ipureintro; exact View.read_writes_of_cover _ _ _ _ _ (scover2_A_1 V c t h0 h1)
        isplitl [HS2]
        · unfold owns; iexists _; isplitr
          swap; · iexact HS2
          ipureintro; exact View.read_writes_of_cover _ _ _ _ _ (scover2_A_2 V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold resC; dsimp only
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseC V c t h0 h1 _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_C_0 V c t h0 h1 _ _ _)
        isplitl [HS1]
        · unfold owns; iexists _; isplitr
          swap; · iexact HS1
          ipureintro; exact View.read_writes_of_cover _ _ _ _ _ (scover2_C_1 V c t h0 h1 _ _ _)
        isplitl [HS2]
        · unfold owns; iexists _; isplitr
          swap; · iexact HS2
          ipureintro; exact View.read_writes_of_cover _ _ _ _ _ (scover2_C_2 V c t h0 h1 _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 V c t h0 h1 _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold resB; dsimp only
      rw [PhiS2_castSucc V c t, PhiS2_pos V c _ _ hz]
      iintro ⟨⟨Hoth, HS0, HS1, HS2, Hg⟩, Ho, ⟨%d0, H0⟩, ⟨%d1, H1⟩, ⟨%d2, H2⟩, ⟨%d3, H3⟩⟩
      iapply ((caseB V c t h0 h1 _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (scover2_B_0 V c t h0 h1 _ _ _)
        isplitl [HS1]
        · unfold owns; iexists _; isplitr
          swap; · iexact HS1
          ipureintro; exact View.read_writes_of_cover _ _ _ _ _ (scover2_B_1 V c t h0 h1 _ _ _)
        isplitl [HS2]
        · unfold owns; iexists _; isplitr
          swap; · iexact HS2
          ipureintro; exact View.read_writes_of_cover _ _ _ _ _ (scover2_B_2 V c t h0 h1 _ _ _)
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's resting invariant back: the scratch buffers' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega)]
  refine .trans ?_ (PhiA2_join (F := F) c)
  iintro ⟨Hoth, HS0, HS1, HS2, Hg⟩
  isplitl [Hoth]; · iexact Hoth
  isplitl [HS0]; · iexists _; iexact HS0
  isplitl [HS1]; · iexists _; iexact HS1
  isplitl [HS2]; · iexists _; iexact HS2
  iexact Hg

end

end Cert.KernelIdeal.Hand

end
-- ==== Proof.KI.Run.lean ====
/- The run of @main of the idealized kernel program, at ANY float instance `F`: @main is three stretches of host
   operations and three pallas_call regions, alternating, ending with the third region. Stated here: the contents of
   every unscoped buffer at each boundary between segments, as a fold of the launch memory through the host stretches
   and the regions' write-backs; that each argument's buffer is carried unchanged through the fold; every pipeline's
   proof data at its region's entry contents; the thread state carried from segment to segment; each region and each
   host stretch as a segment; and from these, that every weakly fair execution terminates without a fault with every
   unscoped buffer at the last boundary's contents — of which the frame (the arguments end as launched) is a
   consequence. -/
import proofs.«148640_j1743756722493_2_alg».proof.Proof.Gen.KernelIdeal.Launch
import proofs.«148640_j1743756722493_2_alg».proof.Proof.KI.R0
import proofs.«148640_j1743756722493_2_alg».proof.Proof.KI.R1
import proofs.«148640_j1743756722493_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host stretches and three regions, from the launch to the return

## The buffer contents at each boundary between segments -/

/-- Core `c`'s buffers at launch. -/
abbrev W0 : Dev nD → Valuation τ sig (Elt F) := fun c b => (s₀ m ρ).mem ((c : Dev nD), b)

/-- The contents when region 0 is entered: `hostOps0` applied to the launch contents. -/
abbrev W1 : Dev nD → Valuation τ sig (Elt F) := fun c => StableHlo.after hostOps0 (W0 m ρ c)
/-- The same, read at the TensorCore's references: the parameter region 0's proof data are taken at. -/
abbrev V1 : (c : Dev nD) → (b : Ref sig .tc) → Buf (Elt F) ((c : Thread nD τ).loc b) := fun c b => W1 m ρ c b
/-- The contents when region 0 is left: each of its windows' arrays at what the pipeline's transfers leave there after
    the last point (an input's array as entered, an output's with every write-back folded in), every other buffer as
    entered. -/
def W2 (c : Dev nD) : Valuation τ sig (Elt F) :=
  Pipeline.withArrays spec0 c (W1 m ρ c) fun w => (dat0 (V1 m ρ) c).arrAt w cfg0.N
/-- At a window's array, the exit contents are the proof data's last array contents; -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- at a buffer that is no window's array, the entry contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The exit contents read at the TensorCore's references. -/
abbrev V2 : (c : Dev nD) → (b : Ref sig .tc) → Buf (Elt F) ((c : Thread nD τ).loc b) := fun c b => W2 m ρ c b
/-- The two facts that put region 0's arrays back among the unscoped buffers at its exit: each array holds what the
    pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The contents when region 1 is entered: `hostOps1` applied to what region 0 left. -/
abbrev W3 : Dev nD → Valuation τ sig (Elt F) := fun c => StableHlo.after hostOps1 (W2 m ρ c)
/-- The same, read at the TensorCore's references: the parameter region 1's proof data are taken at. -/
abbrev V3 : (c : Dev nD) → (b : Ref sig .tc) → Buf (Elt F) ((c : Thread nD τ).loc b) := fun c b => W3 m ρ c b
/-- The contents when region 1 is left: each of its windows' arrays at what the pipeline's transfers leave there after
    the last point (an input's array as entered, an output's with every write-back folded in), every other buffer as
    entered. -/
def W4 (c : Dev nD) : Valuation τ sig (Elt F) :=
  Pipeline.withArrays spec1 c (W3 m ρ c) fun w => (dat1 (V3 m ρ) c).arrAt w cfg1.N
/-- At a window's array, the exit contents are the proof data's last array contents; -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- at a buffer that is no window's array, the entry contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The exit contents read at the TensorCore's references. -/
abbrev V4 : (c : Dev nD) → (b : Ref sig .tc) → Buf (Elt F) ((c : Thread nD τ).loc b) := fun c b => W4 m ρ c b
/-- The two facts that put region 1's arrays back among the unscoped buffers at its exit: each array holds what the
    pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The contents when region 2 is entered: `hostOps2` applied to what region 1 left. -/
abbrev W5 : Dev nD → Valuation τ sig (Elt F) := fun c => StableHlo.after hostOps2 (W4 m ρ c)
/-- The same, read at the TensorCore's references: the parameter region 2's proof data are taken at. -/
abbrev V5 : (c : Dev nD) → (b : Ref sig .tc) → Buf (Elt F) ((c : Thread nD τ).loc b) := fun c b => W5 m ρ c b
/-- The contents when region 2 is left: each of its windows' arrays at what the pipeline's transfers leave there after
    the last point (an input's array as entered, an output's with every write-back folded in), every other buffer as
    entered. -/
def W6 (c : Dev nD) : Valuation τ sig (Elt F) :=
  Pipeline.withArrays spec2 c (W5 m ρ c) fun w => (dat2 (V5 m ρ) c).arrAt w cfg2.N
/-- At a window's array, the exit contents are the proof data's last array contents; -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- at a buffer that is no window's array, the entry contents. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The exit contents read at the TensorCore's references. -/
abbrev V6 : (c : Dev nD) → (b : Ref sig .tc) → Buf (Elt F) ((c : Thread nD τ).loc b) := fun c b => W6 m ρ c b
/-- The two facts that put region 2's arrays back among the unscoped buffers at its exit: each array holds what the
    pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- The result of @main, `main_v15`, is the array of region 2's output window: at the end it holds what that
    pipeline's write-backs leave. -/
theorem W6_main_v15 (c : Dev nD) : W6 m ρ c (Proc.devRef .tc main_v15) = (dat2 (V5 m ρ) c).arrAt 3 cfg2.N :=
  W6_arr m ρ c 3

/-! ### The arguments end as launched

No host operation writes an argument's buffer and no region has one as a window's array (the regions read reshaped
or transposed copies), so the contents at an argument's buffer are carried unchanged across every boundary, back to
the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No pipeline has a prefetched table: the admissible table contents are the trivial ones. -/
abbrev adm : (p : Fin 3) → (pcfgs (F := F) p).Adm := fun p => (cfgs p).toPCfg_adm
/-- Every pipeline's proof data, each taken at the contents its region is entered with. A case split on the literal
    index, so that at a numeral the configuration reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another a signal: no level is assigned. -/
abbrev L : GSem nD τ sig → Finset Unit := fun _ => ∅
abbrev lv : GSem nD τ sig → Unit → ℕ := fun _ _ => 0
/-- What every segment carries beside the buffers: the core's generator register at some state, and its debt of
    signals, which is empty. -/
abbrev R (c : Dev nD) : sProp 𝕄 := iprop((∃ r, prngReg c r) ∗ ∃ W, owes (c : Thread nD τ) (0 : CellTallies nD τ sig Unit) W)
/-- A stretch of host operations as a segment: from every unscoped buffer at the contents `W` to every unscoped
    buffer at the contents the operations leave, `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of the three stretches allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt: every unscoped buffer at the final contents `W6`, the generator register
    at some state. -/
abbrev Tₙ (c : Dev nD) : sProp 𝕄 := iprop(StableHlo.held (c : Thread nD τ) (Pipeline.ucRefs τ sig) (W6 m ρ c) ∗ ∃ r, prngReg c r)

/-! ## The regions as segments -/

-- applying a library lemma stated over the pinned configuration `pin pcs a p` needs unification to unfold plain
-- definitions inside a metavariable's type
set_option backward.isDefEq.respectTransparency.types false in
/-- Region 0 as a segment over the thread state: entered holding every unscoped buffer at `W1`, left holding them at
    `W2`. At entry the region's arrays are split out of the unscoped buffers and the generator register goes into the
    pipeline's invariant; at exit both come back, the arrays at their final contents. The core owes nothing throughout,
    and the kernel names no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` needs unification to unfold plain
-- definitions inside a metavariable's type
set_option backward.isDefEq.respectTransparency.types false in
/-- Region 1 as a segment over the thread state: entered holding every unscoped buffer at `W3`, left holding them at
    `W4`. At entry the region's arrays are split out of the unscoped buffers and the generator register goes into the
    pipeline's invariant; at exit both come back, the arrays at their final contents. The core owes nothing throughout,
    and the kernel names no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` needs unification to unfold plain
-- definitions inside a metavariable's type
set_option backward.isDefEq.respectTransparency.types false in
/-- Region 2 as a segment over the thread state: entered holding every unscoped buffer at `W5`, left holding them at
    `W6`. At entry the region's arrays are split out of the unscoped buffers and the generator register goes into the
    pipeline's invariant; at exit both come back, the arrays at their final contents. The core owes nothing throughout,
    and the kernel names no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch, entered at its boundary's contents, and a region per
    pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main is the run of these segments: it is the chain of its stretches and custom calls, and the segments' run
    unfolds to that chain. -/
theorem main_run (c : Dev nD) : main (F := F) c = Pipeline.Seg.run (segs m ρ) := (main_chain c).trans (by chain_rfl)

-- the launch theorem's implicit arguments are found by unifying its conclusion with the statement, which needs
-- unification to unfold plain definitions inside a metavariable's type
set_option backward.isDefEq.respectTransparency.types false in
/-- From any memory `m` with every semaphore counter at zero, every weakly fair execution of @main on the TensorCores
    terminates without a fault, and in every final state EVERY unscoped buffer of every core holds the contents `W6`:
    the fold of the launch memory through the three host stretches and the three regions' write-backs. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h => h)

/-- The frame: every weakly fair execution of @main terminates without a fault, and the five argument arrays end as
    launched — each is an unscoped buffer, so it ends at `W6`, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩) (run_all m ρ)

end Cert.KernelIdeal.Hand

end
-- ==== Proof.KI.R2Val.lean ====
/-
  Region 2: the scratch buffers' and the output block's contents as VALUES.

  What each control case leaves (the stores its run found, read back) is the skeleton's arithmetic applied to the tiles and
  to what the scratch buffers held: one tile's UPDATE of the running (maximum, normaliser, accumulator); the first tile
  updates the reset state (−∞, 0, 0); the last tile also leaves accumulator / normaliser in the output block. So within a
  query tile's four points the state after tile k is the k-fold update of the reset state, and the block written back
  at the fourth point is its quotient.
-/
import proofs.«148640_j1743756722493_2_alg».proof.Proof.KI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl

/-! ## The arithmetic of one tile -/

/-- The state before the first tile: maximum −∞, normaliser 0, accumulator 0 (what the reset stores). -/
def reset2 : Vec F S1x1024x1 .f32 × Vec F S1x1024x1 .f32 × Vec F S1x1024x1024 .f32 := (k2_pay4, k2_pay5, k2_pay6)

/-- One tile's update of (maximum, normaliser, accumulator) from the query tile x0, the key tile x1 and the value tile x2:
    the new maximum; the old normaliser rescaled plus the tile's row sums of exp (score − new maximum); the old
    accumulator rescaled plus those weights times the value tile. -/
def upd2 (x0 : Vec F S1x1024x1024 .bf16) (x1 : Vec F S1x512x1024 .bf16) (x2 : Vec F S1x512x1024 .bf16) (s : Vec F S1x1024x1 .f32 × Vec F S1x1024x1 .f32 × Vec F S1x1024x1024 .f32) : Vec F S1x1024x1 .f32 × Vec F S1x1024x1 .f32 × Vec F S1x1024x1024 .f32 :=
  (k2_pay2 (k2_pay10 x0 x1 s.1), k2_pay13 x0 x1 s.1 s.2.1, k2_pay1 (k2_pay7 x2) (k2_pay11 x0 x1 s.1) (k2_pay14 x0 x1 s.1) (constant S1024x1024 .f32 0x00000000#32) s.2.2)

/-- The output block from the final state: accumulator / normaliser, row by row. -/
def fin2 (s : Vec F S1x1024x1 .f32 × Vec F S1x1024x1 .f32 × Vec F S1x1024x1024 .f32) : Vec F S1x1024x1024 .f32 := k2_pay3 s.2.2 s.2.1

/-! ## Each case's stores, read back -/

theorem sA0 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : cond2_0 i) (hc1 : ¬cond2_1 i)
    (x0 : Vec F S1x1024x1024 .bf16) (x1 : Vec F S1x512x1024 .bf16) (x2 : Vec F S1x512x1024 .bf16) :
    VS2_0.read (Elt F) (VS2_0.writes (Elt F) VS2_0.junk (kernelRun2_A (F := F) c i arg3 harg3 arg4 harg4 arg5 harg5 arg6 harg6 arg7 harg7 arg8 harg8 arg9 harg9 hc0 hc1 x0 x1 x2).2.1)
      = k2_pay2 (k2_pay10 x0 x1 (k2_pay4 (F := F))) := by
  rw [View.read_writes_eq_canon _ _ _ (View.cover_of_tiledL _ S1x1024x1.size (by sl_kernel_rfl))]
  unfold kernelRun2_A
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sA1 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : cond2_0 i) (hc1 : ¬cond2_1 i)
    (x0 : Vec F S1x1024x1024 .bf16) (x1 : Vec F S1x512x1024 .bf16) (x2 : Vec F S1x512x1024 .bf16) :
    VS2_1.read (Elt F) (VS2_1.writes (Elt F) VS2_1.junk (kernelRun2_A (F := F) c i arg3 harg3 arg4 harg4 arg5 harg5 arg6 harg6 arg7 harg7 arg8 harg8 arg9 harg9 hc0 hc1 x0 x1 x2).2.2.1)
      = k2_pay13 x0 x1 (k2_pay4 (F := F)) (k2_pay5 (F := F)) := by
  rw [View.read_writes_eq_canon _ _ _ (View.cover_of_tiledL _ S1x1024x1.size (by sl_kernel_rfl))]
  unfold kernelRun2_A
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sA2 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : cond2_0 i) (hc1 : ¬cond2_1 i)
    (x0 : Vec F S1x1024x1024 .bf16) (x1 : Vec F S1x512x1024 .bf16) (x2 : Vec F S1x512x1024 .bf16) :
    VS2_2.read (Elt F) (VS2_2.writes (Elt F) VS2_2.junk (kernelRun2_A (F := F) c i arg3 harg3 arg4 harg4 arg5 harg5 arg6 harg6 arg7 harg7 arg8 harg8 arg9 harg9 hc0 hc1 x0 x1 x2).2.2.2.1)
      = k2_pay1 (k2_pay7 x2) (k2_pay11 x0 x1 (k2_pay4 (F := F))) (k2_pay14 x0 x1 (k2_pay4 (F := F))) (constant S1024x1024 .f32 0x00000000#32) (k2_pay6 (F := F)) := by
  rw [View.read_writes_eq_canon _ _ _ (View.cover_of_tiledL _ S1x1024x1024.size (by sl_kernel_rfl))]
  unfold kernelRun2_A
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sB0 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : ¬cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_0.read (Elt F) (VS2_0.writes (Elt F) VS2_0.junk (kernelRun2_B (F := F) c i arg3 harg3 arg4 harg4 arg5 harg5 arg6 harg6 arg7 harg7 arg8 harg8 arg9 harg9 hc0 hc1 x0 x1 x2 xs0 xs1 xs2).2.1)
      = k2_pay2 (k2_pay10 x0 x1 xs0) := by
  rw [View.read_writes_eq_canon _ _ _ (View.cover_of_tiledL _ S1x1024x1.size (by sl_kernel_rfl))]
  unfold kernelRun2_B
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sB1 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : ¬cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_1.read (Elt F) (VS2_1.writes (Elt F) VS2_1.junk (kernelRun2_B (F := F) c i arg3 harg3 arg4 harg4 arg5 harg5 arg6 harg6 arg7 harg7 arg8 harg8 arg9 harg9 hc0 hc1 x0 x1 x2 xs0 xs1 xs2).2.2.1)
      = k2_pay13 x0 x1 xs0 xs1 := by
  rw [View.read_writes_eq_canon _ _ _ (View.cover_of_tiledL _ S1x1024x1.size (by sl_kernel_rfl))]
  unfold kernelRun2_B
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sB2 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : ¬cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_2.read (Elt F) (VS2_2.writes (Elt F) VS2_2.junk (kernelRun2_B (F := F) c i arg3 harg3 arg4 harg4 arg5 harg5 arg6 harg6 arg7 harg7 arg8 harg8 arg9 harg9 hc0 hc1 x0 x1 x2 xs0 xs1 xs2).2.2.2.1)
      = k2_pay1 (k2_pay7 x2) (k2_pay11 x0 x1 xs0) (k2_pay14 x0 x1 xs0) (constant S1024x1024 .f32 0x00000000#32) xs2 := by
  rw [View.read_writes_eq_canon _ _ _ (View.cover_of_tiledL _ S1x1024x1024.size (by sl_kernel_rfl))]
  unfold kernelRun2_B
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sC0 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_0.read (Elt F) (VS2_0.writes (Elt F) VS2_0.junk (kernelRun2_C (F := F) c i arg3 harg3 arg4 harg4 arg5 harg5 arg6 harg6 arg7 harg7 arg8 harg8 arg9 harg9 hc0 hc1 x0 x1 x2 xs0 xs1 xs2).2.1)
      = k2_pay2 (k2_pay10 x0 x1 xs0) := by
  rw [View.read_writes_eq_canon _ _ _ (View.cover_of_tiledL _ S1x1024x1.size (by sl_kernel_rfl))]
  unfold kernelRun2_C
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sC1 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_1.read (Elt F) (VS2_1.writes (Elt F) VS2_1.junk (kernelRun2_C (F := F) c i arg3 harg3 arg4 harg4 arg5 harg5 arg6 harg6 arg7 harg7 arg8 harg8 arg9 harg9 hc0 hc1 x0 x1 x2 xs0 xs1 xs2).2.2.1)
      = k2_pay13 x0 x1 xs0 xs1 := by
  rw [View.read_writes_eq_canon _ _ _ (View.cover_of_tiledL _ S1x1024x1.size (by sl_kernel_rfl))]
  unfold kernelRun2_C
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem sC2 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VS2_2.read (Elt F) (VS2_2.writes (Elt F) VS2_2.junk (kernelRun2_C (F := F) c i arg3 harg3 arg4 harg4 arg5 harg5 arg6 harg6 arg7 harg7 arg8 harg8 arg9 harg9 hc0 hc1 x0 x1 x2 xs0 xs1 xs2).2.2.2.1)
      = k2_pay1 (k2_pay7 x2) (k2_pay11 x0 x1 xs0) (k2_pay14 x0 x1 xs0) (constant S1024x1024 .f32 0x00000000#32) xs2 := by
  rw [View.read_writes_eq_canon _ _ _ (View.cover_of_tiledL _ S1x1024x1024.size (by sl_kernel_rfl))]
  unfold kernelRun2_C
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

theorem oC3 (c : Dev nD) (i : grid2.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬cond2_0 i) (hc1 : cond2_1 i)
    (x0 : Vec F S1x1024x1024 .bf16) (x1 : Vec F S1x512x1024 .bf16) (x2 : Vec F S1x512x1024 .bf16) (xs0 : Vec F S1x1024x1 .f32) (xs1 : Vec F S1x1024x1 .f32) (xs2 : Vec F S1x1024x1024 .f32) :
    VO2_3.read (Elt F) (VO2_3.writes (Elt F) VO2_3.junk (kernelRun2_C (F := F) c i arg3 harg3 arg4 harg4 arg5 harg5 arg6 harg6 arg7 harg7 arg8 harg8 arg9 harg9 hc0 hc1 x0 x1 x2 xs0 xs1 xs2).1)
      = k2_pay3 (k2_pay1 (k2_pay7 x2) (k2_pay11 x0 x1 xs0) (k2_pay14 x0 x1 xs0) (constant S1024x1024 .f32 0x00000000#32) xs2) (k2_pay13 x0 x1 xs0 xs1) := by
  rw [View.read_writes_eq_canon _ _ _ (View.cover_of_tiledL _ S1x1024x1024.size (by sl_kernel_rfl))]
  unfold kernelRun2_C
  dsimp only
  sl_unfold_words
  simp only [View.canon_unit_zero (S := S1x1024x1) hz3, View.canon_unit_zero (S := S1x1024x1024) hz3, View.canon_unit_zero (S := S1x512x1024) hz3, View.canon_cons_unit_zero (S := S1x1024x1) hz3, View.canon_cons_unit_zero (S := S1x1024x1024) hz3, View.canon_cons_unit_zero (S := S1x512x1024) hz3, View.ld_unit_zero (S := S1x1024x1) hz3, View.ld_unit_zero (S := S1x1024x1024) hz3, View.ld_unit_zero (S := S1x512x1024) hz3, View.readCov_unit_zero (S := S1x1024x1) (h := hz3), View.readCov_unit_zero (S := S1x1024x1024) (h := hz3), View.readCov_unit_zero (S := S1x512x1024) (h := hz3), View.readAt_eq_ld,
    harg3.read_unread, harg4.read_unread, harg5.read_unread, harg6.read_unread, harg7.read_unread, harg8.read_unread, harg9.read_unread]

section
variable (V : (c : Dev nD) → (b : Ref sig .tc) → Buf (Elt F) ((c : Thread nD τ).loc b))

/-! ## The recursion's steps as updates -/

theorem resA_st (c : Dev nD) (t : Fin cfg2.N) (h0 : t.val % 4 = 0) (h1 : ¬t.val % 4 = 3) :
    (resA V c t h0 h1).2 = upd2 (iblk2 V c 0 t) (iblk2 V c 1 t) (iblk2 V c 2 t) reset2 := by
  unfold resA caseA upd2 reset2; dsimp only
  rw [sA0, sA1, sA2]
theorem resB_st (c : Dev nD) (t : Fin cfg2.N) (h0 : ¬t.val % 4 = 0) (h1 : ¬t.val % 4 = 3) (p : Vec F S1x1024x1024 .f32 × Vec F S1x1024x1 .f32 × Vec F S1x1024x1 .f32 × Vec F S1x1024x1024 .f32) :
    (resB V c t h0 h1 p).2 = upd2 (iblk2 V c 0 t) (iblk2 V c 1 t) (iblk2 V c 2 t) p.2 := by
  unfold resB caseB upd2; dsimp only
  rw [sB0, sB1, sB2]
theorem resC_st (c : Dev nD) (t : Fin cfg2.N) (h0 : ¬t.val % 4 = 0) (h1 : t.val % 4 = 3) (p : Vec F S1x1024x1024 .f32 × Vec F S1x1024x1 .f32 × Vec F S1x1024x1 .f32 × Vec F S1x1024x1024 .f32) :
    (resC V c t h0 h1 p).2 = upd2 (iblk2 V c 0 t) (iblk2 V c 1 t) (iblk2 V c 2 t) p.2 := by
  unfold resC caseC upd2; dsimp only
  rw [sC0, sC1, sC2]
theorem resC_out (c : Dev nD) (t : Fin cfg2.N) (h0 : ¬t.val % 4 = 0) (h1 : t.val % 4 = 3) (p : Vec F S1x1024x1024 .f32 × Vec F S1x1024x1 .f32 × Vec F S1x1024x1 .f32 × Vec F S1x1024x1024 .f32) :
    (resC V c t h0 h1 p).1 = fin2 (upd2 (iblk2 V c 0 t) (iblk2 V c 1 t) (iblk2 V c 2 t) p.2) := by
  unfold resC caseC upd2 fin2; dsimp only
  rw [oC3]

/-- The state after point n: the update, with the point's tiles, of the reset state at the first tile of a query tile and
    of the previous point's state otherwise. -/
theorem outsAt2_st (c : Dev nD) (t : Fin cfg2.N) :
    (outsAt2 V c t.val t.isLt).2
      = upd2 (iblk2 V c 0 t) (iblk2 V c 1 t) (iblk2 V c 2 t)
          (if h : t.val % 4 = 0 then reset2 else (outsAt2 V c (t.val - 1) (Nat.lt_of_le_of_lt (Nat.sub_le _ _) t.isLt)).2) := by
  by_cases h0 : t.val % 4 = 0
  · rw [dif_pos h0, outsAt2_A V c t h0 (by omega), resA_st]
  · rw [dif_neg h0]
    by_cases h1 : t.val % 4 = 3
    · rw [outsAt2_C V c t h0 h1, resC_st]
    · rw [outsAt2_B V c t h0 h1, resB_st]

/-- At the last tile the output block is the quotient of the state just computed. -/
theorem outsAt2_out (c : Dev nD) (t : Fin cfg2.N) (h1 : t.val % 4 = 3) :
    (outsAt2 V c t.val t.isLt).1 = fin2 (outsAt2 V c t.val t.isLt).2 := by
  have h0 : ¬t.val % 4 = 0 := by omega
  rw [outsAt2_C V c t h0 h1, resC_out, resC_st]

end

end Cert.KernelIdeal.Hand

end
-- ==== Proof.Math.Softmax.lean ====
import Idealize.ShloMosaic.PureOps.Ideal
import Mathlib.Algebra.BigOperators.Fin

/-!
# The tiled ("online") softmax equals the textbook softmax, over the extended reals

A row of attention scores is processed in four tiles.  The running state is a triple
(maximum so far, normaliser, accumulator); each tile rescales the old state by
`exp (old maximum − new maximum)` and adds its own terms.  On real inputs every
intermediate value is a real, and the quantity `exp m · l` (resp. `exp m · acc`) is the
plain sum `∑ exp σ` (resp. `∑ exp σ · v`) over the tiles seen so far, whatever the running
maximum `m` is.  Hence the final quotient is `(∑ exp σ · v) / (∑ exp σ)`, which is also what
the textbook formula gives after cancelling `exp M`.
-/

namespace Cert.Attn
open Idealize.ShloMosaic

variable {T : Type} [Fintype T] {E : Type}

/-- the running row maximum, normaliser and accumulator before any tile -/
noncomputable def init : EReal × EReal × (E → EReal) := (⊥, 0, fun _ => 0)

/-- one tile's update: the new maximum, the old state rescaled by exp (old max − new max), plus the tile's terms -/
noncomputable def step (σ : T → EReal) (v : T → E → EReal) (s : EReal × EReal × (E → EReal)) : EReal × EReal × (E → EReal) :=
  let m' := max s.1 (Finset.univ.sup σ)
  let a  := Ideal.exp (s.1 - m')
  (m', a * s.2.1 + ∑ r, Ideal.exp (σ r - m'), fun e => a * s.2.2 e + ∑ r, Ideal.exp (σ r - m') * v r e)

noncomputable def flash (σ : Fin 4 → T → EReal) (v : Fin 4 → T → E → EReal) (e : E) : EReal :=
  let s4 := step (σ 3) (v 3) (step (σ 2) (v 2) (step (σ 1) (v 1) (step (σ 0) (v 0) init)))
  Ideal.div (s4.2.2 e) s4.2.1

noncomputable def softmaxAttn (σ : Fin 4 → T → EReal) (v : Fin 4 → T → E → EReal) (e : E) : EReal :=
  let M := Finset.univ.sup fun jt : Fin 4 × T => σ jt.1 jt.2
  let L := ∑ jt : Fin 4 × T, Ideal.exp (σ jt.1 jt.2 - M)
  ∑ jt : Fin 4 × T, Ideal.div (Ideal.exp (σ jt.1 jt.2 - M)) L * v jt.1 jt.2 e

/-- the coercion of a finite real sum is the sum of the coercions -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- a common real factor of the inner weights comes out of the double sum -/
theorem scale_fold {D K : Type} [Fintype D] [Fintype K] (x : D → ℝ) (w : K → D → ℝ) (k : K → ℝ) (c : ℝ) :
    (∑ e : K, (∑ d : D, ((x d : ℝ) : EReal) * (((w e d : ℝ) : EReal) * ((c : ℝ) : EReal))) * ((k e : ℝ) : EReal))
      = (∑ e : K, (∑ d : D, ((x d : ℝ) : EReal) * ((w e d : ℝ) : EReal)) * ((k e : ℝ) : EReal)) * ((c : ℝ) : EReal) := by
  simp only [← EReal.coe_mul, ← coe_sum]
  congr 1
  rw [Finset.sum_mul]
  refine Finset.sum_congr rfl fun e _ => ?_
  rw [Finset.sum_mul, Finset.sum_mul, Finset.sum_mul]
  refine Finset.sum_congr rfl fun d _ => ?_
  ring

/-! ### The supremum of finitely many reals is a real -/

/-- the coercion preserves binary maxima (it is monotone) -/
theorem coe_max (a b : ℝ) : ((max a b : ℝ) : EReal) = max (a : EReal) (b : EReal) :=
  EReal.coe_strictMono.monotone.map_max

/-- over a nonempty finite index type, the extended-real supremum of real values is the
    (coercion of the) real maximum -/
theorem exists_sup_coe {ι : Type} [Fintype ι] [Nonempty ι] (f : ι → ℝ) :
    ∃ M : ℝ, Finset.univ.sup (fun i => ((f i : ℝ) : EReal)) = (M : EReal) := by
  refine ⟨Finset.univ.sup' Finset.univ_nonempty f, ?_⟩
  rw [← Finset.sup'_eq_sup Finset.univ_nonempty]
  exact (Finset.comp_sup'_eq_sup'_comp Finset.univ_nonempty (fun x : ℝ => (x : EReal))
    (fun a b => coe_max a b)).symm

/-! ### The tile update on real states -/

/-- a real state seen as an extended-real state -/
noncomputable def cst (s : ℝ × ℝ × (E → ℝ)) : EReal × EReal × (E → EReal) :=
  ((s.1 : EReal), (s.2.1 : EReal), fun e => ((s.2.2 e : ℝ) : EReal))

/-- the state after the first tile, whose maximum is `M0` -/
noncomputable def rfirst (σ : T → ℝ) (v : T → E → ℝ) (M0 : ℝ) : ℝ × ℝ × (E → ℝ) :=
  (M0, ∑ r, Real.exp (σ r - M0), fun e => ∑ r, Real.exp (σ r - M0) * v r e)

/-- a later tile, whose maximum is `M0`, applied to a real state -/
noncomputable def rstep (σ : T → ℝ) (v : T → E → ℝ) (M0 : ℝ) (s : ℝ × ℝ × (E → ℝ)) : ℝ × ℝ × (E → ℝ) :=
  (max s.1 M0, Real.exp (s.1 - max s.1 M0) * s.2.1 + ∑ r, Real.exp (σ r - max s.1 M0),
    fun e => Real.exp (s.1 - max s.1 M0) * s.2.2 e + ∑ r, Real.exp (σ r - max s.1 M0) * v r e)

/-- the first tile starts from `⊥`: the old state is multiplied by `exp ⊥ = 0` -/
theorem step_init (σ : T → ℝ) (v : T → E → ℝ) (M0 : ℝ)
    (hM : Finset.univ.sup (fun r => ((σ r : ℝ) : EReal)) = (M0 : EReal)) :
    step (fun r => ((σ r : ℝ) : EReal)) (fun r e => ((v r e : ℝ) : EReal)) init = cst (rfirst σ v M0) := by
  simp only [step, init, cst, rfirst, hM, bot_le, max_eq_right, EReal.bot_sub, Ideal.exp_bot, zero_mul, zero_add,
    ← EReal.coe_sub, Ideal.exp_coe, ← EReal.coe_mul, ← coe_sum]

/-- a later tile maps real states to real states -/
theorem step_coe (σ : T → ℝ) (v : T → E → ℝ) (M0 : ℝ)
    (hM : Finset.univ.sup (fun r => ((σ r : ℝ) : EReal)) = (M0 : EReal)) (s : ℝ × ℝ × (E → ℝ)) :
    step (fun r => ((σ r : ℝ) : EReal)) (fun r e => ((v r e : ℝ) : EReal)) (cst s) = cst (rstep σ v M0 s) := by
  simp only [step, cst, rstep, hM, ← coe_max, ← EReal.coe_sub, Ideal.exp_coe, ← EReal.coe_mul, ← coe_sum,
    ← EReal.coe_add]

/-! ### The invariant: `exp m · l = ∑ exp σ` and `exp m · acc = ∑ exp σ · v` -/

theorem rfirst_Z (σ : T → ℝ) (v : T → E → ℝ) (M0 : ℝ) :
    Real.exp (rfirst σ v M0).1 * (rfirst σ v M0).2.1 = ∑ r, Real.exp (σ r) := by
  simp only [rfirst]
  rw [Finset.mul_sum]
  refine Finset.sum_congr rfl fun r _ => ?_
  rw [← Real.exp_add]; congr 1; ring

theorem rfirst_W (σ : T → ℝ) (v : T → E → ℝ) (M0 : ℝ) (e : E) :
    Real.exp (rfirst σ v M0).1 * (rfirst σ v M0).2.2 e = ∑ r, Real.exp (σ r) * v r e := by
  simp only [rfirst]
  rw [Finset.mul_sum]
  refine Finset.sum_congr rfl fun r _ => ?_
  rw [← mul_assoc, ← Real.exp_add]; congr 2; ring

theorem rstep_Z (σ : T → ℝ) (v : T → E → ℝ) (M0 : ℝ) (s : ℝ × ℝ × (E → ℝ)) :
    Real.exp (rstep σ v M0 s).1 * (rstep σ v M0 s).2.1 = Real.exp s.1 * s.2.1 + ∑ r, Real.exp (σ r) := by
  simp only [rstep]
  rw [mul_add, ← mul_assoc, ← Real.exp_add, Finset.mul_sum]
  congr 1
  · congr 2; ring
  · refine Finset.sum_congr rfl fun r _ => ?_
    rw [← Real.exp_add]; congr 1; ring

theorem rstep_W (σ : T → ℝ) (v : T → E → ℝ) (M0 : ℝ) (s : ℝ × ℝ × (E → ℝ)) (e : E) :
    Real.exp (rstep σ v M0 s).1 * (rstep σ v M0 s).2.2 e
      = Real.exp s.1 * s.2.2 e + ∑ r, Real.exp (σ r) * v r e := by
  simp only [rstep]
  rw [mul_add, ← mul_assoc, ← Real.exp_add, Finset.mul_sum]
  congr 1
  · congr 2; ring
  · refine Finset.sum_congr rfl fun r _ => ?_
    rw [← mul_assoc, ← Real.exp_add]; congr 2; ring

/-! ### The textbook formula on real inputs -/

/-- with any real shift `Mr` in place of the maximum, the textbook softmax-weighted sum is
    `(∑ exp f · g) / (∑ exp f)`: the factor `exp Mr` cancels -/
theorem softmax_coe {ι : Type} [Fintype ι] [Nonempty ι] (f g : ι → ℝ) (Mr : ℝ) :
    (∑ i, Ideal.div (Ideal.exp (((f i : ℝ) : EReal) - (Mr : EReal)))
        (∑ j, Ideal.exp (((f j : ℝ) : EReal) - (Mr : EReal))) * ((g i : ℝ) : EReal))
      = (((∑ i, Real.exp (f i) * g i) / (∑ i, Real.exp (f i)) : ℝ) : EReal) := by
  have hL : (∑ j, Ideal.exp (((f j : ℝ) : EReal) - (Mr : EReal))) = ((∑ j, Real.exp (f j - Mr) : ℝ) : EReal) := by
    simp only [← EReal.coe_sub, Ideal.exp_coe, ← coe_sum]
  have hpos : 0 < ∑ j, Real.exp (f j - Mr) :=
    Finset.sum_pos (fun j _ => Real.exp_pos _) Finset.univ_nonempty
  rw [hL]
  simp only [Ideal.div_coe hpos.ne', ← EReal.coe_sub, Ideal.exp_coe, ← EReal.coe_mul, ← coe_sum]
  congr 1
  have hi : ∀ i, Real.exp (f i) = Real.exp Mr * Real.exp (f i - Mr) := fun i => by
    rw [← Real.exp_add]; congr 1; ring
  have hZ : ∑ i, Real.exp (f i) = Real.exp Mr * ∑ i, Real.exp (f i - Mr) := by
    rw [Finset.mul_sum]; exact Finset.sum_congr rfl fun i _ => hi i
  rw [hZ, Finset.sum_div]
  refine Finset.sum_congr rfl fun i _ => ?_
  rw [hi i]
  have hne : Real.exp Mr ≠ 0 := (Real.exp_pos Mr).ne'
  field_simp

/-! ### The four tiles against the textbook formula -/

theorem flash_eq_softmaxAttn [Nonempty T] (σ : Fin 4 → T → ℝ) (v : Fin 4 → T → E → ℝ) (e : E) :
    flash (fun j r => ((σ j r : ℝ) : EReal)) (fun j r e => ((v j r e : ℝ) : EReal)) e
      = softmaxAttn (fun j r => ((σ j r : ℝ) : EReal)) (fun j r e => ((v j r e : ℝ) : EReal)) e := by
  obtain ⟨M0, h0⟩ := exists_sup_coe (σ 0)
  obtain ⟨M1, h1⟩ := exists_sup_coe (σ 1)
  obtain ⟨M2, h2⟩ := exists_sup_coe (σ 2)
  obtain ⟨M3, h3⟩ := exists_sup_coe (σ 3)
  obtain ⟨Mr, hM⟩ := exists_sup_coe (fun jt : Fin 4 × T => σ jt.1 jt.2)
  -- the textbook side
  have hR : softmaxAttn (fun j r => ((σ j r : ℝ) : EReal)) (fun j r e => ((v j r e : ℝ) : EReal)) e
      = (((∑ jt : Fin 4 × T, Real.exp (σ jt.1 jt.2) * v jt.1 jt.2 e)
          / (∑ jt : Fin 4 × T, Real.exp (σ jt.1 jt.2)) : ℝ) : EReal) := by
    simp only [softmaxAttn, hM]
    exact softmax_coe (fun jt : Fin 4 × T => σ jt.1 jt.2) (fun jt : Fin 4 × T => v jt.1 jt.2 e) Mr
  -- the tiled side: four real states
  have hF : flash (fun j r => ((σ j r : ℝ) : EReal)) (fun j r e => ((v j r e : ℝ) : EReal)) e
      = Ideal.div
          (((rstep (σ 3) (v 3) M3 (rstep (σ 2) (v 2) M2 (rstep (σ 1) (v 1) M1 (rfirst (σ 0) (v 0) M0)))).2.2 e : ℝ) : EReal)
          (((rstep (σ 3) (v 3) M3 (rstep (σ 2) (v 2) M2 (rstep (σ 1) (v 1) M1 (rfirst (σ 0) (v 0) M0)))).2.1 : ℝ) : EReal) := by
    simp only [flash]
    rw [step_init (σ 0) (v 0) M0 h0, step_coe (σ 1) (v 1) M1 h1, step_coe (σ 2) (v 2) M2 h2,
      step_coe (σ 3) (v 3) M3 h3]
    rfl
  rw [hR, hF]
  generalize hs : rstep (σ 3) (v 3) M3 (rstep (σ 2) (v 2) M2 (rstep (σ 1) (v 1) M1 (rfirst (σ 0) (v 0) M0))) = s4
  have hZ : Real.exp s4.1 * s4.2.1 = ∑ jt : Fin 4 × T, Real.exp (σ jt.1 jt.2) := by
    rw [← hs, rstep_Z, rstep_Z, rstep_Z, rfirst_Z, Fintype.sum_prod_type, Fin.sum_univ_four]
  have hW : Real.exp s4.1 * s4.2.2 e = ∑ jt : Fin 4 × T, Real.exp (σ jt.1 jt.2) * v jt.1 jt.2 e := by
    rw [← hs, rstep_W, rstep_W, rstep_W, rfirst_W, Fintype.sum_prod_type, Fin.sum_univ_four]
  have hZpos : 0 < ∑ jt : Fin 4 × T, Real.exp (σ jt.1 jt.2) :=
    Finset.sum_pos (fun j _ => Real.exp_pos _) Finset.univ_nonempty
  have hm : Real.exp s4.1 ≠ 0 := (Real.exp_pos _).ne'
  have hl : s4.2.1 ≠ 0 := by
    intro h0; rw [h0, mul_zero] at hZ; exact hZpos.ne hZ
  rw [Ideal.div_coe hl, ← EReal.coe_mul, ← hZ, ← hW]
  congr 1
  field_simp

end Cert.Attn
-- ==== Proof.KI.PayIdx.lean ====
/-
  Region 2's tile arithmetic read at an entry, on extended reals.

  Row r of the query tile against the key tile gives the scores of the tile's 512 key rows; their maximum joins the running
  maximum; the running normaliser and accumulator are rescaled by exp (old maximum − new maximum) and take the tile's
  exp (score − new maximum) terms, summed for the normaliser and combined with the value tile's rows for the accumulator.
  Read row by row this is exactly one step of the online softmax recurrence.
-/
import proofs.«148640_j1743756722493_2_alg».proof.Proof.KI.R2Val
import proofs.«148640_j1743756722493_2_alg».proof.Proof.Math.Softmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The two tile products -/

theorem scoreDot_apply_l0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem scoreDot_apply_l1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem scoreDot_apply_r0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem scoreDot_apply_r1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
/-- The tile product read at entry (i, j): the inner product of row i of the left tile and column j of the right tile. -/
theorem scoreDot_apply {φ₁ φ₂ : FTy} (lhs : FVec Ideal S1024x1024 φ₁) (rhs : FVec Ideal S1024x512 φ₂) (i : Fin 1024) (j : Fin 512) :
    matmul dot_S1024x1024_S1024x512_S1024x512_1_0_0_1_n_n none lhs rhs (constant S1024x512 .f32 0x00000000#32) (ix2 i j) = ∑ q : Fin 1024, lhs (ix2 i q) * rhs (ix2 q j) := by
  refine (Ideal.matmul_constant_zero_apply dot_S1024x1024_S1024x512_S1024x512_1_0_0_1_n_n none lhs rhs (ix2 i j)).trans ?_
  rw [← Equiv.sum_comp (ValueIdx.contrEquiv1 dot_S1024x1024_S1024x512_S1024x512_1_0_0_1_n_n 1024 rfl rfl).symm]
  refine Finset.sum_congr rfl fun q _ => ?_
  have hq := ValueIdx.contrEquiv1_symm_val dot_S1024x1024_S1024x512_S1024x512_1_0_0_1_n_n 1024 rfl rfl q
  have el : dot_S1024x1024_S1024x512_S1024x512_1_0_0_1_n_n.lhsIdx (ix2 i j) ((ValueIdx.contrEquiv1 dot_S1024x1024_S1024x512_S1024x512_1_0_0_1_n_n 1024 rfl rfl).symm q) = ix2 i q := funext fun a => Fin.ext (by
    match a with
    | ⟨0, _⟩ => exact scoreDot_apply_l0 _ _
    | ⟨1, _⟩ => exact (scoreDot_apply_l1 _ _).trans hq)
  have er : dot_S1024x1024_S1024x512_S1024x512_1_0_0_1_n_n.rhsIdx (ix2 i j) ((ValueIdx.contrEquiv1 dot_S1024x1024_S1024x512_S1024x512_1_0_0_1_n_n 1024 rfl rfl).symm q) = ix2 q j := funext fun a => Fin.ext (by
    match a with
    | ⟨0, _⟩ => exact (scoreDot_apply_r0 _ _).trans hq
    | ⟨1, _⟩ => exact scoreDot_apply_r1 _ _)
  rw [el, er]

theorem valueDot_apply_l0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem valueDot_apply_l1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem valueDot_apply_r0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem valueDot_apply_r1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
/-- The tile product read at entry (i, j): the inner product of row i of the left tile and column j of the right tile. -/
theorem valueDot_apply {φ₁ φ₂ : FTy} (lhs : FVec Ideal S1024x512 φ₁) (rhs : FVec Ideal S512x1024 φ₂) (i : Fin 1024) (j : Fin 1024) :
    matmul dot_S1024x512_S512x1024_S1024x1024_1_0_0_1_n_n none lhs rhs (constant S1024x1024 .f32 0x00000000#32) (ix2 i j) = ∑ q : Fin 512, lhs (ix2 i q) * rhs (ix2 q j) := by
  refine (Ideal.matmul_constant_zero_apply dot_S1024x512_S512x1024_S1024x1024_1_0_0_1_n_n none lhs rhs (ix2 i j)).trans ?_
  rw [← Equiv.sum_comp (ValueIdx.contrEquiv1 dot_S1024x512_S512x1024_S1024x1024_1_0_0_1_n_n 512 rfl rfl).symm]
  refine Finset.sum_congr rfl fun q _ => ?_
  have hq := ValueIdx.contrEquiv1_symm_val dot_S1024x512_S512x1024_S1024x1024_1_0_0_1_n_n 512 rfl rfl q
  have el : dot_S1024x512_S512x1024_S1024x1024_1_0_0_1_n_n.lhsIdx (ix2 i j) ((ValueIdx.contrEquiv1 dot_S1024x512_S512x1024_S1024x1024_1_0_0_1_n_n 512 rfl rfl).symm q) = ix2 i q := funext fun a => Fin.ext (by
    match a with
    | ⟨0, _⟩ => exact valueDot_apply_l0 _ _
    | ⟨1, _⟩ => exact (valueDot_apply_l1 _ _).trans hq)
  have er : dot_S1024x512_S512x1024_S1024x1024_1_0_0_1_n_n.rhsIdx (ix2 i j) ((ValueIdx.contrEquiv1 dot_S1024x512_S512x1024_S1024x1024_1_0_0_1_n_n 512 rfl rfl).symm q) = ix2 q j := funext fun a => Fin.ext (by
    match a with
    | ⟨0, _⟩ => exact (valueDot_apply_r0 _ _).trans hq
    | ⟨1, _⟩ => exact valueDot_apply_r1 _ _)
  rw [el, er]

/-- The scores of query row r against the tile's key row j: the inner product of the two rows (the key tile enters transposed). -/
theorem pay8_at (x0 : Vec Ideal S1x1024x1024 .bf16) (x1 : Vec Ideal S1x512x1024 .bf16) (r : Fin 1024) (j : Fin 512) :
    k2_pay8 (F := Ideal) x0 x1 (ix2 r j) = ∑ q : Fin 1024, x0 (ix3 (0 : Fin 1) r q) * x1 (ix3 (0 : Fin 1) j q) := by
  unfold k2_pay8
  refine (scoreDot_apply _ _ r j).trans ?_
  refine Finset.sum_congr rfl fun q _ => ?_
  rw [shapeCast_1ab_ab_apply, transpose_ix2_apply, shapeCast_1ab_ab_apply]

/-! ## Words -/

/-- The word 0xFF800000 is −∞. -/
theorem negInf_word : Ideal.ofBits .f32 0xFF800000#32 = (⊥ : EReal) := by simp [Ideal.ofBits, Ideal.ieee]

/-! ## Column vectors: a length-a vector as an [a, 1] column, and a column spread over b lanes -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## A row's maximum and sum over the tile's 512 lanes -/

theorem lift_row (h : S1024x512.Reduces [1] S1024) (r : Fin 1024) (k : Fin (S1024x512.size 1)) :
    h.lift (ix1 r) k = ix2 r (⟨k.val, k.isLt⟩ : Fin 512) := by
  funext c; apply Fin.ext
  fin_cases c <;> rfl

/-- The lane maximum from −∞ is the supremum of the row. -/
theorem rowMax_at (src : FVec Ideal S1024x512 .f32) (r : Fin 1024) :
    multiReduction .maximumf [1] S1024 src 0xFF800000#32 reduces_S1024x512_S1024 (.inl rfl) rfl (ix1 r)
      = Finset.univ.sup fun j : Fin 512 => src (ix2 r j) := by
  refine (Ideal.multiReduction_maximumf_single src 0xFF800000#32 reduces_S1024x512_S1024 (.inl rfl) rfl (ix1 r)).trans ?_
  rw [Ideal.ofBits_def, negInf_word]
  have hf : (src ∘ reduces_S1024x512_S1024.lift (ix1 r)) = fun j : Fin 512 => src (ix2 r j) :=
    funext fun k => congrArg src (lift_row _ r k)
  exact congrArg (fun f => Finset.fold max (⊥ : EReal) f (Finset.univ : Finset (Fin 512))) hf

/-- The lane sum is the sum of the row. -/
theorem rowSum_at (src : FVec Ideal S1024x512 .f32) (r : Fin 1024) :
    multiReduction .add [1] S1024 src 0x00000000#32 reduces_S1024x512_S1024 (.inl rfl) rfl (ix1 r)
      = ∑ j : Fin 512, src (ix2 r j) := by
  refine (Ideal.multiReduction_add_single src 0x00000000#32 reduces_S1024x512_S1024 (.inl rfl) rfl (ix1 r)).trans ?_
  exact Finset.sum_congr rfl fun k _ => congrArg src (lift_row _ r k)

/-! ## The payloads at an entry -/

/-- Query row r's scores against the tile's key rows. -/
def tileScores (x0 : Vec Ideal S1x1024x1024 .bf16) (x1 : Vec Ideal S1x512x1024 .bf16) (r : Fin 1024) : Fin 512 → EReal :=
  fun j => ∑ q : Fin 1024, x0 (ix3 (0 : Fin 1) r q) * x1 (ix3 (0 : Fin 1) j q)
/-- The tile's value rows. -/
def tileValues (x2 : Vec Ideal S1x512x1024 .bf16) : Fin 512 → Fin 1024 → EReal := fun j e => x2 (ix3 (0 : Fin 1) j e)

theorem pay9_at (m : Vec Ideal S1x1024x1 .f32) (r : Fin 1024) :
    k2_pay9 (F := Ideal) m (ix2 r (0 : Fin 1)) = m (ix3 (0 : Fin 1) r (0 : Fin 1)) := by
  unfold k2_pay9; try dsimp only
  rw [shapeCast_1ab_ab_apply]

/-- The new maximum of row r: the old one against the tile's largest score. -/
theorem pay10_at (x0 : Vec Ideal S1x1024x1024 .bf16) (x1 : Vec Ideal S1x512x1024 .bf16) (m : Vec Ideal S1x1024x1 .f32) (r : Fin 1024) :
    k2_pay10 (F := Ideal) x0 x1 m (ix2 r (0 : Fin 1)) = max (m (ix3 (0 : Fin 1) r (0 : Fin 1))) (Finset.univ.sup (tileScores x0 x1 r)) := by
  unfold k2_pay10; try dsimp only
  rw [maximumf_apply, pay9_at, shapeCast_a_a1_apply, rowMax_at]
  exact congrArg (fun f => max (m (ix3 (0 : Fin 1) r (0 : Fin 1))) (Finset.univ.sup f)) (funext fun j => pay8_at x0 x1 r j)

/-- The rescaling factor of row r: exp (old maximum − new maximum). -/
theorem pay11_at (x0 : Vec Ideal S1x1024x1024 .bf16) (x1 : Vec Ideal S1x512x1024 .bf16) (m : Vec Ideal S1x1024x1 .f32) (r : Fin 1024) :
    k2_pay11 (F := Ideal) x0 x1 m (ix2 r (0 : Fin 1))
      = Ideal.exp (m (ix3 (0 : Fin 1) r (0 : Fin 1)) - max (m (ix3 (0 : Fin 1) r (0 : Fin 1))) (Finset.univ.sup (tileScores x0 x1 r))) := by
  unfold k2_pay11; try dsimp only
  show Ideal.exp (subf (k2_pay9 m) (k2_pay10 x0 x1 m) (ix2 r (0 : Fin 1))) = _
  rw [subf_apply, pay9_at, pay10_at]

/-- The tile's weights of row r: exp (score − new maximum). -/
theorem pay12_at (x0 : Vec Ideal S1x1024x1024 .bf16) (x1 : Vec Ideal S1x512x1024 .bf16) (m : Vec Ideal S1x1024x1 .f32) (r : Fin 1024) (j : Fin 512) :
    k2_pay12 (F := Ideal) x0 x1 m (ix2 r j)
      = Ideal.exp (tileScores x0 x1 r j - max (m (ix3 (0 : Fin 1) r (0 : Fin 1))) (Finset.univ.sup (tileScores x0 x1 r))) := by
  unfold k2_pay12; try dsimp only
  show Ideal.exp (subf (k2_pay8 x0 x1) (broadcastTo S1024x512 (k2_pay10 x0 x1 m) broadcasts_S1024x1_S1024x512) (ix2 r j)) = _
  rw [subf_apply, pay8_at, broadcastTo_a1_ab_apply, pay10_at]
  rfl

/-- The new normaliser of row r: the old one rescaled, plus the tile's weights summed. -/
theorem pay13_at (x0 : Vec Ideal S1x1024x1024 .bf16) (x1 : Vec Ideal S1x512x1024 .bf16) (m l : Vec Ideal S1x1024x1 .f32) (r : Fin 1024) :
    k2_pay13 (F := Ideal) x0 x1 m l (ix3 (0 : Fin 1) r (0 : Fin 1))
      = Ideal.exp (m (ix3 (0 : Fin 1) r (0 : Fin 1)) - max (m (ix3 (0 : Fin 1) r (0 : Fin 1))) (Finset.univ.sup (tileScores x0 x1 r))) * l (ix3 (0 : Fin 1) r (0 : Fin 1))
        + ∑ j : Fin 512, Ideal.exp (tileScores x0 x1 r j - max (m (ix3 (0 : Fin 1) r (0 : Fin 1))) (Finset.univ.sup (tileScores x0 x1 r))) := by
  unfold k2_pay13; try dsimp only
  rw [shapeCast_ab_1ab_apply, addf_apply, mulf_apply, pay11_at, shapeCast_1ab_ab_apply, shapeCast_a_a1_apply, rowSum_at]
  exact congrArg (fun f => _ + ∑ j : Fin 512, f j) (funext fun j => pay12_at x0 x1 m r j)

theorem pay2_at (v : FVec Ideal S1024x1 .f32) (r : Fin 1024) : k2_pay2 (F := Ideal) v (ix3 (0 : Fin 1) r (0 : Fin 1)) = v (ix2 r (0 : Fin 1)) := by
  unfold k2_pay2; try dsimp only
  rw [shapeCast_ab_1ab_apply]

theorem pay7_at (x2 : Vec Ideal S1x512x1024 .bf16) (j : Fin 512) (e : Fin 1024) : k2_pay7 (F := Ideal) x2 (ix2 j e) = x2 (ix3 (0 : Fin 1) j e) := by
  unfold k2_pay7; try dsimp only
  rw [shapeCast_1ab_ab_apply]

theorem pay14_at (x0 : Vec Ideal S1x1024x1024 .bf16) (x1 : Vec Ideal S1x512x1024 .bf16) (m : Vec Ideal S1x1024x1 .f32) (r : Fin 1024) (j : Fin 512) :
    k2_pay14 (F := Ideal) x0 x1 m (ix2 r j) = k2_pay12 (F := Ideal) x0 x1 m (ix2 r j) := rfl

/-- The new accumulator of row r at feature e: the old one rescaled, plus the tile's weights against the value rows. -/
theorem pay1_at (v8 : FVec Ideal S512x1024 .bf16) (a : FVec Ideal S1024x1 .f32) (p : FVec Ideal S1024x512 .bf16) (acc : Vec Ideal S1x1024x1024 .f32)
    (r : Fin 1024) (e : Fin 1024) :
    k2_pay1 (F := Ideal) v8 a p (constant S1024x1024 .f32 0x00000000#32) acc (ix3 (0 : Fin 1) r e)
      = a (ix2 r (0 : Fin 1)) * acc (ix3 (0 : Fin 1) r e) + ∑ j : Fin 512, p (ix2 r j) * v8 (ix2 j e) := by
  unfold k2_pay1; try dsimp only
  rw [shapeCast_ab_1ab_apply, addf_apply, mulf_apply, broadcastTo_a1_ab_apply, shapeCast_1ab_ab_apply, valueDot_apply]

/-- The output block at (r, e): the accumulator entry over the row's normaliser. -/
theorem pay3_at (acc : Vec Ideal S1x1024x1024 .f32) (l : Vec Ideal S1x1024x1 .f32) (r : Fin 1024) (e : Fin 1024) :
    k2_pay3 (F := Ideal) acc l (ix3 (0 : Fin 1) r e) = Ideal.div (acc (ix3 (0 : Fin 1) r e)) (l (ix3 (0 : Fin 1) r (0 : Fin 1))) := by
  unfold k2_pay3; try dsimp only
  rw [shapeCast_ab_1ab_apply, divf_apply, shapeCast_1ab_ab_apply, broadcastTo_a1_ab_apply, shapeCast_1ab_ab_apply]

theorem pay4_at (i : S1x1024x1.Idx) : k2_pay4 (F := Ideal) i = (⊥ : EReal) := by
  unfold k2_pay4; try dsimp only
  rw [shapeCast_self]
  show Ideal.ofBits .f32 0xFF800000#32 = _
  exact negInf_word
theorem pay5_at (i : S1x1024x1.Idx) : k2_pay5 (F := Ideal) i = (0 : EReal) := by
  unfold k2_pay5; try dsimp only
  rw [shapeCast_self]
  show Ideal.ofBits .f32 0x00000000#32 = _
  exact Ideal.ofBits_zero_f32
theorem pay6_at (i : S1x1024x1024.Idx) : k2_pay6 (F := Ideal) i = (0 : EReal) := by
  unfold k2_pay6; try dsimp only
  rw [shapeCast_self]
  show Ideal.ofBits .f32 0x00000000#32 = _
  exact Ideal.ofBits_zero_f32

/-! ## One tile's update is one step of the online softmax recurrence, row by row -/

/-- Row r of the running state: its maximum, its normaliser, its accumulator row. -/
def rowSt (s : Vec Ideal S1x1024x1 .f32 × Vec Ideal S1x1024x1 .f32 × Vec Ideal S1x1024x1024 .f32) (r : Fin 1024) : EReal × EReal × (Fin 1024 → EReal) :=
  (s.1 (ix3 (0 : Fin 1) r (0 : Fin 1)), s.2.1 (ix3 (0 : Fin 1) r (0 : Fin 1)), fun e => s.2.2 (ix3 (0 : Fin 1) r e))

theorem reset2_row (r : Fin 1024) : rowSt (reset2 (F := Ideal)) r = Cert.Attn.init := by
  unfold rowSt reset2 Cert.Attn.init
  exact Prod.ext (pay4_at (ix3 (0 : Fin 1) r (0 : Fin 1))) (Prod.ext (pay5_at (ix3 (0 : Fin 1) r (0 : Fin 1))) (funext fun e => pay6_at (ix3 (0 : Fin 1) r e)))

theorem upd2_row (x0 : Vec Ideal S1x1024x1024 .bf16) (x1 x2 : Vec Ideal S1x512x1024 .bf16) (s : Vec Ideal S1x1024x1 .f32 × Vec Ideal S1x1024x1 .f32 × Vec Ideal S1x1024x1024 .f32) (r : Fin 1024) :
    rowSt (upd2 (F := Ideal) x0 x1 x2 s) r = Cert.Attn.step (tileScores x0 x1 r) (tileValues x2) (rowSt s r) := by
  unfold rowSt upd2 Cert.Attn.step
  refine Prod.ext ?_ (Prod.ext ?_ (funext fun e => ?_))
  · show k2_pay2 (k2_pay10 x0 x1 s.1) (ix3 (0 : Fin 1) r (0 : Fin 1)) = _
    rw [pay2_at, pay10_at]
  · show k2_pay13 x0 x1 s.1 s.2.1 (ix3 (0 : Fin 1) r (0 : Fin 1)) = _
    rw [pay13_at]
  · show k2_pay1 (k2_pay7 x2) (k2_pay11 x0 x1 s.1) (k2_pay14 x0 x1 s.1) (constant S1024x1024 .f32 0x00000000#32) s.2.2 (ix3 (0 : Fin 1) r e) = _
    rw [pay1_at, pay11_at]
    refine congrArg (fun z => _ + z) (Finset.sum_congr rfl fun j _ => ?_)
    rw [pay14_at, pay12_at, pay7_at]
    rfl

theorem fin2_at (s : Vec Ideal S1x1024x1 .f32 × Vec Ideal S1x1024x1 .f32 × Vec Ideal S1x1024x1024 .f32) (r : Fin 1024) (e : Fin 1024) :
    fin2 (F := Ideal) s (ix3 (0 : Fin 1) r e) = Ideal.div ((rowSt s r).2.2 e) (rowSt s r).2.1 := by
  unfold fin2 rowSt
  rw [pay3_at]

end Cert.KernelIdeal.Hand

end
-- ==== Proof.Math.Spec.lean ====
/-
  Softmax attention with three linear layers, index by index, on extended reals: the one function both programs compute.

  For a batch b, a query row s and a key/value row t: the query, key and value vectors are the rows of x and of the context
  against the rows of the three weight matrices (a weight is stored [out, in], so output feature e pairs with row e);
  the score of (s, t) is their inner product times 1/32 (the inverse square root of the feature dimension 1024, a dyadic);
  the attention weights are the softmax of the scores over t; the result is their combination of the value rows.
-/
import Idealize.ShloMosaic.PureOps.Ideal
import Idealize.ShloMosaic.Lib.ValueIdx

noncomputable section

namespace Cert.Attn

open Idealize.ShloMosaic Idealize.ShloMosaic.ValueIdx

/-- The activations' shape [8, 2048, 1024] and a weight's shape [1024, 1024]. -/
abbrev SX : Shape := ⟨3, ![8, 2048, 1024]⟩
abbrev SW : Shape := ⟨2, ![1024, 1024]⟩

/-- The scale 1/32 as the float word both programs print. -/
def scale : EReal := Ideal.ofBits .f32 0x3D000000#32

/-- A linear layer at one entry: row (b, s) of the activations against row e of the weight. -/
def proj (x : SX.Idx → EReal) (w : SW.Idx → EReal) (b : Fin 8) (s : Fin 2048) (e : Fin 1024) : EReal :=
  ∑ d : Fin 1024, x (ix3 b s d) * w (ix2 e d)

/-- The scaled score of query row (b, s) against key row (b, t). -/
def score (x ctx : SX.Idx → EReal) (wq wk : SW.Idx → EReal) (b : Fin 8) (s t : Fin 2048) : EReal :=
  (∑ e : Fin 1024, proj x wq b s e * proj ctx wk b t e) * scale

/-- Softmax attention at entry (b, s, e): the scores' maximum M over the key rows, the normaliser L, and the
    softmax-weighted combination of the value rows. -/
def attnAt (x ctx : SX.Idx → EReal) (wq wk wv : SW.Idx → EReal) (b : Fin 8) (s : Fin 2048) (e : Fin 1024) : EReal :=
  let M := Finset.univ.sup fun t : Fin 2048 => score x ctx wq wk b s t
  let L := ∑ t : Fin 2048, Ideal.exp (score x ctx wq wk b s t - M)
  ∑ t : Fin 2048, Ideal.div (Ideal.exp (score x ctx wq wk b s t - M)) L * proj ctx wv b t e

/-- The whole result array. -/
def attn (x ctx : SX.Idx → EReal) (wq wk wv : SW.Idx → EReal) : SX.Idx → EReal :=
  fun i => attnAt x ctx wq wk wv (i 0) (i 1) (i 2)

theorem attn_ix3 (x ctx : SX.Idx → EReal) (wq wk wv : SW.Idx → EReal) (b : Fin 8) (s : Fin 2048) (e : Fin 1024) :
    attn x ctx wq wk wv (ix3 b s e) = attnAt x ctx wq wk wv b s e := rfl

end Cert.Attn

end
-- ==== Proof.Math.Tiled.lean ====
/-
  The softmax attention of the specification, entry by entry, is the four-tile online softmax over the same scores.

  Three steps. (1) On real inputs every score and every projection is a real number, and multiplying the scale into the
  query weight first gives the same score as scaling the inner product afterwards: a common real factor comes out of a
  double sum. (2) The key rows 0 … 2047 are the pairs (tile j, row r) through t = 512·j + r, a bijection, so the
  supremum and the two sums over t are the supremum and sums over the pairs. (3) Over the pairs the textbook formula is
  what the four tile updates compute.
-/
import proofs.«148640_j1743756722493_2_alg».proof.Proof.Math.Spec
import proofs.«148640_j1743756722493_2_alg».proof.Proof.Math.Softmax
import Idealize.ShloMosaic.PureOps.Ideal.Laws

noncomputable section

namespace Cert.Attn

open Idealize.ShloMosaic Idealize.ShloMosaic.ValueIdx

/-- key/value row 512·j + r: row r of key/value tile j -/
def tileRow (j : Fin 4) (r : Fin 512) : Fin 2048 := ⟨512 * j.val + r.val, by omega⟩

/-- the query projection as the kernel forms it: the scale multiplied into the weight first -/
def projS (x : SX.Idx → EReal) (wq : SW.Idx → EReal) (b : Fin 8) (s : Fin 2048) (e : Fin 1024) : EReal :=
  ∑ d : Fin 1024, x (ix3 b s d) * (wq (ix2 e d) * scale)

/-- the kernel's score: no further scaling -/
def kscore (x ctx : SX.Idx → EReal) (wq wk : SW.Idx → EReal) (b : Fin 8) (s t : Fin 2048) : EReal :=
  ∑ e : Fin 1024, projS x wq b s e * proj ctx wk b t e

/-- every entry is a real number -/
def Finite {ι : Type} (f : ι → EReal) : Prop := ∀ i, ∃ r : ℝ, f i = (r : EReal)

/-! ## Real inputs give real scores and projections -/

/-- an array of reals is the coercion of a real array -/
theorem exists_real_fun {ι : Type} {f : ι → EReal} (h : Finite f) : ∃ fr : ι → ℝ, f = fun i => ((fr i : ℝ) : EReal) := by
  choose fr hfr using h
  exact ⟨fr, funext hfr⟩

/-- the scale word denotes the real 1/32 -/
theorem scale_eq : scale = (((1 / 32 : ℝ)) : EReal) := by
  unfold scale
  simp [Ideal.ofBits, Ideal.ieee, -EReal.coe_mul]; norm_num

theorem proj_coe (xr : SX.Idx → ℝ) (wr : SW.Idx → ℝ) (b : Fin 8) (s : Fin 2048) (e : Fin 1024) :
    proj (fun i => ((xr i : ℝ) : EReal)) (fun i => ((wr i : ℝ) : EReal)) b s e
      = ((∑ d : Fin 1024, xr (ix3 b s d) * wr (ix2 e d) : ℝ) : EReal) := by
  simp only [proj, ← EReal.coe_mul, ← coe_sum]

theorem kscore_coe (xr ctxr : SX.Idx → ℝ) (wqr wkr : SW.Idx → ℝ) (c : ℝ) (hc : scale = (c : EReal)) (b : Fin 8) (s t : Fin 2048) :
    kscore (fun i => ((xr i : ℝ) : EReal)) (fun i => ((ctxr i : ℝ) : EReal)) (fun i => ((wqr i : ℝ) : EReal))
        (fun i => ((wkr i : ℝ) : EReal)) b s t
      = ((∑ e : Fin 1024, (∑ d : Fin 1024, xr (ix3 b s d) * (wqr (ix2 e d) * c))
            * (∑ d : Fin 1024, ctxr (ix3 b t d) * wkr (ix2 e d)) : ℝ) : EReal) := by
  simp only [kscore, projS, proj, hc, ← EReal.coe_mul, ← coe_sum]

theorem proj_finite (ctx : SX.Idx → EReal) (w : SW.Idx → EReal) (hctx : Finite ctx) (hw : Finite w)
    (b : Fin 8) (t : Fin 2048) (e : Fin 1024) : ∃ r : ℝ, proj ctx w b t e = (r : EReal) := by
  obtain ⟨cr, rfl⟩ := exists_real_fun hctx
  obtain ⟨wr, rfl⟩ := exists_real_fun hw
  exact ⟨_, proj_coe cr wr b t e⟩

theorem kscore_finite (x ctx : SX.Idx → EReal) (wq wk : SW.Idx → EReal) (hx : Finite x) (hctx : Finite ctx)
    (hwq : Finite wq) (hwk : Finite wk) (b : Fin 8) (s t : Fin 2048) :
    ∃ r : ℝ, kscore x ctx wq wk b s t = (r : EReal) := by
  obtain ⟨xr, rfl⟩ := exists_real_fun hx
  obtain ⟨ctxr, rfl⟩ := exists_real_fun hctx
  obtain ⟨wqr, rfl⟩ := exists_real_fun hwq
  obtain ⟨wkr, rfl⟩ := exists_real_fun hwk
  exact ⟨_, kscore_coe xr ctxr wqr wkr _ scale_eq b s t⟩

/-- scaling the inner product afterwards, or the query weight first: the same score on real inputs -/
theorem score_eq_kscore (x ctx : SX.Idx → EReal) (wq wk : SW.Idx → EReal) (hx : Finite x) (hctx : Finite ctx)
    (hwq : Finite wq) (hwk : Finite wk) (b : Fin 8) (s t : Fin 2048) :
    score x ctx wq wk b s t = kscore x ctx wq wk b s t := by
  obtain ⟨xr, rfl⟩ := exists_real_fun hx
  obtain ⟨ctxr, rfl⟩ := exists_real_fun hctx
  obtain ⟨wqr, rfl⟩ := exists_real_fun hwq
  obtain ⟨wkr, rfl⟩ := exists_real_fun hwk
  have hk : ∀ e : Fin 1024, proj (fun i => ((ctxr i : ℝ) : EReal)) (fun i => ((wkr i : ℝ) : EReal)) b t e
      = ((∑ d : Fin 1024, ctxr (ix3 b t d) * wkr (ix2 e d) : ℝ) : EReal) := fun e => proj_coe ctxr wkr b t e
  unfold score kscore projS
  simp only [hk, scale_eq]
  simp only [proj]
  exact (scale_fold (fun d : Fin 1024 => xr (ix3 b s d)) (fun (e d : Fin 1024) => wqr (ix2 e d))
    (fun e : Fin 1024 => ∑ d : Fin 1024, ctxr (ix3 b t d) * wkr (ix2 e d)) (1 / 32)).symm

/-! ## The key rows as (tile, row) pairs -/

/-- t = 512·j + r is a bijection between the pairs (j, r) and the rows t -/
def tileEquiv : Fin 4 × Fin 512 ≃ Fin 2048 where
  toFun p := tileRow p.1 p.2
  invFun t := (⟨t.val / 512, by omega⟩, ⟨t.val % 512, by omega⟩)
  left_inv p := Prod.ext
    (Fin.ext (by show (512 * p.1.val + p.2.val) / 512 = p.1.val; omega))
    (Fin.ext (by show (512 * p.1.val + p.2.val) % 512 = p.2.val; omega))
  right_inv t := Fin.ext (by show 512 * (t.val / 512) + t.val % 512 = t.val; omega)

/-- a supremum over a finite type does not change under a bijection of the index -/
theorem sup_comp_equiv {ι κ : Type} [Fintype ι] [Fintype κ] (φ : ι ≃ κ) (g : κ → EReal) :
    (Finset.univ.sup fun i => g (φ i)) = Finset.univ.sup g := by
  apply le_antisymm
  · exact Finset.sup_le fun i _ => Finset.le_sup (f := g) (Finset.mem_univ (φ i))
  · refine Finset.sup_le fun k _ => ?_
    have h := Finset.le_sup (f := fun i => g (φ i)) (Finset.mem_univ (φ.symm k))
    simpa using h

/-- the textbook softmax-weighted sum does not change under a bijection of the index -/
theorem softmax_reindex {ι κ : Type} [Fintype ι] [Fintype κ] (φ : ι ≃ κ) (g h : κ → EReal) :
    (∑ i, Ideal.div (Ideal.exp (g (φ i) - Finset.univ.sup fun i => g (φ i)))
        (∑ i', Ideal.exp (g (φ i') - Finset.univ.sup fun i => g (φ i))) * h (φ i))
      = ∑ k, Ideal.div (Ideal.exp (g k - Finset.univ.sup g)) (∑ k', Ideal.exp (g k' - Finset.univ.sup g)) * h k := by
  rw [sup_comp_equiv φ g, Equiv.sum_comp φ (fun k => Ideal.exp (g k - Finset.univ.sup g))]
  exact Equiv.sum_comp φ
    (fun k => Ideal.div (Ideal.exp (g k - Finset.univ.sup g)) (∑ k', Ideal.exp (g k' - Finset.univ.sup g)) * h k)

/-! ## The specification is the tiled computation -/

theorem attnAt_eq_flash (x ctx : SX.Idx → EReal) (wq wk wv : SW.Idx → EReal) (hx : Finite x) (hctx : Finite ctx)
    (hwq : Finite wq) (hwk : Finite wk) (hwv : Finite wv) (b : Fin 8) (s : Fin 2048) (e : Fin 1024) :
    attnAt x ctx wq wk wv b s e
      = flash (T := Fin 512) (E := Fin 1024) (fun j r => kscore x ctx wq wk b s (tileRow j r))
          (fun j r e' => proj ctx wv b (tileRow j r) e') e := by
  choose kr hkr using fun t => kscore_finite x ctx wq wk hx hctx hwq hwk b s t
  choose pr hpr using fun t e' => proj_finite ctx wv hctx hwv b t e'
  have hs : ∀ t, score x ctx wq wk b s t = ((kr t : ℝ) : EReal) := fun t =>
    (score_eq_kscore x ctx wq wk hx hctx hwq hwk b s t).trans (hkr t)
  simp only [attnAt, hs, hkr, hpr]
  rw [flash_eq_softmaxAttn (T := Fin 512) (E := Fin 1024) (fun j r => kr (tileRow j r)) (fun j r e' => pr (tileRow j r) e') e]
  simp only [softmaxAttn]
  exact (softmax_reindex tileEquiv (fun t => ((kr t : ℝ) : EReal)) (fun t => ((pr t e : ℝ) : EReal))).symm

end Cert.Attn

end
-- ==== Proof.KI.R2Final.lean ====
/-
  Region 2's result array as a value.

  Point t of the region's grid works on batch t / 8, query tile (t / 4) mod 2, key/value tile t mod 4. The block written
  back at the last tile of a query tile is accumulator / normaliser after four updates from the reset state, so entry
  (b, s, e) of the result is the four-tile online softmax of query row (b, s) against the key rows of batch b, combined
  with the value rows — stated here over the three arrays the region finds (queries, keys, values).
-/
import proofs.«148640_j1743756722493_2_alg».proof.Proof.KI.PayIdx
import proofs.«148640_j1743756722493_2_alg».proof.Proof.Math.Tiled

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section
variable (V : (c : Dev nD) → (b : Ref sig .tc) → Buf (Elt Ideal) ((c : Thread nD τ).loc b))

/-- The query, key and value arrays as region 2 finds them. -/
def Qarr (c : Dev nD) : S8x2048x1024.Idx → EReal := V c main_v11
def Karr (c : Dev nD) : S8x2048x1024.Idx → EReal := V c main_v13
def Varr (c : Dev nD) : S8x2048x1024.Idx → EReal := V c main_v14

/-! ## The index maps, decided over the grid -/

theorem idx_facts2 : ∀ t : Fin cfg2.N,
    win2_0.index t (0 : Fin 3) = t.val / 8 ∧ win2_0.index t (1 : Fin 3) = t.val / 4 % 2 ∧ win2_0.index t (2 : Fin 3) = 0
    ∧ win2_1.index t (0 : Fin 3) = t.val / 8 ∧ win2_1.index t (1 : Fin 3) = t.val % 4 ∧ win2_1.index t (2 : Fin 3) = 0
    ∧ win2_2.index t (0 : Fin 3) = t.val / 8 ∧ win2_2.index t (1 : Fin 3) = t.val % 4 ∧ win2_2.index t (2 : Fin 3) = 0
    ∧ win2_3.index t (0 : Fin 3) = t.val / 8 ∧ win2_3.index t (1 : Fin 3) = t.val / 4 % 2 ∧ win2_3.index t (2 : Fin 3) = 0 :=
  (by decide +kernel : ∀ t : Fin grid2.N, _)

theorem tN (t : Fin cfg2.N) : t.val < 64 := lt_of_lt_of_eq t.isLt (show cfg2.N = 64 from N_2)

/-! ## The tiles, read off the arrays -/

/-- The query tile at point t holds rows 1024·((t/4) mod 2) … of batch t/8 of the query array. -/
theorem blk0_at (c : Dev nD) (t : Fin cfg2.N) (r q : Fin 1024) :
    iblk2 V c 0 t (ix3 (0 : Fin 1) r q)
      = Qarr V c (ix3 (⟨t.val / 8, by have := tN t; omega⟩ : Fin 8) (⟨1024 * (t.val / 4 % 2) + r.val, by have := r.isLt; omega⟩ : Fin 2048) q) := by
  obtain ⟨e0, e1, e2, -⟩ := idx_facts2 t
  show Qarr V c (((cfg2.win 0).blk t).view.emb (ix3 (0 : Fin 1) r q)) = _
  refine congrArg _ (funext fun a => Fin.ext ?_)
  match a with
  | ⟨0, _⟩ => show win2_0.index t (0 : Fin 3) * 1 + 1 * 0 = t.val / 8; omega
  | ⟨1, _⟩ => show win2_0.index t (1 : Fin 3) * 1024 + 1 * r.val = 1024 * (t.val / 4 % 2) + r.val; omega
  | ⟨2, _⟩ => show win2_0.index t (2 : Fin 3) * 1024 + 1 * q.val = q.val; omega

/-- The key tile at point t holds rows 512·(t mod 4) … of batch t/8 of the key array. -/
theorem blk1_at (c : Dev nD) (t : Fin cfg2.N) (j : Fin 512) (q : Fin 1024) :
    iblk2 V c 1 t (ix3 (0 : Fin 1) j q)
      = Karr V c (ix3 (⟨t.val / 8, by have := tN t; omega⟩ : Fin 8) (⟨512 * (t.val % 4) + j.val, by have := j.isLt; omega⟩ : Fin 2048) q) := by
  obtain ⟨-, -, -, e0, e1, e2, -⟩ := idx_facts2 t
  show Karr V c (((cfg2.win 1).blk t).view.emb (ix3 (0 : Fin 1) j q)) = _
  refine congrArg _ (funext fun a => Fin.ext ?_)
  match a with
  | ⟨0, _⟩ => show win2_1.index t (0 : Fin 3) * 1 + 1 * 0 = t.val / 8; omega
  | ⟨1, _⟩ => show win2_1.index t (1 : Fin 3) * 512 + 1 * j.val = 512 * (t.val % 4) + j.val; omega
  | ⟨2, _⟩ => show win2_1.index t (2 : Fin 3) * 1024 + 1 * q.val = q.val; omega

/-- The value tile likewise, of the value array. -/
theorem blk2_at (c : Dev nD) (t : Fin cfg2.N) (j : Fin 512) (q : Fin 1024) :
    iblk2 V c 2 t (ix3 (0 : Fin 1) j q)
      = Varr V c (ix3 (⟨t.val / 8, by have := tN t; omega⟩ : Fin 8) (⟨512 * (t.val % 4) + j.val, by have := j.isLt; omega⟩ : Fin 2048) q) := by
  obtain ⟨-, -, -, -, -, -, e0, e1, e2, -⟩ := idx_facts2 t
  show Varr V c (((cfg2.win 2).blk t).view.emb (ix3 (0 : Fin 1) j q)) = _
  refine congrArg _ (funext fun a => Fin.ext ?_)
  match a with
  | ⟨0, _⟩ => show win2_2.index t (0 : Fin 3) * 1 + 1 * 0 = t.val / 8; omega
  | ⟨1, _⟩ => show win2_2.index t (1 : Fin 3) * 512 + 1 * j.val = 512 * (t.val % 4) + j.val; omega
  | ⟨2, _⟩ => show win2_2.index t (2 : Fin 3) * 1024 + 1 * q.val = q.val; omega

end

section
variable (V : (c : Dev nD) → (b : Ref sig .tc) → Buf (Elt Ideal) ((c : Thread nD τ).loc b))

/-! ## The result entry: four tiles of the online softmax -/

/-- Entry (b, s, e) of the result in terms of the query, key and value arrays: the four-tile online softmax of the scores
    of query row (b, s) against the key rows of batch b, combined with the value rows. -/
def flashAt (Q K Vv : S8x2048x1024.Idx → EReal) (b : Fin 8) (s : Fin 2048) (e : Fin 1024) : EReal :=
  Cert.Attn.flash (T := Fin 512) (E := Fin 1024)
    (fun j r => ∑ q : Fin 1024, Q (ix3 b s q) * K (ix3 b (Cert.Attn.tileRow j r) q))
    (fun j r e' => Vv (ix3 b (Cert.Attn.tileRow j r) e')) e

/-- The running state after point t. -/
abbrev St (c : Dev nD) (t : Fin cfg2.N) := (outsAt2 V c t.val t.isLt).2

theorem row_first (c : Dev nD) (t : Fin cfg2.N) (h : t.val % 4 = 0) (r : Fin 1024) :
    rowSt (St V c t) r
      = Cert.Attn.step (tileScores (iblk2 V c 0 t) (iblk2 V c 1 t) r) (tileValues (iblk2 V c 2 t)) Cert.Attn.init := by
  have e := outsAt2_st V c t
  rw [dif_pos h] at e
  show rowSt (outsAt2 V c t.val t.isLt).2 r = _
  rw [e, upd2_row, reset2_row]

theorem row_next (c : Dev nD) (t t' : Fin cfg2.N) (h : ¬t.val % 4 = 0) (ht' : t'.val = t.val - 1) (r : Fin 1024) :
    rowSt (St V c t) r
      = Cert.Attn.step (tileScores (iblk2 V c 0 t) (iblk2 V c 1 t) r) (tileValues (iblk2 V c 2 t)) (rowSt (St V c t') r) := by
  obtain rfl : t' = ⟨t.val - 1, Nat.lt_of_le_of_lt (Nat.sub_le _ _) t.isLt⟩ := Fin.ext ht'
  have e := outsAt2_st V c t
  rw [dif_neg h] at e
  show rowSt (outsAt2 V c t.val t.isLt).2 r = _
  rw [e, upd2_row]

/-- Tile t' = t − 3 + j of the query tile whose last point is t: its scores and value rows, off the arrays. -/
theorem scores_eq (c : Dev nD) (t t' : Fin cfg2.N) (j : Fin 4) (h3 : t.val % 4 = 3) (ht' : t'.val = t.val - 3 + j.val) (r : Fin 1024) :
    tileScores (iblk2 V c 0 t') (iblk2 V c 1 t') r
      = fun j' : Fin 512 => ∑ q : Fin 1024, Qarr V c (ix3 (⟨t.val / 8, by have := tN t; omega⟩ : Fin 8) (⟨1024 * (t.val / 4 % 2) + r.val, by have := r.isLt; omega⟩ : Fin 2048) q)
          * Karr V c (ix3 (⟨t.val / 8, by have := tN t; omega⟩ : Fin 8) (Cert.Attn.tileRow j j') q) := by
  have hj := j.isLt
  have hb : (⟨t'.val / 8, by have := tN t'; omega⟩ : Fin 8) = (⟨t.val / 8, by have := tN t; omega⟩ : Fin 8) := Fin.ext (by show t'.val / 8 = t.val / 8; omega)
  funext j'
  have hs : (⟨1024 * (t'.val / 4 % 2) + r.val, by have := r.isLt; omega⟩ : Fin 2048) = (⟨1024 * (t.val / 4 % 2) + r.val, by have := r.isLt; omega⟩ : Fin 2048) :=
    Fin.ext (by show 1024 * (t'.val / 4 % 2) + r.val = 1024 * (t.val / 4 % 2) + r.val; omega)
  have hk : (⟨512 * (t'.val % 4) + j'.val, by have := j'.isLt; omega⟩ : Fin 2048) = Cert.Attn.tileRow j j' :=
    Fin.ext (by show 512 * (t'.val % 4) + j'.val = 512 * j.val + j'.val; omega)
  unfold tileScores
  refine Finset.sum_congr rfl fun q _ => ?_
  rw [blk0_at, blk1_at, hb, hs, hk]

theorem values_eq (c : Dev nD) (t t' : Fin cfg2.N) (j : Fin 4) (h3 : t.val % 4 = 3) (ht' : t'.val = t.val - 3 + j.val) :
    tileValues (iblk2 V c 2 t')
      = fun (j' : Fin 512) (e' : Fin 1024) => Varr V c (ix3 (⟨t.val / 8, by have := tN t; omega⟩ : Fin 8) (Cert.Attn.tileRow j j') e') := by
  have hj := j.isLt
  have hb : (⟨t'.val / 8, by have := tN t'; omega⟩ : Fin 8) = (⟨t.val / 8, by have := tN t; omega⟩ : Fin 8) := Fin.ext (by show t'.val / 8 = t.val / 8; omega)
  funext j' e'
  have hk : (⟨512 * (t'.val % 4) + j'.val, by have := j'.isLt; omega⟩ : Fin 2048) = Cert.Attn.tileRow j j' :=
    Fin.ext (by show 512 * (t'.val % 4) + j'.val = 512 * j.val + j'.val; omega)
  unfold tileValues
  rw [blk2_at, hb, hk]

/-- At the last point of a query tile, output row r over its normaliser is the four-tile online softmax of that row. -/
theorem fin_last (c : Dev nD) (t : Fin cfg2.N) (h3 : t.val % 4 = 3) (r e : Fin 1024) :
    fin2 (St V c t) (ix3 (0 : Fin 1) r e) = flashAt (Qarr V c) (Karr V c) (Varr V c) (⟨t.val / 8, by have := tN t; omega⟩ : Fin 8) (⟨1024 * (t.val / 4 % 2) + r.val, by have := r.isLt; omega⟩ : Fin 2048) e := by
  have hN := tN t
  let t2 : Fin cfg2.N := ⟨t.val - 1, by omega⟩
  let t1 : Fin cfg2.N := ⟨t.val - 2, by omega⟩
  let t0 : Fin cfg2.N := ⟨t.val - 3, by omega⟩
  have r3 := row_next V c t t2 (by omega) rfl r
  have r2 := row_next V c t2 t1 (by show ¬(t.val - 1) % 4 = 0; omega) (by show t.val - 2 = t.val - 1 - 1; omega) r
  have r1 := row_next V c t1 t0 (by show ¬(t.val - 2) % 4 = 0; omega) (by show t.val - 3 = t.val - 2 - 1; omega) r
  have r0 := row_first V c t0 (by show (t.val - 3) % 4 = 0; omega) r
  rw [r0] at r1; rw [r1] at r2; rw [r2] at r3
  rw [scores_eq V c t t (3 : Fin 4) h3 (by show t.val = t.val - 3 + 3; omega) r, values_eq V c t t (3 : Fin 4) h3 (by show t.val = t.val - 3 + 3; omega),
    scores_eq V c t t2 (2 : Fin 4) h3 (by show t.val - 1 = t.val - 3 + 2; omega) r, values_eq V c t t2 (2 : Fin 4) h3 (by show t.val - 1 = t.val - 3 + 2; omega),
    scores_eq V c t t1 (1 : Fin 4) h3 (by show t.val - 2 = t.val - 3 + 1; omega) r, values_eq V c t t1 (1 : Fin 4) h3 (by show t.val - 2 = t.val - 3 + 1; omega),
    scores_eq V c t t0 (0 : Fin 4) h3 (by show t.val - 3 = t.val - 3 + 0; omega) r, values_eq V c t t0 (0 : Fin 4) h3 (by show t.val - 3 = t.val - 3 + 0; omega)] at r3
  rw [fin2_at, r3]
  rfl

end

section
variable (V : (c : Dev nD) → (b : Ref sig .tc) → Buf (Elt Ideal) ((c : Thread nD τ).loc b))

/-! ## From the blocks to the array -/

/-- Entry (0, r, e) of the output block of point t sits at (t/8, 1024·((t/4) mod 2) + r, e) of the result array. -/
theorem emb3_at (t : Fin cfg2.N) (r e : Fin 1024) :
    ((cfg2.win 3).blk t).view.emb (ix3 (0 : Fin 1) r e) = ix3 (⟨t.val / 8, by have := tN t; omega⟩ : Fin 8) (⟨1024 * (t.val / 4 % 2) + r.val, by have := r.isLt; omega⟩ : Fin 2048) e := by
  obtain ⟨-, -, -, -, -, -, -, -, -, e0, e1, e2⟩ := idx_facts2 t
  funext a; apply Fin.ext
  match a with
  | ⟨0, _⟩ => show win2_3.index t (0 : Fin 3) * 1 + 1 * 0 = t.val / 8; omega
  | ⟨1, _⟩ => show win2_3.index t (1 : Fin 3) * 1024 + 1 * r.val = 1024 * (t.val / 4 % 2) + r.val; omega
  | ⟨2, _⟩ => show win2_3.index t (2 : Fin 3) * 1024 + 1 * e.val = e.val; omega

/-- The result array, entry by entry. -/
def G3 (c : Dev nD) : S8x2048x1024.Idx → EReal := fun i => flashAt (Qarr V c) (Karr V c) (Varr V c) (i 0) (i 1) (i 2)

/-- What the last point of a query tile writes back is that tile of the result. -/
theorem flushed3_eq (c : Dev nD) (t : Fin cfg2.N) (hf : (cfg2.win 3).flush t = true) :
    (dat2 V c).flushed 3 t = ((cfg2.win 3).blk t).view.read (Elt Ideal) (G3 V c) := by
  have h3 : t.val % 4 = 3 := (flush2_3 t).mp hf
  show (cfg2.win 3).cut (grid2.coords t) ((dat2 V c).after 3 t) = _
  rw [after2_3, outsAt2_out V c t h3]
  funext y
  obtain ⟨u, r, e, rfl⟩ : ∃ (u : Fin 1) (r e : Fin 1024), y = ix3 u r e := ⟨y 0, y 1, y 2, eq_ix3 y⟩
  obtain rfl : u = 0 := Subsingleton.elim _ _
  show fin2 (St V c t) (ix3 (0 : Fin 1) r e) = G3 V c (((cfg2.win 3).blk t).view.emb (ix3 (0 : Fin 1) r e))
  rw [emb3_at t r e, fin_last V c t h3 r e]
  rfl

theorem mem_blk3 (t : Fin cfg2.N) (i : S8x2048x1024.Idx) :
    i ∈ ((cfg2.win 3).blk t).view.set ↔ ∀ a : Fin 3, win2_3.index t a * S1x1024x1024.size a ≤ (i a).val ∧ (i a).val < win2_3.index t a * S1x1024x1024.size a + S1x1024x1024.size a := by
  show i ∈ ((View.whole main_v15).slice (win2_3.rect t)).set ↔ _
  rw [View.set_slice_whole, Rect.mem_set_unit]
  exact Iff.rfl

/-- Every entry of the result lies in the block of the last point of its query tile. -/
theorem cover3 (i : S8x2048x1024.Idx) : ∃ t : Fin cfg2.N, (cfg2.win 3).flush t = true ∧ i ∈ ((cfg2.win 3).blk t).view.set := by
  have h0 : (i 0).val < 8 := (i 0).isLt
  have h1 : (i 1).val < 2048 := (i 1).isLt
  have h2 : (i 2).val < 1024 := (i 2).isLt
  let t : Fin cfg2.N := ⟨8 * (i 0).val + 4 * ((i 1).val / 1024) + 3, by rw [show cfg2.N = 64 from N_2]; omega⟩
  have tv : t.val = 8 * (i 0).val + 4 * ((i 1).val / 1024) + 3 := rfl
  obtain ⟨-, -, -, -, -, -, -, -, -, e0, e1, e2⟩ := idx_facts2 t
  refine ⟨t, (flush2_3 t).mpr (by omega), ?_⟩
  rw [mem_blk3]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 1024 ≤ (i 2).val ∧ (i 2).val < win2_3.index t (2 : Fin 3) * 1024 + 1024; omega

/-- THE RESULT ARRAY after the region: entry by entry the four-tile online softmax over the arrays the region found. -/
theorem final2 (c : Dev nD) : (dat2 V c).arrAt 3 cfg2.N = G3 V c :=
  (dat2 V c).arrAt_eq_of_cover 3 (G3 V c) (fun t hf => flushed3_eq V c t hf) cover3

end

end Cert.KernelIdeal.Hand

end
-- ==== Proof.KI.KernelValue.lean ====
/-
  The kernel's result as the specification: entry by entry, the four-tile online softmax over the scaled query projection, the
  key projection and the value projection IS softmax attention of the arguments — given that the three arrays region 2
  finds are those projections, and that every argument entry is a real number.
-/
import proofs.«148640_j1743756722493_2_alg».proof.Proof.KI.Run
import proofs.«148640_j1743756722493_2_alg».proof.Proof.KI.R2Final
import proofs.«148640_j1743756722493_2_alg».proof.Proof.Math.Tiled

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem kernel_value_of (m : (ℓ : Loc nD τ sig) → Buf (Elt Ideal) ℓ) (ρ : Dev nD → PrngReg) (c : Dev nD)
    (h11 : ∀ (b : Fin 8) (s : Fin 2048) (e : Fin 1024), Qarr (V5 (F := Ideal) m ρ) c (ix3 b s e) = Cert.Attn.projS (m ((c : Thread nD τ).loc main_arg0)) (m ((c : Thread nD τ).loc main_arg2)) b s e)
    (h13 : ∀ (b : Fin 8) (t : Fin 2048) (e : Fin 1024), Karr (V5 (F := Ideal) m ρ) c (ix3 b t e) = Cert.Attn.proj (m ((c : Thread nD τ).loc main_arg1)) (m ((c : Thread nD τ).loc main_arg3)) b t e)
    (h14 : ∀ (b : Fin 8) (t : Fin 2048) (e : Fin 1024), Varr (V5 (F := Ideal) m ρ) c (ix3 b t e) = Cert.Attn.proj (m ((c : Thread nD τ).loc main_arg1)) (m ((c : Thread nD τ).loc main_arg4)) b t e)
    (hx : Cert.Attn.Finite (m ((c : Thread nD τ).loc main_arg0))) (hctx : Cert.Attn.Finite (m ((c : Thread nD τ).loc main_arg1))) (hwq : Cert.Attn.Finite (m ((c : Thread nD τ).loc main_arg2)))
    (hwk : Cert.Attn.Finite (m ((c : Thread nD τ).loc main_arg3))) (hwv : Cert.Attn.Finite (m ((c : Thread nD τ).loc main_arg4))) :
    W6 (F := Ideal) m ρ c (Proc.devRef .tc main_v15) = Cert.Attn.attn (m ((c : Thread nD τ).loc main_arg0)) (m ((c : Thread nD τ).loc main_arg1)) (m ((c : Thread nD τ).loc main_arg2)) (m ((c : Thread nD τ).loc main_arg3)) (m ((c : Thread nD τ).loc main_arg4)) := by
  rw [W6_main_v15, final2]
  funext i
  obtain ⟨b, s, e, rfl⟩ : ∃ (b : Fin 8) (s : Fin 2048) (e : Fin 1024), i = ix3 b s e := ⟨i 0, i 1, i 2, eq_ix3 i⟩
  show flashAt (Qarr (V5 m ρ) c) (Karr (V5 m ρ) c) (Varr (V5 m ρ) c) b s e = Cert.Attn.attnAt _ _ _ _ _ b s e
  rw [Cert.Attn.attnAt_eq_flash _ _ _ _ _ hx hctx hwq hwk hwv b s e]
  unfold flashAt
  have hσ : (fun (j : Fin 4) (r : Fin 512) => ∑ q : Fin 1024, Qarr (V5 m ρ) c (ix3 b s q) * Karr (V5 m ρ) c (ix3 b (Cert.Attn.tileRow j r) q))
      = fun (j : Fin 4) (r : Fin 512) => Cert.Attn.kscore (m ((c : Thread nD τ).loc main_arg0)) (m ((c : Thread nD τ).loc main_arg1)) (m ((c : Thread nD τ).loc main_arg2)) (m ((c : Thread nD τ).loc main_arg3)) b s (Cert.Attn.tileRow j r) := by
    funext j r
    unfold Cert.Attn.kscore
    exact Finset.sum_congr rfl fun q _ => by rw [h11, h13]
  have hv : (fun (j : Fin 4) (r : Fin 512) (e' : Fin 1024) => Varr (V5 m ρ) c (ix3 b (Cert.Attn.tileRow j r) e'))
      = fun (j : Fin 4) (r : Fin 512) (e' : Fin 1024) => Cert.Attn.proj (m ((c : Thread nD τ).loc main_arg1)) (m ((c : Thread nD τ).loc main_arg4)) b (Cert.Attn.tileRow j r) e' := by
    funext j r e'
    exact h14 _ _ _
  rw [hσ, hv]

end Cert.KernelIdeal.Hand

end
-- ==== Proof.KI.Arrays.lean ====
/- The arrays the third region finds, as values, at the ideal instance: each of the three activations' projections,
   entry by entry, as a sum over the feature axis of the argument arrays.

   The query projection is computed by region 0 from the rows of the first argument and the first weight, scaled by
   1/32 and transposed on the host beforehand; the key and value projections by region 1 from the rows of the second
   argument and the other two weights, transposed on the host. At the ideal instance every change of float format is
   the identity and a product into the zero accumulator is the plain sum, so each projection's entry (b, s, e) is
   ∑ d, activations (b, s, d) · weight (e, d) — times the scale for the query. The host's reshapes between
   [8, 2048, 1024] and [16384, 1024] identify row 2048·b + s with the pair (b, s). -/
import proofs.«148640_j1743756722493_2_alg».proof.Proof.KI.Run
import proofs.«148640_j1743756722493_2_alg».proof.Proof.KI.R2Final
import proofs.«148640_j1743756722493_2_alg».proof.Proof.Math.Tiled
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace Query

/-! ## Region 0's product at an entry -/

theorem projDot_l0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem projDot_l1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem projDot_r0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem projDot_r1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- The product into the zero accumulator, read at entry (i, j): the inner product of row i of the left factor and
    column j of the right factor. -/
theorem projDot_apply {φ₁ φ₂ : FTy} (lhs : FVec Ideal S1024x1024 φ₁) (rhs : FVec Ideal S1024x1024 φ₂) (i : Fin 1024) (j : Fin 1024) :
    matmul dot_S1024x1024_S1024x1024_S1024x1024_1_0_0_1_n_n none lhs rhs (constant S1024x1024 .f32 0x00000000#32) (ix2 i j) = ∑ q : Fin 1024, lhs (ix2 i q) * rhs (ix2 q j) := by
  refine (Ideal.matmul_constant_zero_apply dot_S1024x1024_S1024x1024_S1024x1024_1_0_0_1_n_n none lhs rhs (ix2 i j)).trans ?_
  rw [← Equiv.sum_comp (ValueIdx.contrEquiv1 dot_S1024x1024_S1024x1024_S1024x1024_1_0_0_1_n_n 1024 rfl rfl).symm]
  refine Finset.sum_congr rfl fun q _ => ?_
  have hq := ValueIdx.contrEquiv1_symm_val dot_S1024x1024_S1024x1024_S1024x1024_1_0_0_1_n_n 1024 rfl rfl q
  have el : dot_S1024x1024_S1024x1024_S1024x1024_1_0_0_1_n_n.lhsIdx (ix2 i j) ((ValueIdx.contrEquiv1 dot_S1024x1024_S1024x1024_S1024x1024_1_0_0_1_n_n 1024 rfl rfl).symm q) = ix2 i q := funext fun a => Fin.ext (by
    match a with
    | ⟨0, _⟩ => exact projDot_l0 _ _
    | ⟨1, _⟩ => exact (projDot_l1 _ _).trans hq)
  have er : dot_S1024x1024_S1024x1024_S1024x1024_1_0_0_1_n_n.rhsIdx (ix2 i j) ((ValueIdx.contrEquiv1 dot_S1024x1024_S1024x1024_S1024x1024_1_0_0_1_n_n 1024 rfl rfl).symm q) = ix2 q j := funext fun a => Fin.ext (by
    match a with
    | ⟨0, _⟩ => exact (projDot_r0 _ _).trans hq
    | ⟨1, _⟩ => exact projDot_r1 _ _)
  rw [el, er]

/-! ## The body's payload at an entry -/

/-- Region 0's stored value at (p, q): row p of the loaded rows against column q of the loaded weight — the two
    narrowings to bf16 and the identity casts are the identity on extended reals. -/
theorem proj_pay_at (x0 : Vec Ideal S1024x1024 .f32) (x1 : Vec Ideal S1024x1024 .bf16) (p q : Fin 1024) :
    k0_pay1 (F := Ideal) x0 x1 (ix2 p q) = ∑ d : Fin 1024, x0 (ix2 p d) * x1 (ix2 d q) := by
  unfold k0_pay1
  refine (projDot_apply _ _ p q).trans ?_
  refine Finset.sum_congr rfl fun d _ => ?_
  rw [truncf_apply, shapeCast_self, shapeCast_self]

/-- The same at an index given by its coordinates (the form that meets a block's own index type). -/
theorem proj_pay_idx (x0 : Vec Ideal S1024x1024 .f32) (x1 : Vec Ideal S1024x1024 .bf16) (j : S1024x1024.Idx) :
    k0_pay1 (F := Ideal) x0 x1 j = ∑ d : Fin 1024, x0 (ix2 (n0 := 1024) (j 0) d) * x1 (ix2 (n1 := 1024) d (j 1)) := by
  obtain ⟨p, q, rfl⟩ : ∃ (p : Fin 1024) (q : Fin 1024), j = ix2 p q := ⟨j 0, j 1, eq_ix2 j⟩
  exact proj_pay_at x0 x1 p q

/-! ## The host's reshapes at an entry -/

/-- Flattening [8, 2048, 1024] to [16384, 1024]: row 2048·b + s is the pair (b, s). -/
theorem flatten_rows_at {α : Type} (X : S8x2048x1024.Idx → α) (b : Fin 8) (s : Fin 2048) (d : Fin 1024) (r : Fin 16384)
    (hr : r.val = 2048 * b.val + s.val) :
    shapeCast S16384x1024 X shapeCasts_S8x2048x1024_S16384x1024 (ix2 r d) = X (ix3 b s d) :=
  shapeCast_apply X _ _ _ (by
    rw [Shape.rowMajor_val_three, Shape.rowMajor_val_two]
    show (b.val * 2048 + s.val) * 1024 + d.val = r.val * 1024 + d.val
    rw [hr]; ring)

/-- Splitting [16384, 1024] back to [8, 2048, 1024]: the pair (b, s) is row 2048·b + s. -/
theorem split_rows_at {α : Type} (X : S16384x1024.Idx → α) (b : Fin 8) (s : Fin 2048) (d : Fin 1024) (r : Fin 16384)
    (hr : r.val = 2048 * b.val + s.val) :
    shapeCast S8x2048x1024 X shapeCasts_S16384x1024_S8x2048x1024 (ix3 b s d) = X (ix2 r d) :=
  shapeCast_apply X _ _ _ (by
    rw [Shape.rowMajor_val_three, Shape.rowMajor_val_two]
    show r.val * 1024 + d.val = (b.val * 2048 + s.val) * 1024 + d.val
    rw [hr]; ring)

/-! ## What the host stretches leave, read at the buffers region 0's result passes through -/

/-- The two reshapes between regions 1 and 2 write `main_v13` and `main_v14` only. -/
theorem hostOps2_keeps {F : FTy → Type} [FloatOps F] (W : Valuation τ sig (Elt F)) (b : Ref sig .tc) (h13 : b ≠ main_v13) (h14 : b ≠ main_v14) :
    StableHlo.after hostOps2 W (Proc.devRef .tc b) = W (Proc.devRef .tc b) := by
  dsimp only [hostOps2]
  simp only [StableHlo.after_cons, StableHlo.after_nil]
  rw [StableHlo.reshape_result_ne _ _ _ _ _ _ _ h14, StableHlo.reshape_result_ne _ _ _ _ _ _ _ h13]

/-! ## The arrays on region 0's path, each read as a function on its literal index type -/

section Readings
variable (V : (c : Dev nD) → (b : Ref sig .tc) → Buf (Elt Ideal) ((c : Thread nD τ).loc b))
/-- Region 0's rows (`main_v0`), its weight (`main_v5`), and the query array region 2 reads (`main_v11`), at a valuation; -/
def rows0 (c : Dev nD) : S16384x1024.Idx → EReal := V c main_v0
def wt0 (c : Dev nD) : S1024x1024.Idx → EReal := V c main_v5
def q11 (c : Dev nD) : S8x2048x1024.Idx → EReal := V c main_v11
end Readings
/-- and region 0's result array (`main_v10`) at a device's contents. -/
def res0 (W : Valuation τ sig (Elt Ideal)) : S16384x1024.Idx → EReal := W (Proc.devRef .tc main_v10)

section Values

variable (m : (ℓ : Loc nD τ sig) → Buf (Elt Ideal) ℓ) (ρ : Dev nD → PrngReg) (c : Dev nD)

/-- Region 0's rows: the first argument flattened, so row 2048·b + s is its (b, s). -/
theorem V1_v0_at (x : S8x2048x1024.Idx → EReal) (hx : x = m ((c : Thread nD τ).loc main_arg0))
    (b : Fin 8) (s : Fin 2048) (d : Fin 1024) (r : Fin 16384) (hr : r.val = 2048 * b.val + s.val) :
    rows0 (V1 (F := Ideal) m ρ) c (ix2 r d) = x (ix3 b s d) := by
  have e : rows0 (V1 (F := Ideal) m ρ) c = shapeCast S16384x1024 x shapeCasts_S8x2048x1024_S16384x1024 := by
    subst hx; unfold rows0; dsimp only [V1, W1, hostOps0]; after_results; rfl
  rw [e]; exact flatten_rows_at _ b s d r hr

/-- Region 0's weight: the first weight times the scale, transposed — entry (d, e) is the weight's (e, d), scaled. -/
theorem V1_v5_at (wq : S1024x1024.Idx → EReal) (hwq : wq = m ((c : Thread nD τ).loc main_arg2)) (d e : Fin 1024) :
    wt0 (V1 (F := Ideal) m ρ) c (ix2 d e) = wq (ix2 e d) * Cert.Attn.scale := by
  have e5 : wt0 (V1 (F := Ideal) m ρ) c
      = truncf .bf16 (transpose S1024x1024 [1, 0] (mulf (wq : FVec Ideal S1024x1024 .f32)
          (broadcastInDim S1024x1024 ![] bcast_S_S1024x1024 (constant (F := Ideal) S_ .f32 0x3D000000#32))) transposes_S1024x1024_S1024x1024_1_0) bitsLt_bf16_f32 := by
    subst hwq; unfold wt0; dsimp only [V1, W1, hostOps0]; after_results
  rw [e5, truncf_apply, transpose_ix2_apply, mulf_apply]
  rfl

end Values

/-! ## Rows times a weight -/

/-- The product of a [16384, 1024] array of rows with a [1024, 1024] weight, entry by entry. -/
def rowsTimes (a : S16384x1024.Idx → EReal) (w : S1024x1024.Idx → EReal) : S16384x1024.Idx → EReal :=
  fun i => ∑ d : Fin 1024, a (ix2 (n0 := 16384) (i 0) d) * w (ix2 (n1 := 1024) d (i 1))

theorem rowsTimes_at (a : S16384x1024.Idx → EReal) (w : S1024x1024.Idx → EReal) (r : Fin 16384) (e : Fin 1024) :
    rowsTimes a w (ix2 r e) = ∑ d : Fin 1024, a (ix2 r d) * w (ix2 d e) := rfl

theorem hz2 : (![0, 0] : Fin 2 → Nat) = fun _ => 0 := funext fun a => by fin_cases a <;> rfl

section Regions

variable (V : (c : Dev nD) → (b : Ref sig .tc) → Buf (Elt Ideal) ((c : Thread nD τ).loc b))

/-! ## Region 0: the array each output window leaves, as one function of the arrays the region finds -/

/-- The printed index maps, decided over the 16 points: the row windows move one block per point, the weights' blocks
    are the whole weights. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back to window 2's array is block `t` of the rows-times-weight function of the arrays the
    region finds: the stored payload at (p, q) is row p of the row block against column q of the weight, the row block's
    row p is row 1024·t + p of the rows' array, and the output block's (p, q) is the array's (1024·t + p, q). -/
theorem flushed0_2_eq (c : Dev nD) (t : Fin cfg0.N) :
    (dat0 (F := Ideal) V c).flushed 2 t
      = ((cfg0.win 2).blk t).view.read (Elt Ideal) (rowsTimes (rows0 V c) (wt0 V c)) := by
  show (cfg0.win 2).cut (grid0.coords t) ((dat0 V c).after 2 t) = _
  rw [after0_2]
  unfold out0_2
  rw [View.canon_unit_zero hz2]
  simp only [View.ld_unit_zero (S := S1024x1024) hz2, View.ld_unit_zero (S := S512x1024) hz2]
  obtain ⟨e00, e01, e10, e11, e20, e21⟩ := idx_facts0 t
  funext j
  refine (proj_pay_idx _ _ j).trans ?_
  show ∑ d : Fin 1024, rows0 V c (((cfg0.win 0).blk t).view.emb (ix2 (n0 := 1024) (j 0) d))
        * wt0 V c (((cfg0.win 1).blk t).view.emb (ix2 (n1 := 1024) d (j 1)))
      = ∑ d : Fin 1024, rows0 V c (ix2 (n0 := 16384) ((((cfg0.win 2).blk t).view.emb j) 0) d)
        * wt0 V c (ix2 (n1 := 1024) d ((((cfg0.win 2).blk t).view.emb j) 1))
  refine Finset.sum_congr rfl fun d _ => ?_
  have hrow : ((cfg0.win 0).blk t).view.emb (ix2 (n0 := 1024) (j 0) d)
      = ix2 (n0 := 16384) ((((cfg0.win 2).blk t).view.emb j) 0) d := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * d.val = d.val; omega
  have hwt : ((cfg0.win 1).blk t).view.emb (ix2 (n1 := 1024) d (j 1))
      = ix2 (n1 := 1024) d ((((cfg0.win 2).blk t).view.emb j) 1) := by
    funext a; apply Fin.ext
    match a with
    | ⟨0, _⟩ => show win0_1.index t (0 : Fin 2) * 1024 + 1 * d.val = d.val; omega
    | ⟨1, _⟩ => show win0_1.index t (1 : Fin 2) * 1024 + 1 * (j 1).val = win0_2.index t (1 : Fin 2) * 1024 + 1 * (j 1).val; omega
  rw [hrow, hwt]

/-- An index of window 2's array lies in point `t`'s block iff each coordinate lies in the block's range. -/
theorem mem_blk0_2 (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v10).slice (win0_2.rect t)).set ↔ _
  rw [View.set_slice_whole, Rect.mem_set_unit]
  exact Iff.rfl

/-- Every index of the array is in some point's block: row r is in the block of point r / 1024. -/
theorem cover0_2 (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 16 := N_0
  obtain ⟨t, ht⟩ : ∃ t : Fin cfg0.N, t.val = (i 0).val / 1024 :=
    ⟨⟨(i 0).val / 1024, by show (i 0).val / 1024 < grid0.N; rw [hN]; omega⟩, rfl⟩
  refine ⟨t, flush0_2 t, ?_⟩
  rw [mem_blk0_2]
  obtain ⟨e00, e01, e10, e11, e20, e21⟩ := idx_facts0 t
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So after the region, window 2's array IS that function of the arrays the region found. -/
theorem arr0_2 (c : Dev nD) : (dat0 (F := Ideal) V c).arrAt 2 cfg0.N = rowsTimes (rows0 V c) (wt0 V c) :=
  (dat0 V c).arrAt_eq_of_cover 2 _ (fun t _ => flushed0_2_eq V c t) cover0_2

end Regions

/-! ## From region 0's exit to region 2's entry -/

section Assembly

variable (m : (ℓ : Loc nD τ sig) → Buf (Elt Ideal) ℓ) (ρ : Dev nD → PrngReg) (c : Dev nD)

/-- Region 1 and the reshapes after it do not touch `main_v11`: region 2 finds it as region 1 did. -/
theorem V5_v11_eq_V3 : q11 (V5 (F := Ideal) m ρ) c = q11 (V3 (F := Ideal) m ρ) c := by
  show StableHlo.after hostOps2 (W4 m ρ c) (Proc.devRef .tc main_v11) = W3 m ρ c (Proc.devRef .tc main_v11)
  rw [hostOps2_keeps _ main_v11 (by decide) (by decide)]
  exact W4_of_ne m ρ c main_v11 (by decide)

/-- `main_v11` is region 0's result array split back into [8, 2048, 1024]. -/
theorem V3_v11_at (b : Fin 8) (s : Fin 2048) (e : Fin 1024) (r : Fin 16384) (hr : r.val = 2048 * b.val + s.val) :
    q11 (V3 (F := Ideal) m ρ) c (ix3 b s e) = res0 (W2 (F := Ideal) m ρ c) (ix2 r e) := by
  have e11 : q11 (V3 (F := Ideal) m ρ) c
      = shapeCast S8x2048x1024 (res0 (W2 (F := Ideal) m ρ c)) shapeCasts_S16384x1024_S8x2048x1024 := by
    show StableHlo.after hostOps1 (W2 m ρ c) (Proc.devRef .tc main_v11) = _
    dsimp only [hostOps1]; after_results; rfl
  rw [e11]; exact split_rows_at _ b s e r hr

/-- Region 0's result array is the rows of the flattened first argument times the scaled, transposed first weight. -/
theorem W2_v10 : res0 (W2 (F := Ideal) m ρ c) = rowsTimes (rows0 (V1 m ρ) c) (wt0 (V1 m ρ) c) :=
  (W2_arr m ρ c 2).trans (arr0_2 (V1 m ρ) c)

/-- The query array region 2 finds, at entry (b, s, e), for the first argument `x` and the first weight `wq`. -/
theorem V5_v11_at (x : S8x2048x1024.Idx → EReal) (hx : x = m ((c : Thread nD τ).loc main_arg0))
    (wq : S1024x1024.Idx → EReal) (hwq : wq = m ((c : Thread nD τ).loc main_arg2))
    (b : Fin 8) (s : Fin 2048) (e : Fin 1024) :
    q11 (V5 (F := Ideal) m ρ) c (ix3 b s e) = ∑ d : Fin 1024, x (ix3 b s d) * (wq (ix2 e d) * Cert.Attn.scale) := by
  have hr : 2048 * b.val + s.val < 16384 := by omega
  rw [V5_v11_eq_V3, V3_v11_at m ρ c b s e ⟨2048 * b.val + s.val, hr⟩ rfl, W2_v10, rowsTimes_at]
  refine Finset.sum_congr rfl fun d _ => ?_
  rw [V1_v0_at m ρ c x hx b s d ⟨2048 * b.val + s.val, hr⟩ rfl, V1_v5_at m ρ c wq hwq]

end Assembly

end Query

/-- The query projection as region 2 finds it: entry (b, s, e) of the query array is row (b, s) of the first argument
    against row e of the first weight scaled by 1/32, summed over the feature axis. -/
theorem V5_v11 (m : (ℓ : Loc nD τ sig) → Buf (Elt Ideal) ℓ) (ρ : Dev nD → PrngReg) (c : Dev nD) (b : Fin 8) (s : Fin 2048) (e : Fin 1024) :
    Qarr (V5 (F := Ideal) m ρ) c (ix3 b s e)
      = Cert.Attn.projS (m ((c : Thread nD τ).loc main_arg0)) (m ((c : Thread nD τ).loc main_arg2)) b s e :=
  Query.V5_v11_at m ρ c _ rfl _ rfl b s e

end Cert.KernelIdeal.Hand

end
-- ==== Proof.KI.ArraysKV.lean ====
/- The key and value arrays the third region finds, as values, at the ideal instance.

   Region 1 multiplies each block of 512 rows of the flattened second argument with the two transposed weights; at the
   ideal instance the narrowings of format are the identity and a product into the zero accumulator is the plain sum,
   so entry (r, e) of either result is ∑ d, rows (r, d) · weight (e, d). The 32 blocks of 512 rows tile the 16384 rows,
   so each result array as a whole is that function of the arrays the region finds. The host's reshapes between
   [8, 2048, 1024] and [16384, 1024] identify row 2048·b + t with the pair (b, t); hence entry (b, t, e) of the key
   (value) array is the projection of row (b, t) of the second argument against row e of the key (value) weight. -/
import proofs.«148640_j1743756722493_2_alg».proof.Proof.KI.Run
import proofs.«148640_j1743756722493_2_alg».proof.Proof.Math.Spec
import proofs.«148640_j1743756722493_2_alg».proof.Proof.KI.R2Final
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Hand.KeyValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## Region 1's product at an entry -/

theorem kvd_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem kvd_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem kvd_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem kvd_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The product into the zero accumulator, read at entry (i, j): the inner product of row i of the left factor and
    column j of the right factor. -/
theorem kvd_apply {φ₁ φ₂ : FTy} (lhs : FVec Ideal S512x1024 φ₁) (rhs : FVec Ideal S1024x1024 φ₂) (i : Fin 512) (j : Fin 1024) :
    matmul dot_S512x1024_S1024x1024_S512x1024_1_0_0_1_n_n none lhs rhs (constant S512x1024 .f32 0x00000000#32) (ix2 i j) = ∑ q : Fin 1024, lhs (ix2 i q) * rhs (ix2 q j) := by
  refine (Ideal.matmul_constant_zero_apply dot_S512x1024_S1024x1024_S512x1024_1_0_0_1_n_n none lhs rhs (ix2 i j)).trans ?_
  rw [← Equiv.sum_comp (ValueIdx.contrEquiv1 dot_S512x1024_S1024x1024_S512x1024_1_0_0_1_n_n 1024 rfl rfl).symm]
  refine Finset.sum_congr rfl fun q _ => ?_
  have hq := ValueIdx.contrEquiv1_symm_val dot_S512x1024_S1024x1024_S512x1024_1_0_0_1_n_n 1024 rfl rfl q
  have el : dot_S512x1024_S1024x1024_S512x1024_1_0_0_1_n_n.lhsIdx (ix2 i j) ((ValueIdx.contrEquiv1 dot_S512x1024_S1024x1024_S512x1024_1_0_0_1_n_n 1024 rfl rfl).symm q) = ix2 i q := funext fun a => Fin.ext (by
    match a with
    | ⟨0, _⟩ => exact kvd_l0 _ _
    | ⟨1, _⟩ => exact (kvd_l1 _ _).trans hq)
  have er : dot_S512x1024_S1024x1024_S512x1024_1_0_0_1_n_n.rhsIdx (ix2 i j) ((ValueIdx.contrEquiv1 dot_S512x1024_S1024x1024_S512x1024_1_0_0_1_n_n 1024 rfl rfl).symm q) = ix2 q j := funext fun a => Fin.ext (by
    match a with
    | ⟨0, _⟩ => exact (kvd_r0 _ _).trans hq
    | ⟨1, _⟩ => exact kvd_r1 _ _)
  rw [el, er]

/-! ## The body's two stored values at an entry -/

/-- The first stored value at (p, q): row p of the loaded rows against column q of the first weight — the narrowings
    to bf16 and the identity casts are the identity on extended reals; -/
theorem kpay_at (x0 : Vec Ideal S512x1024 .f32) (x1 : Vec Ideal S1024x1024 .bf16) (p : Fin 512) (q : Fin 1024) :
    k1_pay2 (F := Ideal) x0 x1 (ix2 p q) = ∑ d : Fin 1024, x0 (ix2 p d) * x1 (ix2 d q) := by
  unfold k1_pay2
  refine (kvd_apply _ _ p q).trans ?_
  refine Finset.sum_congr rfl fun d _ => ?_
  unfold k1_pay1
  rw [truncf_apply, shapeCast_self, shapeCast_self]

/-- and the second, against column q of the second weight. -/
theorem vpay_at (x0 : Vec Ideal S512x1024 .f32) (x2 : Vec Ideal S1024x1024 .bf16) (p : Fin 512) (q : Fin 1024) :
    k1_pay3 (F := Ideal) x0 x2 (ix2 p q) = ∑ d : Fin 1024, x0 (ix2 p d) * x2 (ix2 d q) := by
  unfold k1_pay3
  refine (kvd_apply _ _ p q).trans ?_
  refine Finset.sum_congr rfl fun d _ => ?_
  unfold k1_pay1
  rw [truncf_apply, shapeCast_self, shapeCast_self]

/-! ## The host's reshapes at an entry -/

/-- Flattening [8, 2048, 1024] to [16384, 1024]: row 2048·b + t is the pair (b, t). -/
theorem kv_flatten_at {α : Type} (X : S8x2048x1024.Idx → α) (b : Fin 8) (t : Fin 2048) (d : Fin 1024) (r : Fin 16384)
    (hr : r.val = 2048 * b.val + t.val) :
    shapeCast S16384x1024 X shapeCasts_S8x2048x1024_S16384x1024 (ix2 r d) = X (ix3 b t d) :=
  shapeCast_apply X _ _ _ (by
    rw [Shape.rowMajor_val_three, Shape.rowMajor_val_two]
    show (b.val * 2048 + t.val) * 1024 + d.val = r.val * 1024 + d.val
    rw [hr]; ring)

/-- Splitting [16384, 1024] back to [8, 2048, 1024]: the pair (b, t) is row 2048·b + t. -/
theorem kv_split_at {α : Type} (X : S16384x1024.Idx → α) (b : Fin 8) (t : Fin 2048) (d : Fin 1024) (r : Fin 16384)
    (hr : r.val = 2048 * b.val + t.val) :
    shapeCast S8x2048x1024 X shapeCasts_S16384x1024_S8x2048x1024 (ix3 b t d) = X (ix2 r d) :=
  shapeCast_apply X _ _ _ (by
    rw [Shape.rowMajor_val_three, Shape.rowMajor_val_two]
    show r.val * 1024 + d.val = (b.val * 2048 + t.val) * 1024 + d.val
    rw [hr]; ring)

/-! ## What the host stretches leave, read at the buffers region 1 uses -/

section Host

variable {F : FTy → Type} [FloatOps F]

/-- The one reshape between regions 0 and 1 writes `main_v11` only. -/
theorem kv_hostOps1_keeps (W : Valuation τ sig (Elt F)) (b : Ref sig .tc) (h : b ≠ main_v11) :
    StableHlo.after hostOps1 W (Proc.devRef .tc b) = W (Proc.devRef .tc b) := by
  dsimp only [hostOps1]
  simp only [StableHlo.after_cons, StableHlo.after_nil]
  exact StableHlo.reshape_result_ne _ _ _ _ _ _ W h

/-- Of the two reshapes between regions 1 and 2, the first gives the key array as region 1's first result, split; -/
theorem kv_hostOps2_v13 (W : Valuation τ sig (Elt F)) :
    (StableHlo.after hostOps2 W (Proc.devRef .tc main_v13) : S8x2048x1024.Idx → Elt F .bf16)
      = shapeCast S8x2048x1024 (W (Proc.devRef .tc main_v12_0) : S16384x1024.Idx → Elt F .bf16) shapeCasts_S16384x1024_S8x2048x1024 := by
  dsimp only [hostOps2]; after_results; rfl

/-- the second the value array as its second result, split. -/
theorem kv_hostOps2_v14 (W : Valuation τ sig (Elt F)) :
    (StableHlo.after hostOps2 W (Proc.devRef .tc main_v14) : S8x2048x1024.Idx → Elt F .bf16)
      = shapeCast S8x2048x1024 (W (Proc.devRef .tc main_v12_1) : S16384x1024.Idx → Elt F .bf16) shapeCasts_S16384x1024_S8x2048x1024 := by
  dsimp only [hostOps2]; after_results; rfl

end Host

section Values

variable (m : (ℓ : Loc nD τ sig) → Buf (Elt Ideal) ℓ) (ρ : Dev nD → PrngReg) (c : Dev nD)

/-- A buffer written before region 0, no array of region 0 and not the reshape's result, is at region 1's entry what
    the first host stretch left. -/
theorem V3_eq_V1 (b : Ref sig .tc) (h0 : ∀ w, Pipeline.arrRef spec0 w ≠ b) (h11 : b ≠ main_v11) :
    W3 (F := Ideal) m ρ c (Proc.devRef .tc b) = W1 (F := Ideal) m ρ c (Proc.devRef .tc b) :=
  (kv_hostOps1_keeps (W2 m ρ c) b h11).trans (W2_of_ne m ρ c b h0)

/-- Region 1's rows: the second argument flattened, so row 2048·b + t is its (b, t). -/
theorem V3_v1_at (b : Fin 8) (t : Fin 2048) (d : Fin 1024) (r : Fin 16384) (hr : r.val = 2048 * b.val + t.val) :
    (V3 (F := Ideal) m ρ c main_v1 : S16384x1024.Idx → EReal) (ix2 r d)
      = (m ((c : Thread nD τ).loc main_arg1) : S8x2048x1024.Idx → EReal) (ix3 b t d) := by
  have e : (V3 (F := Ideal) m ρ c main_v1 : S16384x1024.Idx → EReal)
      = shapeCast S16384x1024 (m ((c : Thread nD τ).loc main_arg1) : S8x2048x1024.Idx → EReal) shapeCasts_S8x2048x1024_S16384x1024 := by
    refine (V3_eq_V1 m ρ c main_v1 (by decide) (by decide)).trans ?_
    dsimp only [W1, hostOps0]; after_results; rfl
  rw [e]; exact kv_flatten_at _ b t d r hr

/-- Region 1's first weight: the key weight transposed — entry (d, e) is the weight's (e, d). -/
theorem V3_v7_at (d e : Fin 1024) :
    (V3 (F := Ideal) m ρ c main_v7 : S1024x1024.Idx → EReal) (ix2 d e)
      = (m ((c : Thread nD τ).loc main_arg3) : S1024x1024.Idx → EReal) (ix2 e d) := by
  have e7 : (V3 (F := Ideal) m ρ c main_v7 : S1024x1024.Idx → EReal)
      = (truncf .bf16 (transpose S1024x1024 [1, 0] (m ((c : Thread nD τ).loc main_arg3) : FVec Ideal S1024x1024 .f32)
          transposes_S1024x1024_S1024x1024_1_0) bitsLt_bf16_f32 : FVec Ideal S1024x1024 .bf16) := by
    refine (V3_eq_V1 m ρ c main_v7 (by decide) (by decide)).trans ?_
    dsimp only [W1, hostOps0]; after_results; try rfl
  rw [e7, truncf_apply, transpose_ix2_apply]

/-- Region 1's second weight: the value weight transposed. -/
theorem V3_v9_at (d e : Fin 1024) :
    (V3 (F := Ideal) m ρ c main_v9 : S1024x1024.Idx → EReal) (ix2 d e)
      = (m ((c : Thread nD τ).loc main_arg4) : S1024x1024.Idx → EReal) (ix2 e d) := by
  have e9 : (V3 (F := Ideal) m ρ c main_v9 : S1024x1024.Idx → EReal)
      = (truncf .bf16 (transpose S1024x1024 [1, 0] (m ((c : Thread nD τ).loc main_arg4) : FVec Ideal S1024x1024 .f32)
          transposes_S1024x1024_S1024x1024_1_0) bitsLt_bf16_f32 : FVec Ideal S1024x1024 .bf16) := by
    refine (V3_eq_V1 m ρ c main_v9 (by decide) (by decide)).trans ?_
    dsimp only [W1, hostOps0]; after_results; try rfl
  rw [e9, truncf_apply, transpose_ix2_apply]

end Values

/-! ## Region 1's result arrays -/

section Region1

variable (V : (c : Dev nD) → (b : Ref sig .tc) → Buf (Elt Ideal) ((c : Thread nD τ).loc b))

theorem hz2kv : (![0, 0] : Fin 2 → Nat) = fun _ => 0 := funext fun a => by fin_cases a <;> rfl

/-- The index maps, decided over the 32 points: the row block moves with the point, the weights stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem tN1 (t : Fin cfg1.N) : t.val < 32 := lt_of_lt_of_eq t.isLt (show cfg1.N = 32 from N_1)

/-- The row block at point t holds rows 512·t … of the flattened rows. -/
theorem blk1_0_at (c : Dev nD) (t : Fin cfg1.N) (p : Fin 512) (d : Fin 1024) :
    iblk1 V c 0 t (ix2 p d)
      = (V c main_v1 : S16384x1024.Idx → EReal) (ix2 (⟨512 * t.val + p.val, by have := tN1 t; have := p.isLt; omega⟩ : Fin 16384) d) := by
  obtain ⟨e0, e1, -⟩ := idx_facts1 t
  show (V c main_v1 : S16384x1024.Idx → EReal) (((cfg1.win 0).blk t).view.emb (ix2 p d)) = _
  refine congrArg _ (funext fun a => Fin.ext ?_)
  match a with
  | ⟨0, _⟩ => show win1_0.index t (0 : Fin 2) * 512 + 1 * p.val = 512 * t.val + p.val; omega
  | ⟨1, _⟩ => show win1_0.index t (1 : Fin 2) * 1024 + 1 * d.val = d.val; omega

/-- The first weight's block is the whole weight, at every point; -/
theorem blk1_1_at (c : Dev nD) (t : Fin cfg1.N) (d e : Fin 1024) :
    iblk1 V c 1 t (ix2 d e) = (V c main_v7 : S1024x1024.Idx → EReal) (ix2 d e) := by
  obtain ⟨-, -, e0, e1, -⟩ := idx_facts1 t
  show (V c main_v7 : S1024x1024.Idx → EReal) (((cfg1.win 1).blk t).view.emb (ix2 d e)) = _
  refine congrArg _ (funext fun a => Fin.ext ?_)
  match a with
  | ⟨0, _⟩ => show win1_1.index t (0 : Fin 2) * 1024 + 1 * d.val = d.val; omega
  | ⟨1, _⟩ => show win1_1.index t (1 : Fin 2) * 1024 + 1 * e.val = e.val; omega

/-- the second weight's likewise. -/
theorem blk1_2_at (c : Dev nD) (t : Fin cfg1.N) (d e : Fin 1024) :
    iblk1 V c 2 t (ix2 d e) = (V c main_v9 : S1024x1024.Idx → EReal) (ix2 d e) := by
  obtain ⟨-, -, -, -, e0, e1, -⟩ := idx_facts1 t
  show (V c main_v9 : S1024x1024.Idx → EReal) (((cfg1.win 2).blk t).view.emb (ix2 d e)) = _
  refine congrArg _ (funext fun a => Fin.ext ?_)
  match a with
  | ⟨0, _⟩ => show win1_2.index t (0 : Fin 2) * 1024 + 1 * d.val = d.val; omega
  | ⟨1, _⟩ => show win1_2.index t (1 : Fin 2) * 1024 + 1 * e.val = e.val; omega

/-- Rows against a transposed weight, entry (r, e): what either result array holds. -/
def rowsDot (X : S16384x1024.Idx → EReal) (Wt : S1024x1024.Idx → EReal) : S16384x1024.Idx → EReal :=
  fun i => ∑ d : Fin 1024, X (ix2 (⟨(i 0).val, (i 0).isLt⟩ : Fin 16384) d) * Wt (ix2 d (⟨(i 1).val, (i 1).isLt⟩ : Fin 1024))

theorem rowsDot_at (X : S16384x1024.Idx → EReal) (Wt : S1024x1024.Idx → EReal) (r : Fin 16384) (e : Fin 1024) :
    rowsDot X Wt (ix2 r e) = ∑ d : Fin 1024, X (ix2 r d) * Wt (ix2 d e) := rfl

/-- When the rows are those of an activation array flattened and the weight is transposed, that entry is the
    projection of the specification. -/
theorem rowsDot_proj (X : S16384x1024.Idx → EReal) (Wt : S1024x1024.Idx → EReal) (ctx : Cert.Attn.SX.Idx → EReal)
    (w : Cert.Attn.SW.Idx → EReal) (b : Fin 8) (t : Fin 2048) (e : Fin 1024) (r : Fin 16384)
    (hX : ∀ d : Fin 1024, X (ix2 r d) = ctx (ix3 b t d)) (hW : ∀ d : Fin 1024, Wt (ix2 d e) = w (ix2 e d)) :
    rowsDot X Wt (ix2 r e) = Cert.Attn.proj ctx w b t e := by
  rw [rowsDot_at]
  unfold Cert.Attn.proj
  exact Finset.sum_congr rfl fun d _ => by rw [hX d, hW d]

/-- Where the first result's block at point t sits in its array: rows 512·t …. -/
theorem emb1_3_at (t : Fin cfg1.N) (p : Fin 512) (q : Fin 1024) :
    ((cfg1.win 3).blk t).view.emb (ix2 p q)
      = ix2 (⟨512 * t.val + p.val, by have := tN1 t; have := p.isLt; omega⟩ : Fin 16384) q := by
  obtain ⟨-, -, -, -, -, -, e0, e1, -⟩ := idx_facts1 t
  refine funext fun a => Fin.ext ?_
  match a with
  | ⟨0, _⟩ => show win1_3.index t (0 : Fin 2) * 512 + 1 * p.val = 512 * t.val + p.val; omega
  | ⟨1, _⟩ => show win1_3.index t (1 : Fin 2) * 1024 + 1 * q.val = q.val; omega

theorem emb1_4_at (t : Fin cfg1.N) (p : Fin 512) (q : Fin 1024) :
    ((cfg1.win 4).blk t).view.emb (ix2 p q)
      = ix2 (⟨512 * t.val + p.val, by have := tN1 t; have := p.isLt; omega⟩ : Fin 16384) q := by
  obtain ⟨-, -, -, -, -, -, -, -, e0, e1⟩ := idx_facts1 t
  refine funext fun a => Fin.ext ?_
  match a with
  | ⟨0, _⟩ => show win1_4.index t (0 : Fin 2) * 512 + 1 * p.val = 512 * t.val + p.val; omega
  | ⟨1, _⟩ => show win1_4.index t (1 : Fin 2) * 1024 + 1 * q.val = q.val; omega

/-- What point t writes back to the first result is block t of the rows against the first weight. -/
theorem flushed1_3_eq (c : Dev nD) (t : Fin cfg1.N) :
    (dat1 V c).flushed 3 t
      = ((cfg1.win 3).blk t).view.read (Elt Ideal) (rowsDot (V c main_v1 : S16384x1024.Idx → EReal) (V c main_v7 : S1024x1024.Idx → EReal)) := by
  show (cfg1.win 3).cut (grid1.coords t) ((dat1 V c).after 3 t) = _
  rw [after1_3]
  unfold out1_3
  rw [View.canon_unit_zero hz2kv]
  simp only [View.ld_unit_zero (S := S512x1024) hz2kv, View.ld_unit_zero (S := S1024x1024) hz2kv]
  funext j
  obtain ⟨p, q, rfl⟩ : ∃ (p : Fin 512) (q : Fin 1024), j = ix2 p q := ⟨j 0, j 1, eq_ix2 j⟩
  show k1_pay2 (F := Ideal) (iblk1 V c 0 t) (iblk1 V c 1 t) (ix2 p q)
    = rowsDot (V c main_v1 : S16384x1024.Idx → EReal) (V c main_v7 : S1024x1024.Idx → EReal) (((cfg1.win 3).blk t).view.emb (ix2 p q))
  rw [emb1_3_at t p q, rowsDot_at]
  refine (kpay_at (iblk1 V c 0 t) (iblk1 V c 1 t) p q).trans ?_
  refine Finset.sum_congr rfl fun d _ => ?_
  rw [blk1_0_at V c t p d, blk1_1_at V c t d q]

/-- and to the second result, of the rows against the second weight. -/
theorem flushed1_4_eq (c : Dev nD) (t : Fin cfg1.N) :
    (dat1 V c).flushed 4 t
      = ((cfg1.win 4).blk t).view.read (Elt Ideal) (rowsDot (V c main_v1 : S16384x1024.Idx → EReal) (V c main_v9 : S1024x1024.Idx → EReal)) := by
  show (cfg1.win 4).cut (grid1.coords t) ((dat1 V c).after 4 t) = _
  rw [after1_4]
  unfold out1_4
  rw [View.canon_unit_zero hz2kv]
  simp only [View.ld_unit_zero (S := S512x1024) hz2kv, View.ld_unit_zero (S := S1024x1024) hz2kv]
  funext j
  obtain ⟨p, q, rfl⟩ : ∃ (p : Fin 512) (q : Fin 1024), j = ix2 p q := ⟨j 0, j 1, eq_ix2 j⟩
  show k1_pay3 (F := Ideal) (iblk1 V c 0 t) (iblk1 V c 2 t) (ix2 p q)
    = rowsDot (V c main_v1 : S16384x1024.Idx → EReal) (V c main_v9 : S1024x1024.Idx → EReal) (((cfg1.win 4).blk t).view.emb (ix2 p q))
  rw [emb1_4_at t p q, rowsDot_at]
  refine (vpay_at (iblk1 V c 0 t) (iblk1 V c 2 t) p q).trans ?_
  refine Finset.sum_congr rfl fun d _ => ?_
  rw [blk1_0_at V c t p d, blk1_2_at V c t d q]

/-- An index of a result array is in point t's block iff each coordinate is in the block's range on its axis. -/
theorem mem_blk1_3 (t : Fin cfg1.N) (i : S16384x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v12_0).slice (win1_3.rect t)).set ↔ _
  rw [View.set_slice_whole, Rect.mem_set_unit]
  exact Iff.rfl

theorem mem_blk1_4 (t : Fin cfg1.N) (i : S16384x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v12_1).slice (win1_4.rect t)).set ↔ _
  rw [View.set_slice_whole, Rect.mem_set_unit]
  exact Iff.rfl

/-- The 32 blocks of 512 rows tile the 16384 rows: row r is in the block of point r / 512. -/
theorem cover1_3_arr (i : S16384x1024.Idx) :
    ∃ t : Fin cfg1.N, (cfg1.win 3).flush t = true ∧ i ∈ ((cfg1.win 3).blk t).view.set := by
  have hi0 : (i 0).val < 16384 := (i 0).isLt
  have hi1 : (i 1).val < 1024 := (i 1).isLt
  let t : Fin cfg1.N := ⟨(i 0).val / 512, by rw [show cfg1.N = 32 from N_1]; omega⟩
  have htv : t.val = (i 0).val / 512 := rfl
  obtain ⟨-, -, -, -, -, -, e0, e1, -⟩ := idx_facts1 t
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

theorem cover1_4_arr (i : S16384x1024.Idx) :
    ∃ t : Fin cfg1.N, (cfg1.win 4).flush t = true ∧ i ∈ ((cfg1.win 4).blk t).view.set := by
  have hi0 : (i 0).val < 16384 := (i 0).isLt
  have hi1 : (i 1).val < 1024 := (i 1).isLt
  let t : Fin cfg1.N := ⟨(i 0).val / 512, by rw [show cfg1.N = 32 from N_1]; omega⟩
  have htv : t.val = (i 0).val / 512 := rfl
  obtain ⟨-, -, -, -, -, -, -, -, e0, e1⟩ := idx_facts1 t
  refine ⟨t, flush1_4 t, ?_⟩
  rw [mem_blk1_4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 1024 ≤ (i 1).val ∧ (i 1).val < win1_4.index t (1 : Fin 2) * 1024 + 1024; omega

/-- The first result array after the region: the rows against the first weight, entry by entry; -/
theorem arr1_3 (c : Dev nD) :
    (dat1 V c).arrAt 3 cfg1.N = rowsDot (V c main_v1 : S16384x1024.Idx → EReal) (V c main_v7 : S1024x1024.Idx → EReal) :=
  (dat1 V c).arrAt_eq_of_cover 3 _ (fun t _ => flushed1_3_eq V c t) cover1_3_arr

/-- the second: the rows against the second weight. -/
theorem arr1_4 (c : Dev nD) :
    (dat1 V c).arrAt 4 cfg1.N = rowsDot (V c main_v1 : S16384x1024.Idx → EReal) (V c main_v9 : S1024x1024.Idx → EReal) :=
  (dat1 V c).arrAt_eq_of_cover 4 _ (fun t _ => flushed1_4_eq V c t) cover1_4_arr

end Region1

end Cert.KernelIdeal.Hand.KeyValue

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Cert.KernelIdeal.Hand.KeyValue

/-! ## The key and value arrays region 2 finds -/

/-- Entry (b, t, e) of the key array: row (b, t) of the second argument against row e of the key weight. -/
theorem V5_v13 (m : (ℓ : Loc nD τ sig) → Buf (Elt Ideal) ℓ) (ρ : Dev nD → PrngReg) (c : Dev nD) (b : Fin 8) (t : Fin 2048) (e : Fin 1024) :
    Karr (V5 (F := Ideal) m ρ) c (ix3 b t e)
      = Cert.Attn.proj (m ((c : Thread nD τ).loc main_arg1)) (m ((c : Thread nD τ).loc main_arg3)) b t e := by
  have hr : 2048 * b.val + t.val < 16384 := by have := b.isLt; have := t.isLt; omega
  have hW : (W4 (F := Ideal) m ρ c (Proc.devRef .tc main_v12_0) : S16384x1024.Idx → EReal)
      = rowsDot (V3 (F := Ideal) m ρ c main_v1 : S16384x1024.Idx → EReal) (V3 (F := Ideal) m ρ c main_v7 : S1024x1024.Idx → EReal) :=
    (W4_arr m ρ c 3).trans (arr1_3 (V3 (F := Ideal) m ρ) c)
  unfold Karr
  refine (congrFun (kv_hostOps2_v13 (W4 (F := Ideal) m ρ c)) (ix3 b t e)).trans ?_
  refine (kv_split_at _ b t e ⟨2048 * b.val + t.val, hr⟩ rfl).trans ?_
  rw [hW]
  exact rowsDot_proj _ _ _ _ b t e ⟨2048 * b.val + t.val, hr⟩
    (fun d => V3_v1_at m ρ c b t d ⟨2048 * b.val + t.val, hr⟩ rfl) (fun d => V3_v7_at m ρ c d e)

/-- Entry (b, t, e) of the value array: row (b, t) of the second argument against row e of the value weight. -/
theorem V5_v14 (m : (ℓ : Loc nD τ sig) → Buf (Elt Ideal) ℓ) (ρ : Dev nD → PrngReg) (c : Dev nD) (b : Fin 8) (t : Fin 2048) (e : Fin 1024) :
    Varr (V5 (F := Ideal) m ρ) c (ix3 b t e)
      = Cert.Attn.proj (m ((c : Thread nD τ).loc main_arg1)) (m ((c : Thread nD τ).loc main_arg4)) b t e := by
  have hr : 2048 * b.val + t.val < 16384 := by have := b.isLt; have := t.isLt; omega
  have hW : (W4 (F := Ideal) m ρ c (Proc.devRef .tc main_v12_1) : S16384x1024.Idx → EReal)
      = rowsDot (V3 (F := Ideal) m ρ c main_v1 : S16384x1024.Idx → EReal) (V3 (F := Ideal) m ρ c main_v9 : S1024x1024.Idx → EReal) :=
    (W4_arr m ρ c 4).trans (arr1_4 (V3 (F := Ideal) m ρ) c)
  unfold Varr
  refine (congrFun (kv_hostOps2_v14 (W4 (F := Ideal) m ρ c)) (ix3 b t e)).trans ?_
  refine (kv_split_at _ b t e ⟨2048 * b.val + t.val, hr⟩ rfl).trans ?_
  rw [hW]
  exact rowsDot_proj _ _ _ _ b t e ⟨2048 * b.val + t.val, hr⟩
    (fun d => V3_v1_at m ρ c b t d ⟨2048 * b.val + t.val, hr⟩ rfl) (fun d => V3_v9_at m ρ c d e)

end Cert.KernelIdeal.Hand

end
-- ==== Proof.RefSpec.lean ====
/-
  The reference program computes the softmax attention of the specification, entry by entry.

  Read at an entry (b, s, e), the reference's last operation is a sum over the key rows t of a weight times a value
  projection. Going back through its operations at explicit coordinates: the three linear layers are the rows of the
  activations against the rows of the weights; the scaled score of (s, t) is their inner product times the scale word;
  the row maximum is a fold of max from −∞ over the 2048 key rows (then max with −∞ once more), which is the supremum
  of the scores; the exponentials of score minus maximum are summed from 0; each is divided by that sum. These are,
  literally, the maximum M, the normaliser L and the weighted sum of the specification.
-/
import proofs.«148640_j1743756722493_2_alg».proof.Proof.Gen.ReferenceIdeal.Read
import proofs.«148640_j1743756722493_2_alg».proof.Proof.Math.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-! ## Indices of the operands, at explicit coordinates -/

/-- entry k along the third axis over the reduced index (b, s) -/
theorem lift_ix3 (h : S8x2048x2048.Reduces [2] S8x2048) (b : Fin 8) (s : Fin 2048)
    (k : Fin (S8x2048x2048.size 2)) : h.lift (ix2 b s) k = ix3 b s (⟨k.val, k.isLt⟩ : Fin 2048) := by
  funext c; apply Fin.ext
  fin_cases c <;> rfl

/-! ## The three linear layers -/

theorem v0_at (x0 : (⟨S8x2048x1024, .f32⟩ : BufTy).Contents (Elt Ideal)) (x2 : (⟨S1024x1024, .f32⟩ : BufTy).Contents (Elt Ideal))
    (b : Fin 8) (s : Fin 2048) (e : Fin 1024) :
    val_main_v0 (F := Ideal) x0 x2 (ix3 b s e) = Cert.Attn.proj x0 x2 b s e := by
  rw [val_main_v0_apply]
  unfold Cert.Attn.proj
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

theorem v1_at (x1 : (⟨S8x2048x1024, .f32⟩ : BufTy).Contents (Elt Ideal)) (x3 : (⟨S1024x1024, .f32⟩ : BufTy).Contents (Elt Ideal))
    (b : Fin 8) (s : Fin 2048) (e : Fin 1024) :
    val_main_v1 (F := Ideal) x1 x3 (ix3 b s e) = Cert.Attn.proj x1 x3 b s e := by
  rw [val_main_v1_apply]
  unfold Cert.Attn.proj
  refine Finset.sum_congr rfl fun d _ => ?_
  have el : lidx_main_v1 (ix3 b s e) d = ix3 b s d :=
    funext fun a => Fin.ext (by match a with | ⟨0, _⟩ => rfl | ⟨1, _⟩ => rfl | ⟨2, _⟩ => rfl)
  have er : ridx_main_v1 (ix3 b s e) d = ix2 e d :=
    funext fun a => Fin.ext (by match a with | ⟨0, _⟩ => rfl | ⟨1, _⟩ => rfl)
  rw [el, er]

theorem v2_at (x1 : (⟨S8x2048x1024, .f32⟩ : BufTy).Contents (Elt Ideal)) (x4 : (⟨S1024x1024, .f32⟩ : BufTy).Contents (Elt Ideal))
    (b : Fin 8) (s : Fin 2048) (e : Fin 1024) :
    val_main_v2 (F := Ideal) x1 x4 (ix3 b s e) = Cert.Attn.proj x1 x4 b s e := by
  rw [val_main_v2_apply]
  unfold Cert.Attn.proj
  refine Finset.sum_congr rfl fun d _ => ?_
  have el : lidx_main_v2 (ix3 b s e) d = ix3 b s d :=
    funext fun a => Fin.ext (by match a with | ⟨0, _⟩ => rfl | ⟨1, _⟩ => rfl | ⟨2, _⟩ => rfl)
  have er : ridx_main_v2 (ix3 b s e) d = ix2 e d :=
    funext fun a => Fin.ext (by match a with | ⟨0, _⟩ => rfl | ⟨1, _⟩ => rfl)
  rw [el, er]

/-! ## The scaled scores -/

theorem v5_at (x0 x1 : (⟨S8x2048x1024, .f32⟩ : BufTy).Contents (Elt Ideal)) (x2 x3 : (⟨S1024x1024, .f32⟩ : BufTy).Contents (Elt Ideal))
    (b : Fin 8) (s t : Fin 2048) :
    val_main_v5 (F := Ideal) x0 x1 x2 x3 (ix3 b s t) = Cert.Attn.score x0 x1 x2 x3 b s t := by
  rw [val_main_v5_apply, val_main_v3_apply, val_main_v4_apply, val_main_cst_apply]
  unfold Cert.Attn.score Cert.Attn.scale
  rw [Ideal.mulf_def, Ideal.ofBits_def]
  refine congrArg (· * _) (Finset.sum_congr rfl fun e _ => ?_)
  have el : lidx_main_v3 (ix3 b s t) e = ix3 b s e :=
    funext fun a => Fin.ext (by match a with | ⟨0, _⟩ => rfl | ⟨1, _⟩ => rfl | ⟨2, _⟩ => rfl)
  have er : ridx_main_v3 (ix3 b s t) e = ix3 b t e :=
    funext fun a => Fin.ext (by match a with | ⟨0, _⟩ => rfl | ⟨1, _⟩ => rfl | ⟨2, _⟩ => rfl)
  rw [el, er, v0_at, v1_at]

/-! ## The row maximum -/

/-- the word 0xFF800000 is −∞ -/
theorem ofBits_neg_inf : Ideal.ofBits .f32 0xFF800000#32 = (⊥ : EReal) := by simp [Ideal.ofBits, Ideal.ieee]

/-- a maximum-reduce from −∞ along the third axis is, at (b, s), the supremum of the row -/
theorem hostMax_at (y : S8x2048x2048.Idx → EReal) (init : S_.Idx → EReal) (hinit : init (Shape.Idx.first h_S_) = ⊥)
    (b : Fin 8) (s : Fin 2048) :
    Host.reduce (FloatOps.maximumf (F := Ideal) (φ := .f32)) y init reducesTo_S8x2048x2048_S8x2048_d2 h_S_ (ix2 b s)
      = Finset.univ.sup fun t : Fin 2048 => y (ix3 b s t) := by
  have h : S8x2048x2048.Reduces [2] S8x2048 := by decide
  refine (Host.reduce_eq_fold_single (FloatOps.maximumf (F := Ideal) (φ := .f32)) y init
    reducesTo_S8x2048x2048_S8x2048_d2 h h_S_ (ix2 b s)).trans ?_
  rw [hinit]
  have hf : (y ∘ h.lift (ix2 b s)) = fun t : Fin 2048 => y (ix3 b s t) :=
    funext fun k => congrArg y (lift_ix3 h b s k)
  exact congrArg (fun f => Finset.fold max (⊥ : EReal) f (Finset.univ : Finset (Fin 2048))) hf

/-- the fold of the maximum from −∞ along the key axis is the supremum of the scores -/
theorem v6_at (x0 x1 : (⟨S8x2048x1024, .f32⟩ : BufTy).Contents (Elt Ideal)) (x2 x3 : (⟨S1024x1024, .f32⟩ : BufTy).Contents (Elt Ideal))
    (b : Fin 8) (s : Fin 2048) :
    val_main_v6 (F := Ideal) x0 x1 x2 x3 (ix2 b s) = Finset.univ.sup fun t : Fin 2048 => Cert.Attn.score x0 x1 x2 x3 b s t := by
  unfold val_main_v6
  refine (hostMax_at _ _ ?_ b s).trans ?_
  · rw [val_main_cst_0_apply, Ideal.ofBits_def, ofBits_neg_inf]
  · exact congrArg (Finset.univ.sup) (funext fun t => v5_at x0 x1 x2 x3 b s t)

theorem v8_at (x0 x1 : (⟨S8x2048x1024, .f32⟩ : BufTy).Contents (Elt Ideal)) (x2 x3 : (⟨S1024x1024, .f32⟩ : BufTy).Contents (Elt Ideal))
    (b : Fin 8) (s : Fin 2048) :
    val_main_v8 (F := Ideal) x0 x1 x2 x3 (ix2 b s) = Finset.univ.sup fun t : Fin 2048 => Cert.Attn.score x0 x1 x2 x3 b s t := by
  rw [val_main_v8_apply, val_main_v7_apply, val_main_cst_1_apply, v6_at, Ideal.maximumf_def, Ideal.ofBits_def, ofBits_neg_inf]
  exact max_eq_right bot_le

theorem v10_at (x0 x1 : (⟨S8x2048x1024, .f32⟩ : BufTy).Contents (Elt Ideal)) (x2 x3 : (⟨S1024x1024, .f32⟩ : BufTy).Contents (Elt Ideal))
    (b : Fin 8) (s t : Fin 2048) :
    val_main_v10 (F := Ideal) x0 x1 x2 x3 (ix3 b s t) = Finset.univ.sup fun t : Fin 2048 => Cert.Attn.score x0 x1 x2 x3 b s t := by
  rw [val_main_v10_apply, val_main_v9_apply]
  have ei : idx_main_v9 (idx_main_v10 (ix3 b s t)) = ix2 b s :=
    funext fun a => Fin.ext (by match a with | ⟨0, _⟩ => rfl | ⟨1, _⟩ => rfl)
  rw [ei, v8_at]

/-! ## The exponentials, their sum, the weights -/

theorem v12_at (x0 x1 : (⟨S8x2048x1024, .f32⟩ : BufTy).Contents (Elt Ideal)) (x2 x3 : (⟨S1024x1024, .f32⟩ : BufTy).Contents (Elt Ideal))
    (b : Fin 8) (s t : Fin 2048) :
    val_main_v12 (F := Ideal) x0 x1 x2 x3 (ix3 b s t)
      = Ideal.exp (Cert.Attn.score x0 x1 x2 x3 b s t - Finset.univ.sup fun t : Fin 2048 => Cert.Attn.score x0 x1 x2 x3 b s t) := by
  rw [val_main_v12_apply, val_main_v11_apply, v5_at, v10_at, Ideal.hostUnary_exp_def, Ideal.subf_def]

theorem v13_at (x0 x1 : (⟨S8x2048x1024, .f32⟩ : BufTy).Contents (Elt Ideal)) (x2 x3 : (⟨S1024x1024, .f32⟩ : BufTy).Contents (Elt Ideal))
    (b : Fin 8) (s : Fin 2048) :
    val_main_v13 (F := Ideal) x0 x1 x2 x3 (ix2 b s)
      = ∑ t : Fin 2048, Ideal.exp (Cert.Attn.score x0 x1 x2 x3 b s t - Finset.univ.sup fun t : Fin 2048 => Cert.Attn.score x0 x1 x2 x3 b s t) := by
  rw [val_main_v13_apply, val_main_cst_2_apply, Ideal.ofBits_def, Ideal.ofBits_zero_f32, zero_add]
  refine Finset.sum_congr rfl fun t _ => ?_
  have ei : idx_main_v13 (ix2 b s) t = ix3 b s t :=
    funext fun a => Fin.ext (by match a with | ⟨0, _⟩ => rfl | ⟨1, _⟩ => rfl | ⟨2, _⟩ => rfl)
  rw [ei, v12_at]

theorem v15_at (x0 x1 : (⟨S8x2048x1024, .f32⟩ : BufTy).Contents (Elt Ideal)) (x2 x3 : (⟨S1024x1024, .f32⟩ : BufTy).Contents (Elt Ideal))
    (b : Fin 8) (s t : Fin 2048) :
    val_main_v15 (F := Ideal) x0 x1 x2 x3 (ix3 b s t)
      = ∑ t : Fin 2048, Ideal.exp (Cert.Attn.score x0 x1 x2 x3 b s t - Finset.univ.sup fun t : Fin 2048 => Cert.Attn.score x0 x1 x2 x3 b s t) := by
  rw [val_main_v15_apply, val_main_v14_apply]
  have ei : idx_main_v14 (idx_main_v15 (ix3 b s t)) = ix2 b s :=
    funext fun a => Fin.ext (by match a with | ⟨0, _⟩ => rfl | ⟨1, _⟩ => rfl)
  rw [ei, v13_at]

theorem v16_at (x0 x1 : (⟨S8x2048x1024, .f32⟩ : BufTy).Contents (Elt Ideal)) (x2 x3 : (⟨S1024x1024, .f32⟩ : BufTy).Contents (Elt Ideal))
    (b : Fin 8) (s t : Fin 2048) :
    val_main_v16 (F := Ideal) x0 x1 x2 x3 (ix3 b s t)
      = Ideal.div (Ideal.exp (Cert.Attn.score x0 x1 x2 x3 b s t - Finset.univ.sup fun t : Fin 2048 => Cert.Attn.score x0 x1 x2 x3 b s t))
          (∑ t : Fin 2048, Ideal.exp (Cert.Attn.score x0 x1 x2 x3 b s t - Finset.univ.sup fun t : Fin 2048 => Cert.Attn.score x0 x1 x2 x3 b s t)) := by
  rw [val_main_v16_apply, v12_at, v15_at, Ideal.hostDivf_def]

/-! ## The reference is the specification -/

theorem ref_is_attn (x0 x1 : (⟨Cert.ReferenceIdeal.S8x2048x1024, .f32⟩ : BufTy).Contents (Elt Ideal))
    (x2 x3 x4 : (⟨Cert.ReferenceIdeal.S1024x1024, .f32⟩ : BufTy).Contents (Elt Ideal)) :
    Cert.ReferenceIdeal.Read.val_main_v17 (F := Ideal) x0 x1 x2 x3 x4 = Cert.Attn.attn x0 x1 x2 x3 x4 := by
  funext i
  obtain ⟨b, s, e, rfl⟩ : ∃ (b : Fin 8) (s : Fin 2048) (e : Fin 1024), i = ix3 b s e := ⟨i 0, i 1, i 2, eq_ix3 i⟩
  rw [Cert.Attn.attn_ix3, val_main_v17_apply]
  unfold Cert.Attn.attnAt
  refine Finset.sum_congr rfl fun t _ => ?_
  have el : lidx_main_v17 (ix3 b s e) t = ix3 b s t :=
    funext fun a => Fin.ext (by match a with | ⟨0, _⟩ => rfl | ⟨1, _⟩ => rfl | ⟨2, _⟩ => rfl)
  have er : ridx_main_v17 (ix3 b s e) t = ix3 b t e :=
    funext fun a => Fin.ext (by match a with | ⟨0, _⟩ => rfl | ⟨1, _⟩ => rfl | ⟨2, _⟩ => rfl)
  rw [el, er, v16_at, v2_at]

end Cert.ReferenceIdeal.RefValue

end
-- ==== Proof.PreFinite.lean ====
/-
  The precondition says that every entry of the five argument arrays is a real number.

  The printed predicate is the conjunction of five tests "all |x| < +∞", one per argument. Each "all" is a reduction
  by "and" from 1 into a single cell, so it equals 1 only if every compared bit is 1; a bit 1 says max(x, −x) < +∞ on
  the extended reals, which excludes both infinities and leaves a real.
-/
import proofs.«148640_j1743756722493_2_alg».proof.Defs
import proofs.«148640_j1743756722493_2_alg».proof.Proof.Gen.Pre_finite_inputs
import proofs.«148640_j1743756722493_2_alg».proof.Proof.Math.Tiled
import Idealize.ShloMosaic.Lib.ReduceAll
import Idealize.ShloMosaic.Lib.ValueIdx
import Idealize.ShloMosaic.Lib.Pipeline.Value
import Idealize.ShloMosaic.PureOps.Ideal.Laws

noncomputable section

namespace Cert.Proof.PreFinite

open Idealize.ShloMosaic Idealize.SL.Sem

/-- the scalar shape has one index -/
instance : Subsingleton Cert.Pre_finite_inputs.S_.Idx := ⟨fun a b => funext fun d => d.elim0⟩

/-- the word 0x7F800000 is +∞ -/
theorem ofBits_pos_inf : Ideal.ofBits .f32 0x7F800000#32 = (⊤ : EReal) := by simp [Ideal.ofBits, Ideal.ieee]

/-- |x| < +∞ on the extended reals leaves a real -/
theorem real_of_abs_lt_top (x : EReal) (h : max x (-x) < ⊤) : ∃ r : ℝ, x = (r : EReal) := by
  induction x using EReal.rec with
  | bot => simp at h
  | coe r => exact ⟨r, rfl⟩
  | top => simp at h

/-- one compared bit: 1 only at a real -/
theorem real_of_bit (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : BitVec.ofBool (decide (max x (-x) < Ideal.ofBits .f32 0x7F800000#32)) = 1#1 := h
  rw [ofBits_pos_inf] at h'
  refine real_of_abs_lt_top x ?_
  by_contra hn
  rw [decide_eq_false hn] at h'
  exact absurd h' (by decide)

/-- one "all |x| < +∞" test equal to 1: every entry is a real -/
theorem finite_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi (cmpf .olt (Host.absf x)
        (broadcastInDim S ![] hb (constant (F := Ideal) Cert.Pre_finite_inputs.S_ .f32 0x7F800000#32))) init hr hu j = 1#1) :
    Cert.Attn.Finite x := by
  intro i
  have hi := Host.reduce_andi_all _ init hr hu j e i
  exact real_of_bit (x i) hi

theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Attn.Finite (m ((c.tc : Thread Cert.KernelIdeal.nD Cert.KernelIdeal.τ).loc Cert.KernelIdeal.main_arg0))
    ∧ Cert.Attn.Finite (m ((c.tc : Thread Cert.KernelIdeal.nD Cert.KernelIdeal.τ).loc Cert.KernelIdeal.main_arg1))
    ∧ Cert.Attn.Finite (m ((c.tc : Thread Cert.KernelIdeal.nD Cert.KernelIdeal.τ).loc Cert.KernelIdeal.main_arg2))
    ∧ Cert.Attn.Finite (m ((c.tc : Thread Cert.KernelIdeal.nD Cert.KernelIdeal.τ).loc Cert.KernelIdeal.main_arg3))
    ∧ Cert.Attn.Finite (m ((c.tc : Thread Cert.KernelIdeal.nD Cert.KernelIdeal.τ).loc Cert.KernelIdeal.main_arg4)) := by
  have h0 := congrFun (h c) ValueIdx.ix0
  unfold Cert.Pre_finite_inputs.fn Cert.Pre_finite_inputs.fn_part1 at h0
  dsimp only at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨finite_of_all _ _ _ _ _ _ h0', finite_of_all _ _ _ _ _ _ h1, finite_of_all _ _ _ _ _ _ h2,
    finite_of_all _ _ _ _ _ _ h3, finite_of_all _ _ _ _ _ _ h4⟩

end Cert.Proof.PreFinite

end
-- ==== Proof.lean ====
/-
  Softmax attention with its three linear layers, computed two ways, is one function of the arguments on extended reals.

  The kernel program projects the query rows with the scale 1/32 multiplied into the weight, projects the key and value
  rows, and then runs a tiled attention: for every query tile it walks the four key/value tiles keeping, per query row, a
  running maximum, a running normaliser and a running accumulator (the online softmax recurrence), and writes
  accumulator / normaliser at the last tile. The reference scales the scores instead, takes the row maximum, exponentials,
  their sum and the quotient in one pass. On real-valued inputs (the precondition: every entry finite) both give, at entry
  (b, s, e), the sum over the key rows t of exp (score − max) / (sum of those) times the value entry: the scale moves out
  of the inner sums because everything is finite, and the recurrence's invariant — exp (running maximum) times the running
  sums equals the plain sums of exp (score) — holds whatever the running maximum is.

  The three frames: each kernel program's run through its three regions (two projections with whole-block stores, and the
  attention region whose scratch buffers carry the running state from one grid point to the next), and the reference's run
  as a straight line of host operations. The word-level program and its idealization have the same text, and the
  idealization rewrote nothing, so nothing is owed for it.
-/
import proofs.«148640_j1743756722493_2_alg».proof.Defs
import proofs.«148640_j1743756722493_2_alg».proof.Proof.Gen.Kernel
import proofs.«148640_j1743756722493_2_alg».proof.Proof.Gen.KernelIdeal
import proofs.«148640_j1743756722493_2_alg».proof.Proof.Gen.ReferenceIdeal
import proofs.«148640_j1743756722493_2_alg».proof.Proof.Gen.Pre_finite_inputs
import proofs.«148640_j1743756722493_2_alg».proof.Proof.Gen.ReferenceIdeal.Run
import proofs.«148640_j1743756722493_2_alg».proof.Proof.Gen.ReferenceIdeal.Read
import proofs.«148640_j1743756722493_2_alg».proof.Proof.K.Run
import proofs.«148640_j1743756722493_2_alg».proof.Proof.KI.Run
import proofs.«148640_j1743756722493_2_alg».proof.Proof.KI.KernelValue
import proofs.«148640_j1743756722493_2_alg».proof.Proof.KI.Arrays
import proofs.«148640_j1743756722493_2_alg».proof.Proof.KI.ArraysKV
import proofs.«148640_j1743756722493_2_alg».proof.Proof.RefSpec
import proofs.«148640_j1743756722493_2_alg».proof.Proof.PreFinite
import Idealize.ShloMosaic.Adequacy
import Idealize.ShloMosaic.Init

noncomputable section

namespace Cert.Proof

open Idealize.ShloMosaic Idealize.SL.Sem

/-- The word-level program runs to the end and leaves its arguments as they were. -/
theorem frame_k : Cert.frame_Kernel := fun m ρ _ => Cert.Kernel.Hand.frame m ρ

/-- So does its reading on extended reals. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with softmax attention of the arguments in their result array. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Hand.run_all (F := Ideal) m ρ)
    obtain ⟨hx, hctx, hwq, hwk, hwv⟩ := Cert.Proof.PreFinite.finite_of_pre m hpre c
    exact ⟨(h c _ (Cert.KernelIdeal.Hand.mem_uc Cert.KernelIdeal.main_v15 (by decide))).trans
        (Cert.KernelIdeal.Hand.kernel_value_of m ρ c (Cert.KernelIdeal.Hand.V5_v11 m ρ c) (Cert.KernelIdeal.Hand.V5_v13 m ρ c) (Cert.KernelIdeal.Hand.V5_v14 m ρ c) hx hctx hwq hwk hwv),
      (h c _ (Cert.KernelIdeal.Hand.mem_uc Cert.KernelIdeal.main_arg0 (by decide))).trans (Cert.KernelIdeal.Hand.W6_main_arg0 m ρ c),
      (h c _ (Cert.KernelIdeal.Hand.mem_uc Cert.KernelIdeal.main_arg1 (by decide))).trans (Cert.KernelIdeal.Hand.W6_main_arg1 m ρ c),
      (h c _ (Cert.KernelIdeal.Hand.mem_uc Cert.KernelIdeal.main_arg2 (by decide))).trans (Cert.KernelIdeal.Hand.W6_main_arg2 m ρ c),
      (h c _ (Cert.KernelIdeal.Hand.mem_uc Cert.KernelIdeal.main_arg3 (by decide))).trans (Cert.KernelIdeal.Hand.W6_main_arg3 m ρ c),
      (h c _ (Cert.KernelIdeal.Hand.mem_uc Cert.KernelIdeal.main_arg4 (by decide))).trans (Cert.KernelIdeal.Hand.W6_main_arg4 m ρ c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v17_eq, Cert.ReferenceIdeal.RefValue.ref_is_attn,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
